-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S2x2048x1024 .f32) (main_arg1 : FVec F S1024x1024 .f32) (main_arg2 : FVec F S1024x1024 .f32) (main_arg3 : FVec F S1024x1024 .f32) (main_arg4 : FVec F S1024x1024 .f32) (main_arg5 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1024x3072 : Shape := ⟨2, ![1024, 3072]⟩
abbrev S4096x3072 : Shape := ⟨2, ![4096, 3072]⟩
abbrev S2x2048x16x64 : Shape := ⟨4, ![2, 2048, 16, 64]⟩
abbrev S2x16x2048x64 : Shape := ⟨4, ![2, 16, 2048, 64]⟩
abbrev S1x2x256x64 : Shape := ⟨4, ![1, 2, 256, 64]⟩
abbrev S1x2x2048x64 : Shape := ⟨4, ![1, 2, 2048, 64]⟩
abbrev S1x256x128 : Shape := ⟨3, ![1, 256, 128]⟩
abbrev S2x256x64 : Shape := ⟨3, ![2, 256, 64]⟩
abbrev S2x2048x64 : Shape := ⟨3, ![2, 2048, 64]⟩
abbrev S2x256x2048 : Shape := ⟨3, ![2, 256, 2048]⟩
abbrev S2x256 : Shape := ⟨2, ![2, 256]⟩
abbrev S2x256x1 : Shape := ⟨3, ![2, 256, 1]⟩
abbrev S1x256x64 : Shape := ⟨3, ![1, 256, 64]⟩
abbrev S256x64 : Shape := ⟨2, ![256, 64]⟩
abbrev S1x1024 : Shape := ⟨2, ![1, 1024]⟩

abbrev nBuf : Space → Nat
  | .hbm => 28
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x3072, .f32⟩
  | .hbm, ⟨11, _⟩ => ⟨S1024x3072, .bf16⟩
  | .hbm, ⟨12, _⟩ => ⟨S4096x3072, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S2x2048x16x64, .bf16⟩
  | .hbm, ⟨17, _⟩ => ⟨S2x16x2048x64, .bf16⟩
  | .hbm, ⟨18, _⟩ => ⟨S2x2048x16x64, .bf16⟩
  | .hbm, ⟨19, _⟩ => ⟨S2x16x2048x64, .bf16⟩
  | .hbm, ⟨20, _⟩ => ⟨S2x2048x16x64, .bf16⟩
  | .hbm, ⟨21, _⟩ => ⟨S2x16x2048x64, .bf16⟩
  | .hbm, ⟨22, _⟩ => ⟨S2x2048x1024, .bf16⟩
  | .hbm, ⟨23, _⟩ => ⟨S4096x1024, .bf16⟩
  | .hbm, ⟨24, _⟩ => ⟨S1024x1024, .f32⟩
  | .hbm, ⟨25, _⟩ => ⟨S1024x1024, .bf16⟩
  | .hbm, ⟨26, _⟩ => ⟨S4096x1024, .f32⟩
  | .hbm, ⟨27, _⟩ => ⟨S2x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x2x256x64, .bf16⟩
  | .local _ .vmem, ⟨7, _⟩ => ⟨S1x2x256x64, .bf16⟩
  | .local _ .vmem, ⟨8, _⟩ => ⟨S1x2x2048x64, .bf16⟩
  | .local _ .vmem, ⟨9, _⟩ => ⟨S1x2x2048x64, .bf16⟩
  | .local _ .vmem, ⟨10, _⟩ => ⟨S1x2x2048x64, .bf16⟩
  | .local _ .vmem, ⟨11, _⟩ => ⟨S1x2x2048x64, .bf16⟩
  | .local _ .vmem, ⟨12, _⟩ => ⟨S1x256x128, .bf16⟩
  | .local _ .vmem, ⟨13, _⟩ => ⟨S1x256x128, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024, .f32⟩
  | .local _ .vmem, ⟨18, _⟩ => ⟨S1024x1024, .f32⟩
  | .local _ .vmem, ⟨19, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![2, 8, 8], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x2x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S2x2048x1024_S4096x1024 : S2x2048x1024.ShapeCasts S4096x1024
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  slices_S4096x3072_S4096x1024_0_0 : S4096x3072.Slices ![0, 0] S4096x1024
  slices_S4096x3072_S4096x1024_0_1024 : S4096x3072.Slices ![0, 1024] S4096x1024
  slices_S4096x3072_S4096x1024_0_2048 : S4096x3072.Slices ![0, 2048] S4096x1024
  shapeCasts_S4096x1024_S2x2048x16x64 : S4096x1024.ShapeCasts S2x2048x16x64
  transposes_S2x2048x16x64_S2x16x2048x64_0_2_1_3 : S2x2048x16x64.Transposes [0, 2, 1, 3] S2x16x2048x64
  inb_S1x2x256x64_S1x2x256x64_0_0_0_0 : ∀ a, (![0, 0, 0, 0] : Fin 4 → Nat) a + S1x2x256x64.size a ≤ S1x2x256x64.size a
  h_S1x2x256x64 : 0 < S1x2x256x64.numel
  shapeCasts_S1x2x256x64_S2x256x64 : S1x2x256x64.ShapeCasts S2x256x64
  inb_S1x2x2048x64_S1x2x2048x64_0_0_0_0 : ∀ a, (![0, 0, 0, 0] : Fin 4 → Nat) a + S1x2x2048x64.size a ≤ S1x2x2048x64.size a
  h_S1x2x2048x64 : 0 < S1x2x2048x64.numel
  shapeCasts_S1x2x2048x64_S2x2048x64 : S1x2x2048x64.ShapeCasts S2x2048x64
  reduces_S2x256x2048_S2x256 : S2x256x2048.Reduces [2] S2x256
  shapeCasts_S2x256_S2x256x1 : S2x256.ShapeCasts S2x256x1
  broadcasts_S2x256x1_S2x256x2048 : S2x256x1.Broadcasts S2x256x2048
  slices_S2x256x64_o0_0_0_S1x256x64 : S2x256x64.Slices ![0, 0, 0] S1x256x64
  shapeCasts_S1x256x64_S256x64 : S1x256x64.ShapeCasts S256x64
  inb_S1x256x128_S1x256x64_0_0_0 : ∀ a, (![0, 0, 0] : Fin 3 → Nat) a + S1x256x64.size a ≤ S1x256x128.size a
  h_S1x256x64 : 0 < S1x256x64.numel
  shapeCasts_S256x64_S1x256x64 : S256x64.ShapeCasts S1x256x64
  packedbf16_S1x256x128_S1x256x64_0_0_0 : (Rect.unit (s := S1x256x128) ![0, 0, 0] S1x256x64.size inb_S1x256x128_S1x256x64_0_0_0).PackedRows (EltTy.packing .bf16)
  slices_S2x256x64_o1_0_0_S1x256x64 : S2x256x64.Slices ![1, 0, 0] S1x256x64
  inb_S1x256x128_S1x256x64_0_0_64 : ∀ a, (![0, 0, 64] : Fin 3 → Nat) a + S1x256x64.size a ≤ S1x256x128.size a
  packedbf16_S1x256x128_S1x256x64_0_0_64 : (Rect.unit (s := S1x256x128) ![0, 0, 64] S1x256x64.size inb_S1x256x128_S1x256x64_0_0_64).PackedRows (EltTy.packing .bf16)
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S4096x1024_S2x2048x1024 : S4096x1024.ShapeCasts S2x2048x1024
  dot_S1024x1024_S1024x1024_S1024x1024_1_0_0_1_n_n_wf : DotDims.WF S1024x1024 S1024x1024 S1024x1024 [1] [0] [0] [1] [] []
  dot_S2x256x64_S2x2048x64_S2x256x2048_2_2_1_1_0_0_wf : DotDims.WF S2x256x64 S2x2048x64 S2x256x2048 [2] [2] [1] [1] [0] [0]
  dot_S2x256x2048_S2x2048x64_S2x256x64_2_1_1_2_0_0_wf : DotDims.WF S2x256x2048 S2x2048x64 S2x256x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .bf16 = 32 ∨ (Rect.block (s := S1024x3072) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x3072.size a
  hwx0_2 : ∀ i : grid0.Coords, EltTy.bits .bf16 = 32 ∨ (Rect.block (s := S4096x3072) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2x256x64.size a ≤ S2x16x2048x64.size a
  hwx1_0 : ∀ i : grid1.Coords, EltTy.bits .bf16 = 32 ∨ (Rect.block (s := S2x16x2048x64) S1x2x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2x2048x64.size a ≤ S2x16x2048x64.size a
  hwx1_1 : ∀ i : grid1.Coords, EltTy.bits .bf16 = 32 ∨ (Rect.block (s := S2x16x2048x64) S1x2x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2x2048x64.size a ≤ S2x16x2048x64.size a
  hwx1_2 : ∀ i : grid1.Coords, EltTy.bits .bf16 = 32 ∨ (Rect.block (s := S2x16x2048x64) S1x2x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x128.size a ≤ S2x2048x1024.size a
  hwx1_3 : ∀ i : grid1.Coords, EltTy.bits .bf16 = 32 ∨ (Rect.block (s := S2x2048x1024) S1x256x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .bf16 = 32 ∨ (Rect.block (s := S4096x1024) S1024x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .f32 = 32 ∨ (Rect.block (s := S4096x1024) S1024x1024.size (cc2_transform_3 i) (hinb2_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S2x256x64_S2x2048x64_S2x256x2048_2_2_1_1_0_0 : DotDims S2x256x64 S2x2048x64 S2x256x2048 where
  lhsContracting := [2]
  rhsContracting := [2]
  lhsNonContracting := [1]
  rhsNonContracting := [1]
  lhsBatch := [0]
  rhsBatch := [0]
  wf := dot_S2x256x64_S2x2048x64_S2x256x2048_2_2_1_1_0_0_wf
def dot_S2x256x2048_S2x2048x64_S2x256x64_2_1_1_2_0_0 : DotDims S2x256x2048 S2x2048x64 S2x256x64 where
  lhsContracting := [2]
  rhsContracting := [1]
  lhsNonContracting := [1]
  rhsNonContracting := [2]
  lhsBatch := [0]
  rhsBatch := [0]
  wf := dot_S2x256x2048_S2x2048x64_S2x256x64_2_1_1_2_0_0_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S1x2x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x2x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x2x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v17) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S2x2048x16x64 : Shape := ⟨4, ![2, 2048, 16, 64]⟩
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S2x2048x1024, .f32⟩
  | .hbm, ⟨7, _⟩ => ⟨S2x2048x16x64, .f32⟩
  | .hbm, ⟨8, _⟩ => ⟨S2x16x2048x64, .f32⟩
  | .hbm, ⟨9, _⟩ => ⟨S2x2048x1024, .f32⟩
  | .hbm, ⟨10, _⟩ => ⟨S2x2048x16x64, .f32⟩
  | .hbm, ⟨11, _⟩ => ⟨S2x16x2048x64, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x16x2048x2048, .f32⟩
  | .hbm, ⟨20, _⟩ => ⟨S2x16x2048x2048, .f32⟩
  | .hbm, ⟨21, _⟩ => ⟨S2x16x2048x2048, .f32⟩
  | .hbm, ⟨22, _⟩ => ⟨S_, .f32⟩
  | .hbm, ⟨23, _⟩ => ⟨S2x16x2048, .f32⟩
  | .hbm, ⟨24, _⟩ => ⟨S_, .f32⟩
  | .hbm, ⟨25, _⟩ => ⟨S2x16x2048, .f32⟩
  | .hbm, ⟨26, _⟩ => ⟨S2x16x2048, .f32⟩
  | .hbm, ⟨27, _⟩ => ⟨S2x16x2048x1, .f32⟩
  | .hbm, ⟨28, _⟩ => ⟨S2x16x2048x2048, .f32⟩
  | .hbm, ⟨29, _⟩ => ⟨S2x16x2048x2048, .f32⟩
  | .hbm, ⟨30, _⟩ => ⟨S2x16x2048x2048, .f32⟩
  | .hbm, ⟨31, _⟩ => ⟨S_, .f32⟩
  | .hbm, ⟨32, _⟩ => ⟨S2x16x2048, .f32⟩
  | .hbm, ⟨33, _⟩ => ⟨S2x16x2048x1, .f32⟩
  | .hbm, ⟨34, _⟩ => ⟨S2x16x2048x2048, .f32⟩
  | .hbm, ⟨35, _⟩ => ⟨S2x16x2048x2048, .f32⟩
  | .hbm, ⟨36, _⟩ => ⟨S2x16x2048x64, .f32⟩
  | .hbm, ⟨37, _⟩ => ⟨S2x2048x16x64, .f32⟩
  | .hbm, ⟨38, _⟩ => ⟨S2x2048x1024, .f32⟩
  | .hbm, ⟨39, _⟩ => ⟨S2x2048x1024, .f32⟩
  | .hbm, ⟨40, _⟩ => ⟨S1x1x1024, .f32⟩
  | .hbm, ⟨41, _⟩ => ⟨S2x2048x1024, .f32⟩
  | .hbm, ⟨42, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Bits.QkvRegion.lean ====
/-
  Region 0 of @main: the fused q/k/v projection, one 1024x1024 matmul per block on a 4x3 grid.
  Everything is stated at a parameter `V`, the TensorCore's buffer contents when the region is entered.
  Row-block `i` of the activations (window 0) times column-block `j` of the concatenated weights
  (window 1), rounded to bf16, fills block `(i, j)` of the 4096x3072 projection (window 2).
-/
import proofs.«123667_j5557687681798_2_alg».proof.Proof.Gen.Kernel.Launch
import proofs.«123667_j5557687681798_2_alg».proof.Proof.Gen.Kernel.Skeleton
import proofs.«123667_j5557687681798_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Definitions -/

/-- Block `t` of window `w`, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The one rectangle every access of the body goes through: the whole 1024x1024 staging block. -/
abbrev whole0 : Rect S1024x1024 := Rect.unit (s := S1024x1024) ![0, 0] S1024x1024.size inb_S1024x1024_S1024x1024_0_0

/-- What the body leaves in the output block from the two input blocks: its single store, the bf16 rounding of the
    product of the bf16-rounded activations block `x0` with the weights block `x1`. -/
def left0 (x0 : Vec F S1024x1024 .f32) (x1 : Vec F S1024x1024 .bf16) : Vec F S1024x1024 .bf16 :=
  View.canon [⟨whole0, k0_pay1 (View.ld x0 whole0) (View.ld x1 whole0)⟩]

/-- The proof data of the region on core `c`: the arrays as found; after the body each input block in place and
    the output block at `left0` of the two; the invariant leaves the scoped rest and the generator register alone;
    full shares, nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => left0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) :
    (dat0 V c).after 2 t = left0 (blk0 V c 0 t) (blk0 V c 1 t) := by dsimp only [dat0]

/-! ## The input blocks are in place at every point

An input window's staging buffer holds the window's block at the point whether the pipeline fetched it there or
not: unfetched, the block index has not moved since the previous point. Both windows are uncut and never idle. -/

theorem before0_0 (c : Dev nD) (t : Fin cfg0.N) (d) : (dat0 V c).before 0 t d = blk0 V c 0 t :=
  ((dat0 V c).before_in_eq_fetched 0 rfl (fun _ => rfl) (fun _ _ _ => rfl)
    (fun t => by rw [dat0_after_0]; unfold Dat.blockOf blk0; rw [dat0_A]; try rfl) t d).trans
    (by unfold Dat.fetched Dat.blockOf blk0; rw [dat0_A]; try rfl)

theorem before0_1 (c : Dev nD) (t : Fin cfg0.N) (d) : (dat0 V c).before 1 t d = blk0 V c 1 t :=
  ((dat0 V c).before_in_eq_fetched 1 rfl (fun _ => rfl) (fun _ _ _ => rfl)
    (fun t => by rw [dat0_after_1]; unfold Dat.blockOf blk0; rw [dat0_A]; try rfl) t d).trans
    (by unfold Dat.fetched Dat.blockOf blk0; rw [dat0_A]; try rfl)

/-! ## The store covers the output block -/

theorem cover0 (p : Vec F S1024x1024 .bf16) (y : S1024x1024.Idx) :
    ∃ pc ∈ ([⟨whole0, p⟩] : List (View.Piece (Elt F) S1024x1024 .bf16)), y ∈ pc.1.set :=
  View.cover_of_tiled [⟨whole0, p⟩] S1024x1024.size (by rfl) y

/-! ## The body -/

set_option maxHeartbeats 1000000 in
/-- On whole staging buffers, the inputs' reading `x0` and `x1` and the output's holding anything, the body runs
    to its return with the inputs' as they were and the output's reading `left0 x0 x1`. -/
theorem body0 (c : Dev nD) (E : Set ℕ) (i : grid0.Coords)
    (a0 : Memref sig .tc .vmem S1024x1024 .f32) (h0 : a0.IsWhole)
    (a1 : Memref sig .tc .vmem S1024x1024 .bf16) (h1 : a1.IsWhole)
    (a2 : Memref sig .tc .vmem S1024x1024 .bf16) (h2 : a2.IsWhole)
    (x0 : Vec F S1024x1024 .f32) (x1 : Vec F S1024x1024 .bf16) (K : PUnit → sProp 𝕄) :
    iprop(owns (c : Thread nD τ) a0 fullShare x0 ∗ owns (c : Thread nD τ) a1 fullShare x1
        ∗ (∃ d, owns (c : Thread nD τ) a2 fullShare d)
        ∗ (iprop(owns (c : Thread nD τ) a0 fullShare x0 ∗ owns (c : Thread nD τ) a1 fullShare x1
            ∗ owns (c : Thread nD τ) a2 fullShare (left0 x0 x1)) -∗ K ⟨⟩))
      ⊢ wp frame (wpE (defs₀ (F := F)) Variants.none c none) E (cc0__mm_kernel i a0 h0 a1 h1 a2 h2) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-! ## The body at a grid point -/

/-- What the body is called with at point `t`, window by window, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem point0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1]
  rw [show (dat0 V c).Φ t.succ = (dat0 V c).Φ t.castSucc from rfl,
    show (dat0 V c).owesAt () t.succ = (dat0 V c).owesAt () t.castSucc from rfl,
    dat0_after_0, dat0_after_1, dat0_after_2]
  iintro ⟨HΦ, Ho, ⟨%d0, H0⟩, ⟨%d1, H1⟩, ⟨%d2, H2⟩⟩
  iapply (body0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every point. -/
theorem obligation0 (c : Dev nD) : BodyObligation (dat0 (F := F) V c) (defs₀ (F := F)) Variants.none () Set.univ := fun t => by
  rw [bigSep_W0, bigSep_W0]
  exact point0 V c t

end Cert.Kernel.Hand

end
-- ==== Proof.Bits.AttnRegion.lean ====
/-
  Region 1 of @main: attention on a 2x8x8 grid. A point takes two heads' 256-row query tile (window 0) and the
  same two heads' full 2048-row key and value panels (windows 1 and 2), forms the scaled scores, normalises each
  row by the exponentials' sum after subtracting the row maximum, multiplies by the values, and writes the two
  heads' 256x64 results side by side into one 1x256x128 output block (window 3): head 0 into columns 0..63,
  head 1 into columns 64..127. Everything is stated at a parameter `V`, the buffer contents at the region's entry.
-/
import proofs.«123667_j5557687681798_2_alg».proof.Proof.Gen.Kernel.Launch
import proofs.«123667_j5557687681798_2_alg».proof.Proof.Gen.Kernel.Skeleton
import proofs.«123667_j5557687681798_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Definitions -/

/-- Block `t` of window `w`, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole query tile, -/
abbrev qTile : Rect S1x2x256x64 := Rect.unit (s := S1x2x256x64) ![0, 0, 0, 0] S1x2x256x64.size inb_S1x2x256x64_S1x2x256x64_0_0_0_0
/-- the whole key (or value) panel, -/
abbrev kvPanel : Rect S1x2x2048x64 := Rect.unit (s := S1x2x2048x64) ![0, 0, 0, 0] S1x2x2048x64.size inb_S1x2x2048x64_S1x2x2048x64_0_0_0_0
/-- and the two halves of the output block: columns 0..63 and columns 64..127. -/
abbrev colsLo : Rect S1x256x128 := Rect.unit (s := S1x256x128) ![0, 0, 0] S1x256x64.size inb_S1x256x128_S1x256x64_0_0_0
abbrev colsHi : Rect S1x256x128 := Rect.unit (s := S1x256x128) ![0, 0, 64] S1x256x64.size inb_S1x256x128_S1x256x64_0_0_64

/-- What the body leaves in the output block from the query tile `x0`, the key panel `x1` and the value panel
    `x2`: its two stores, the later one first — head 1's result over the high columns, head 0's over the low. -/
def left1 (x0 : Vec F S1x2x256x64 .bf16) (x1 : Vec F S1x2x2048x64 .bf16) (x2 : Vec F S1x2x2048x64 .bf16) : Vec F S1x256x128 .bf16 :=
  View.canon [⟨colsHi, k1_pay3 (View.ld x0 qTile) (View.ld x1 kvPanel) (View.ld x2 kvPanel)⟩,
              ⟨colsLo, k1_pay2 (View.ld x0 qTile) (View.ld x1 kvPanel) (View.ld x2 kvPanel)⟩]

/-- The proof data of the region on core `c`: the arrays as found; after the body each input block in place and
    the output block at `left1` of the three; the invariant leaves the scoped rest and the generator register alone;
    full shares, nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => left1 (blk1 V c 0 t) (blk1 V c 1 t) (blk1 V c 2 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) :
    (dat1 V c).after 3 t = left1 (blk1 V c 0 t) (blk1 V c 1 t) (blk1 V c 2 t) := by dsimp only [dat1]

/-! ## The input blocks are in place at every point

An input window's staging buffer holds the window's block at the point whether the pipeline fetched it there or
not: unfetched, the block index has not moved since the previous point (the key and value panels are fetched once
per eight points). The windows are uncut and never idle. -/

theorem before1_0 (c : Dev nD) (t : Fin cfg1.N) (d) : (dat1 V c).before 0 t d = blk1 V c 0 t :=
  ((dat1 V c).before_in_eq_fetched 0 rfl (fun _ => rfl) (fun _ _ _ => rfl)
    (fun t => by rw [dat1_after_0]; unfold Dat.blockOf blk1; rw [dat1_A]; try rfl) t d).trans
    (by unfold Dat.fetched Dat.blockOf blk1; rw [dat1_A]; try rfl)

theorem before1_1 (c : Dev nD) (t : Fin cfg1.N) (d) : (dat1 V c).before 1 t d = blk1 V c 1 t :=
  ((dat1 V c).before_in_eq_fetched 1 rfl (fun _ => rfl) (fun _ _ _ => rfl)
    (fun t => by rw [dat1_after_1]; unfold Dat.blockOf blk1; rw [dat1_A]; try rfl) t d).trans
    (by unfold Dat.fetched Dat.blockOf blk1; rw [dat1_A]; try rfl)

theorem before1_2 (c : Dev nD) (t : Fin cfg1.N) (d) : (dat1 V c).before 2 t d = blk1 V c 2 t :=
  ((dat1 V c).before_in_eq_fetched 2 rfl (fun _ => rfl) (fun _ _ _ => rfl)
    (fun t => by rw [dat1_after_2]; unfold Dat.blockOf blk1; rw [dat1_A]; try rfl) t d).trans
    (by unfold Dat.fetched Dat.blockOf blk1; rw [dat1_A]; try rfl)

/-! ## The two stores cover the output block

The low-column and high-column halves tile the 1x256x128 block in 1x256x64 pieces. -/

theorem cover1 (p q : Vec F S1x256x64 .bf16) (y : S1x256x128.Idx) :
    ∃ pc ∈ ([⟨colsHi, p⟩, ⟨colsLo, q⟩] : List (View.Piece (Elt F) S1x256x128 .bf16)), y ∈ pc.1.set :=
  View.cover_of_tiled [⟨colsHi, p⟩, ⟨colsLo, q⟩] S1x256x64.size (by rfl) y

/-! ## The body -/

set_option maxHeartbeats 4000000 in
/-- On whole staging buffers, the inputs' reading `x0`, `x1`, `x2` and the output's holding anything, the body
    runs to its return with the inputs' as they were and the output's reading `left1 x0 x1 x2`. -/
theorem body1 (c : Dev nD) (E : Set ℕ) (i : grid1.Coords)
    (a0 : Memref sig .tc .vmem S1x2x256x64 .bf16) (h0 : a0.IsWhole)
    (a1 : Memref sig .tc .vmem S1x2x2048x64 .bf16) (h1 : a1.IsWhole)
    (a2 : Memref sig .tc .vmem S1x2x2048x64 .bf16) (h2 : a2.IsWhole)
    (a3 : Memref sig .tc .vmem S1x256x128 .bf16) (h3 : a3.IsWhole)
    (x0 : Vec F S1x2x256x64 .bf16) (x1 : Vec F S1x2x2048x64 .bf16) (x2 : Vec F S1x2x2048x64 .bf16) (K : PUnit → sProp 𝕄) :
    iprop(owns (c : Thread nD τ) a0 fullShare x0 ∗ owns (c : Thread nD τ) a1 fullShare x1
        ∗ owns (c : Thread nD τ) a2 fullShare x2
        ∗ (∃ d, owns (c : Thread nD τ) a3 fullShare d)
        ∗ (iprop(owns (c : Thread nD τ) a0 fullShare x0 ∗ owns (c : Thread nD τ) a1 fullShare x1
            ∗ owns (c : Thread nD τ) a2 fullShare x2
            ∗ owns (c : Thread nD τ) a3 fullShare (left1 x0 x1 x2)) -∗ K ⟨⟩))
      ⊢ wp frame (wpE (defs₀ (F := F)) Variants.none c none) E (cc1__attn_kernel i a0 h0 a1 h1 a2 h2 a3 h3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _ _)

/-! ## The body at a grid point -/

/-- What the body is called with at point `t`, window by window, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem point1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2]
  rw [show (dat1 V c).Φ t.succ = (dat1 V c).Φ t.castSucc from rfl,
    show (dat1 V c).owesAt () t.succ = (dat1 V c).owesAt () t.castSucc from rfl,
    dat1_after_0, dat1_after_1, dat1_after_2, dat1_after_3]
  iintro ⟨HΦ, Ho, ⟨%d0, H0⟩, ⟨%d1, H1⟩, ⟨%d2, H2⟩, ⟨%d3, H3⟩⟩
  iapply (body1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem obligation1 (c : Dev nD) : BodyObligation (dat1 (F := F) V c) (defs₀ (F := F)) Variants.none () Set.univ := fun t => by
  rw [bigSep_W1, bigSep_W1]
  exact point1 V c t

end Cert.Kernel.Hand

end
-- ==== Proof.Bits.OutRegion.lean ====
/-
  Region 2 of @main: the output projection with bias on a 4x1 grid. Row-block `i` of the attention result
  (window 0) times the whole projection matrix (window 1), plus the bias row (window 2) added to every row, fills
  row-block `i` of the 4096x1024 result (window 3). Everything is stated at a parameter `V`, the buffer contents
  at the region's entry.
-/
import proofs.«123667_j5557687681798_2_alg».proof.Proof.Gen.Kernel.Launch
import proofs.«123667_j5557687681798_2_alg».proof.Proof.Gen.Kernel.Skeleton
import proofs.«123667_j5557687681798_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Definitions -/

/-- Block `t` of window `w`, read off the window's array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole 1024x1024 staging block, -/
abbrev whole2 : Rect S1024x1024 := Rect.unit (s := S1024x1024) ![0, 0] S1024x1024.size inb_S1024x1024_S1024x1024_0_0
/-- and the whole bias row. -/
abbrev row2 : Rect S1024 := Rect.unit (s := S1024) ![0] S1024.size inb_S1024_S1024_0

/-- What the body leaves in the output block from the activations block `x0`, the matrix `x1` and the bias
    `x2`: its single store, the product plus the bias broadcast over the rows. -/
def left2 (x0 : Vec F S1024x1024 .bf16) (x1 : Vec F S1024x1024 .bf16) (x2 : Vec F S1024 .f32) : Vec F S1024x1024 .f32 :=
  View.canon [⟨whole2, k2_pay1 (View.ld x0 whole2) (View.ld x1 whole2) (View.ld x2 row2)⟩]

/-- The proof data of the region on core `c`: the arrays as found; after the body each input block in place and
    the output block at `left2` of the three; the invariant leaves the scoped rest and the generator register alone;
    full shares, nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => left2 (blk2 V c 0 t) (blk2 V c 1 t) (blk2 V c 2 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after_0 (c : Dev nD) (t : Fin cfg2.N) : (dat2 V c).after 0 t = blk2 V c 0 t := by dsimp only [dat2]
theorem dat2_after_1 (c : Dev nD) (t : Fin cfg2.N) : (dat2 V c).after 1 t = blk2 V c 1 t := by dsimp only [dat2]
theorem dat2_after_2 (c : Dev nD) (t : Fin cfg2.N) : (dat2 V c).after 2 t = blk2 V c 2 t := by dsimp only [dat2]
theorem dat2_after_3 (c : Dev nD) (t : Fin cfg2.N) :
    (dat2 V c).after 3 t = left2 (blk2 V c 0 t) (blk2 V c 1 t) (blk2 V c 2 t) := by dsimp only [dat2]

/-! ## The input blocks are in place at every point

An input window's staging buffer holds the window's block at the point whether the pipeline fetched it there or
not: unfetched, the block index has not moved since the previous point (the matrix and the bias are fetched at
the first point only). The windows are uncut and never idle. -/

theorem before2_0 (c : Dev nD) (t : Fin cfg2.N) (d) : (dat2 V c).before 0 t d = blk2 V c 0 t :=
  ((dat2 V c).before_in_eq_fetched 0 rfl (fun _ => rfl) (fun _ _ _ => rfl)
    (fun t => by rw [dat2_after_0]; unfold Dat.blockOf blk2; rw [dat2_A]; try rfl) t d).trans
    (by unfold Dat.fetched Dat.blockOf blk2; rw [dat2_A]; try rfl)

theorem before2_1 (c : Dev nD) (t : Fin cfg2.N) (d) : (dat2 V c).before 1 t d = blk2 V c 1 t :=
  ((dat2 V c).before_in_eq_fetched 1 rfl (fun _ => rfl) (fun _ _ _ => rfl)
    (fun t => by rw [dat2_after_1]; unfold Dat.blockOf blk2; rw [dat2_A]; try rfl) t d).trans
    (by unfold Dat.fetched Dat.blockOf blk2; rw [dat2_A]; try rfl)

theorem before2_2 (c : Dev nD) (t : Fin cfg2.N) (d) : (dat2 V c).before 2 t d = blk2 V c 2 t :=
  ((dat2 V c).before_in_eq_fetched 2 rfl (fun _ => rfl) (fun _ _ _ => rfl)
    (fun t => by rw [dat2_after_2]; unfold Dat.blockOf blk2; rw [dat2_A]; try rfl) t d).trans
    (by unfold Dat.fetched Dat.blockOf blk2; rw [dat2_A]; try rfl)

/-! ## The store covers the output block -/

theorem cover2 (p : Vec F S1024x1024 .f32) (y : S1024x1024.Idx) :
    ∃ pc ∈ ([⟨whole2, p⟩] : List (View.Piece (Elt F) S1024x1024 .f32)), y ∈ pc.1.set :=
  View.cover_of_tiled [⟨whole2, p⟩] S1024x1024.size (by rfl) y

/-! ## The body -/

set_option maxHeartbeats 1000000 in
/-- On whole staging buffers, the inputs' reading `x0`, `x1`, `x2` and the output's holding anything, the body
    runs to its return with the inputs' as they were and the output's reading `left2 x0 x1 x2`. -/
theorem body2 (c : Dev nD) (E : Set ℕ) (i : grid2.Coords)
    (a0 : Memref sig .tc .vmem S1024x1024 .bf16) (h0 : a0.IsWhole)
    (a1 : Memref sig .tc .vmem S1024x1024 .bf16) (h1 : a1.IsWhole)
    (a2 : Memref sig .tc .vmem S1024 .f32) (h2 : a2.IsWhole)
    (a3 : Memref sig .tc .vmem S1024x1024 .f32) (h3 : a3.IsWhole)
    (x0 : Vec F S1024x1024 .bf16) (x1 : Vec F S1024x1024 .bf16) (x2 : Vec F S1024 .f32) (K : PUnit → sProp 𝕄) :
    iprop(owns (c : Thread nD τ) a0 fullShare x0 ∗ owns (c : Thread nD τ) a1 fullShare x1
        ∗ owns (c : Thread nD τ) a2 fullShare x2
        ∗ (∃ d, owns (c : Thread nD τ) a3 fullShare d)
        ∗ (iprop(owns (c : Thread nD τ) a0 fullShare x0 ∗ owns (c : Thread nD τ) a1 fullShare x1
            ∗ owns (c : Thread nD τ) a2 fullShare x2
            ∗ owns (c : Thread nD τ) a3 fullShare (left2 x0 x1 x2)) -∗ K ⟨⟩))
      ⊢ wp frame (wpE (defs₀ (F := F)) Variants.none c none) E (cc2__mm_bias_kernel i a0 h0 a1 h1 a2 h2 a3 h3) K := by
  simp only [cc2__mm_bias_kernel_eq_skeleton]; unfold cc2__mm_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-! ## The body at a grid point -/

/-- What the body is called with at point `t`, window by window, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem point2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2]
  rw [show (dat2 V c).Φ t.succ = (dat2 V c).Φ t.castSucc from rfl,
    show (dat2 V c).owesAt () t.succ = (dat2 V c).owesAt () t.castSucc from rfl,
    dat2_after_0, dat2_after_1, dat2_after_2, dat2_after_3]
  iintro ⟨HΦ, Ho, ⟨%d0, H0⟩, ⟨%d1, H1⟩, ⟨%d2, H2⟩, ⟨%d3, H3⟩⟩
  iapply (body2 c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem obligation2 (c : Dev nD) : BodyObligation (dat2 (F := F) V c) (defs₀ (F := F)) Variants.none () Set.univ := fun t => by
  rw [bigSep_W2, bigSep_W2]
  exact point2 V c t

end Cert.Kernel.Hand

end
-- ==== Proof.Bits.MainRun.lean ====
/-
  @main from the launch to the return: four stretches of host operations with the three kernel regions between
  them, seven segments in all. The contents of every unscoped buffer at each of the eight boundaries are named as
  a fold from the launch memory — a host stretch folds its operations over the contents before it, a region
  replaces its windows' arrays by what its pipeline's write-backs leave — and the run is assembled from a host
  segment per stretch and a region record per kernel. `run_all` reads every unscoped buffer at the end off the
  last fold; `frame` walks the fold back at the six arguments, which nothing writes.
-/
import proofs.«123667_j5557687681798_2_alg».proof.Proof.Bits.QkvRegion
import proofs.«123667_j5557687681798_2_alg».proof.Proof.Bits.AttnRegion
import proofs.«123667_j5557687681798_2_alg».proof.Proof.Bits.OutRegion
import proofs.«123667_j5557687681798_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the eight boundaries -/

/-- Core `c`'s buffers at the launch. -/
abbrev W0 : Dev nD → Valuation τ sig (Elt F) := fun c b => (s₀ m ρ).mem ((c : Dev nD), b)

/-- After host stretch 0 (region 0's entry). -/
abbrev W1 : Dev nD → Valuation τ sig (Elt F) := fun c => StableHlo.after hostOps0 (W0 m ρ c)
/-- The same, read at the TensorCore's references: what region 0's proof data are stated at. -/
abbrev V1 : (c : Dev nD) → (b : Ref sig .tc) → Buf (Elt F) ((c : Thread nD τ).loc b) := fun c b => W1 m ρ c b
/-- A buffer the stretch does not write keeps its contents. -/
theorem W1_keep (c : Dev nD) (b : Ref sig .tc) (h : b ∉ (hostOps0_W : List (Ref sig .tc))) :
    W1 m ρ c (Proc.devRef .tc b) = W0 m ρ c (Proc.devRef .tc b) :=
  StableHlo.after_of_writes_sub hostOps0 _ hostOps0_writes h

/-- When region 0 is left: its windows' arrays at what the pipeline's write-backs leave, every other buffer as at
    the entry. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
/-- The two facts the regrouping of the region's arrays with the other buffers takes at the exit. -/
theorem exit0_arr (c : Dev nD) (w : Fin cfg0.W) :
    (dat0 (V1 m ρ) c).arrAt w cfg0.N = V2 m ρ c (Pipeline.arrRef spec0 w) :=
  (W2_arr m ρ c w).symm
theorem exit0_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1 (region 1's entry). -/
abbrev W3 : Dev nD → Valuation τ sig (Elt F) := fun c => StableHlo.after hostOps1 (W2 m ρ c)
/-- The same, read at the TensorCore's references: what region 1's proof data are stated at. -/
abbrev V3 : (c : Dev nD) → (b : Ref sig .tc) → Buf (Elt F) ((c : Thread nD τ).loc b) := fun c b => W3 m ρ c b
/-- A buffer the stretch does not write keeps its contents. -/
theorem W3_keep (c : Dev nD) (b : Ref sig .tc) (h : b ∉ (hostOps1_W : List (Ref sig .tc))) :
    W3 m ρ c (Proc.devRef .tc b) = W2 m ρ c (Proc.devRef .tc b) :=
  StableHlo.after_of_writes_sub hostOps1 _ hostOps1_writes h

/-- When region 1 is left: its windows' arrays at what the pipeline's write-backs leave, every other buffer as at
    the entry. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
/-- The two facts the regrouping of the region's arrays with the other buffers takes at the exit. -/
theorem exit1_arr (c : Dev nD) (w : Fin cfg1.W) :
    (dat1 (V3 m ρ) c).arrAt w cfg1.N = V4 m ρ c (Pipeline.arrRef spec1 w) :=
  (W4_arr m ρ c w).symm
theorem exit1_rest (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2 (region 2's entry). -/
abbrev W5 : Dev nD → Valuation τ sig (Elt F) := fun c => StableHlo.after hostOps2 (W4 m ρ c)
/-- The same, read at the TensorCore's references: what region 2's proof data are stated at. -/
abbrev V5 : (c : Dev nD) → (b : Ref sig .tc) → Buf (Elt F) ((c : Thread nD τ).loc b) := fun c b => W5 m ρ c b
/-- A buffer the stretch does not write keeps its contents. -/
theorem W5_keep (c : Dev nD) (b : Ref sig .tc) (h : b ∉ (hostOps2_W : List (Ref sig .tc))) :
    W5 m ρ c (Proc.devRef .tc b) = W4 m ρ c (Proc.devRef .tc b) :=
  StableHlo.after_of_writes_sub hostOps2 _ hostOps2_writes h

/-- When region 2 is left: its windows' arrays at what the pipeline's write-backs leave, every other buffer as at
    the entry. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references. -/
abbrev V6 : (c : Dev nD) → (b : Ref sig .tc) → Buf (Elt F) ((c : Thread nD τ).loc b) := fun c b => W6 m ρ c b
/-- The two facts the regrouping of the region's arrays with the other buffers takes at the exit. -/
theorem exit2_arr (c : Dev nD) (w : Fin cfg2.W) :
    (dat2 (V5 m ρ) c).arrAt w cfg2.N = V6 m ρ c (Pipeline.arrRef spec2 w) :=
  (W6_arr m ρ c w).symm
theorem exit2_rest (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3 (the end of @main). -/
abbrev W7 : Dev nD → Valuation τ sig (Elt F) := fun c => StableHlo.after hostOps3 (W6 m ρ c)
/-- A buffer the stretch does not write keeps its contents. -/
theorem W7_keep (c : Dev nD) (b : Ref sig .tc) (h : b ∉ (hostOps3_W : List (Ref sig .tc))) :
    W7 m ρ c (Proc.devRef .tc b) = W6 m ρ c (Proc.devRef .tc b) :=
  StableHlo.after_of_writes_sub hostOps3 _ hostOps3_writes h

/-! ## The arguments end as launched

No host operation writes an argument, and no region has one as an output window: five of them are no window at
all, and the bias is an input window of region 2, whose array the pipeline leaves as it found it. -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_keep m ρ c main_arg0 (by decide)
    _ = W5 m ρ c (Proc.devRef .tc main_arg0) := W6_of_ne m ρ c main_arg0 (by decide)
    _ = W4 m ρ c (Proc.devRef .tc main_arg0) := W5_keep m ρ c main_arg0 (by decide)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := W2_of_ne m ρ c main_arg0 (by decide)
    _ = W0 m ρ c (Proc.devRef .tc main_arg0) := W1_keep m ρ c main_arg0 (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_keep m ρ c main_arg1 (by decide)
    _ = W5 m ρ c (Proc.devRef .tc main_arg1) := W6_of_ne m ρ c main_arg1 (by decide)
    _ = W4 m ρ c (Proc.devRef .tc main_arg1) := W5_keep m ρ c main_arg1 (by decide)
    _ = W3 m ρ c (Proc.devRef .tc main_arg1) := W4_of_ne m ρ c main_arg1 (by decide)
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_keep m ρ c main_arg2 (by decide)
    _ = W5 m ρ c (Proc.devRef .tc main_arg2) := W6_of_ne m ρ c main_arg2 (by decide)
    _ = W4 m ρ c (Proc.devRef .tc main_arg2) := W5_keep m ρ c main_arg2 (by decide)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_of_ne m ρ c main_arg2 (by decide)
    _ = W0 m ρ c (Proc.devRef .tc main_arg2) := W1_keep m ρ c main_arg2 (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_keep m ρ c main_arg3 (by decide)
    _ = W5 m ρ c (Proc.devRef .tc main_arg3) := W6_of_ne m ρ c main_arg3 (by decide)
    _ = W4 m ρ c (Proc.devRef .tc main_arg3) := W5_keep m ρ c main_arg3 (by decide)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_of_ne m ρ c main_arg3 (by decide)
    _ = W0 m ρ c (Proc.devRef .tc main_arg3) := W1_keep m ρ c main_arg3 (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_keep m ρ c main_arg4 (by decide)
    _ = W5 m ρ c (Proc.devRef .tc main_arg4) := W6_of_ne m ρ c main_arg4 (by decide)
    _ = W4 m ρ c (Proc.devRef .tc main_arg4) := W5_keep m ρ c main_arg4 (by decide)
    _ = W3 m ρ c (Proc.devRef .tc main_arg4) := W4_of_ne m ρ c main_arg4 (by decide)
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_keep m ρ c main_arg5 (by decide)
    _ = W5 m ρ c (Proc.devRef .tc main_arg5) := (W6_arr m ρ c 2).trans (((dat2 (V5 m ρ) c).arrAt_in 2 rfl _).trans (dat2_A (V5 m ρ) c 2))
    _ = W4 m ρ c (Proc.devRef .tc main_arg5) := W5_keep m ρ c main_arg5 (by decide)
    _ = W3 m ρ c (Proc.devRef .tc main_arg5) := W4_of_ne m ρ c main_arg5 (by decide)
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl

/-! ## The proof data of the three pipelines, and what rides beside the buffers -/

/-- No pipeline has a prefetched table. -/
abbrev adm : (p : Fin 3) → (pcfgs (F := F) p).Adm := fun p => (cfgs p).toPCfg_adm
/-- Each pipeline's proof data at the contents its region is entered with: a literal case split on the index. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core waits on another: no level is assigned. -/
abbrev L : GSem nD τ sig → Finset Unit := fun _ => ∅
abbrev lv : GSem nD τ sig → Unit → ℕ := fun _ _ => 0
/-- Beside the buffers every segment carries the core's generator register at some state and its debt, which is
    nothing. -/
abbrev R (c : Dev nD) : sProp 𝕄 := iprop((∃ r, prngReg c r) ∗ ∃ W, owes (c : Thread nD τ) (0 : CellTallies nD τ sig Unit) W)
/-- A host stretch as a segment over the unscoped buffers at contents `W`; it leaves them at the stretch's fold. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is one of those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at `W7`, the generator register at some state. -/
abbrev Tend (c : Dev nD) : sProp 𝕄 := iprop(StableHlo.held (c : Thread nD τ) (Pipeline.ucRefs τ sig) (W7 m ρ c) ∗ ∃ r, prngReg c r)

/-! ## The three regions as segments -/

set_option backward.isDefEq.respectTransparency.types false in
/-- Region 0 over the thread state: entered with every unscoped buffer at `W1`, left with them at `W2`. At the
    entry the region's arrays are split off the unscoped buffers, at the exit put back at what the pipeline left;
    the generator register goes into the region's invariant and comes back; nothing is owed and the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. At the
    entry the region's arrays are split off the unscoped buffers, at the exit put back at what the pipeline left;
    the generator register goes into the region's invariant and comes back; nothing is owed and the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. At the
    entry the region's arrays are split off the unscoped buffers, at the exit put back at what the pipeline left;
    the generator register goes into the region's invariant and comes back; nothing is owed and the kernel has no
    semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (exit2_arr m ρ c) (exit2_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its seven segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments. -/
theorem main_run (c : Dev nD) : main (F := F) c = Pipeline.Seg.run (segs m ρ) := (main_chain c).trans (by chain_rfl)

/-- What the last host stretch leaves, regrouped: the buffers and the generator register on one side, the debt on
    the other. -/
theorem last_link (c : Dev nD) :
    iprop(StableHlo.held (c : Thread nD τ) (Pipeline.ucRefs τ sig) (W7 m ρ c)
        ∗ (∃ r, prngReg c r) ∗ ∃ W, owes (c : Thread nD τ) (0 : CellTallies nD τ sig Unit) W)
      ⊢ iprop(Tend m ρ c ∗ ∃ W, owes (c : Thread nD τ) (0 : CellTallies nD τ sig Unit) W) := by
  iintro ⟨Hh, Hp, HO⟩
  isplitr [HO]
  · isplitl [Hh]; · iexact Hh
    iexact Hp
  iexact HO

set_option backward.isDefEq.respectTransparency.types false in
/-- From any launch memory with zero counters every weakly fair execution of @main ends, without a fault, in a
    state of which `Q` holds — for any `Q` that follows from every unscoped buffer holding the last fold `W7`. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W7 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun _ => .rfl, fun _ => .rfl, fun _ => .rfl, fun _ => .rfl,
      fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := hQ)

/-- Every unscoped buffer ends at the last fold. -/
theorem run_all : θ_run defs (onTc (τ := τ) (main (F := F))) ⟨m, fun _ => 0, ρ⟩
    (fun r => ∀ c : Dev nD, ∀ b ∈ Pipeline.ucRefs τ sig, r.2.mem ((c : Thread nD τ).1, b) = W7 m ρ c b) :=
  run_post m ρ fun _ h => h

/-- The frame: @main runs to the end and each of its six arguments holds what it was launched with. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_post m ρ fun s h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩

end Cert.Kernel.Hand

end
-- ==== Proof.Ideal.QkvRegion.lean ====
/-
  Region 0 of @main: the fused q/k/v projection, one 1024x1024 matmul per block on a 4x3 grid.
  Everything is stated at a parameter `V`, the TensorCore's buffer contents when the region is entered.
  Row-block `i` of the activations (window 0) times column-block `j` of the concatenated weights
  (window 1), rounded to bf16, fills block `(i, j)` of the 4096x3072 projection (window 2).
-/
import proofs.«123667_j5557687681798_2_alg».proof.Proof.Gen.KernelIdeal.Launch
import proofs.«123667_j5557687681798_2_alg».proof.Proof.Gen.KernelIdeal.Skeleton
import proofs.«123667_j5557687681798_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Definitions -/

/-- Block `t` of window `w`, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The one rectangle every access of the body goes through: the whole 1024x1024 staging block. -/
abbrev whole0 : Rect S1024x1024 := Rect.unit (s := S1024x1024) ![0, 0] S1024x1024.size inb_S1024x1024_S1024x1024_0_0

/-- What the body leaves in the output block from the two input blocks: its single store, the bf16 rounding of the
    product of the bf16-rounded activations block `x0` with the weights block `x1`. -/
def left0 (x0 : Vec F S1024x1024 .f32) (x1 : Vec F S1024x1024 .bf16) : Vec F S1024x1024 .bf16 :=
  View.canon [⟨whole0, k0_pay1 (View.ld x0 whole0) (View.ld x1 whole0)⟩]

/-- The proof data of the region on core `c`: the arrays as found; after the body each input block in place and
    the output block at `left0` of the two; the invariant leaves the scoped rest and the generator register alone;
    full shares, nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => left0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) :
    (dat0 V c).after 2 t = left0 (blk0 V c 0 t) (blk0 V c 1 t) := by dsimp only [dat0]

/-! ## The input blocks are in place at every point

An input window's staging buffer holds the window's block at the point whether the pipeline fetched it there or
not: unfetched, the block index has not moved since the previous point. Both windows are uncut and never idle. -/

theorem before0_0 (c : Dev nD) (t : Fin cfg0.N) (d) : (dat0 V c).before 0 t d = blk0 V c 0 t :=
  ((dat0 V c).before_in_eq_fetched 0 rfl (fun _ => rfl) (fun _ _ _ => rfl)
    (fun t => by rw [dat0_after_0]; unfold Dat.blockOf blk0; rw [dat0_A]; try rfl) t d).trans
    (by unfold Dat.fetched Dat.blockOf blk0; rw [dat0_A]; try rfl)

theorem before0_1 (c : Dev nD) (t : Fin cfg0.N) (d) : (dat0 V c).before 1 t d = blk0 V c 1 t :=
  ((dat0 V c).before_in_eq_fetched 1 rfl (fun _ => rfl) (fun _ _ _ => rfl)
    (fun t => by rw [dat0_after_1]; unfold Dat.blockOf blk0; rw [dat0_A]; try rfl) t d).trans
    (by unfold Dat.fetched Dat.blockOf blk0; rw [dat0_A]; try rfl)

/-! ## The store covers the output block -/

theorem cover0 (p : Vec F S1024x1024 .bf16) (y : S1024x1024.Idx) :
    ∃ pc ∈ ([⟨whole0, p⟩] : List (View.Piece (Elt F) S1024x1024 .bf16)), y ∈ pc.1.set :=
  View.cover_of_tiled [⟨whole0, p⟩] S1024x1024.size (by rfl) y

/-! ## The body -/

set_option maxHeartbeats 1000000 in
/-- On whole staging buffers, the inputs' reading `x0` and `x1` and the output's holding anything, the body runs
    to its return with the inputs' as they were and the output's reading `left0 x0 x1`. -/
theorem body0 (c : Dev nD) (E : Set ℕ) (i : grid0.Coords)
    (a0 : Memref sig .tc .vmem S1024x1024 .f32) (h0 : a0.IsWhole)
    (a1 : Memref sig .tc .vmem S1024x1024 .bf16) (h1 : a1.IsWhole)
    (a2 : Memref sig .tc .vmem S1024x1024 .bf16) (h2 : a2.IsWhole)
    (x0 : Vec F S1024x1024 .f32) (x1 : Vec F S1024x1024 .bf16) (K : PUnit → sProp 𝕄) :
    iprop(owns (c : Thread nD τ) a0 fullShare x0 ∗ owns (c : Thread nD τ) a1 fullShare x1
        ∗ (∃ d, owns (c : Thread nD τ) a2 fullShare d)
        ∗ (iprop(owns (c : Thread nD τ) a0 fullShare x0 ∗ owns (c : Thread nD τ) a1 fullShare x1
            ∗ owns (c : Thread nD τ) a2 fullShare (left0 x0 x1)) -∗ K ⟨⟩))
      ⊢ wp frame (wpE (defs₀ (F := F)) Variants.none c none) E (cc0__mm_kernel i a0 h0 a1 h1 a2 h2) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-! ## The body at a grid point -/

/-- What the body is called with at point `t`, window by window, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem point0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1]
  rw [show (dat0 V c).Φ t.succ = (dat0 V c).Φ t.castSucc from rfl,
    show (dat0 V c).owesAt () t.succ = (dat0 V c).owesAt () t.castSucc from rfl,
    dat0_after_0, dat0_after_1, dat0_after_2]
  iintro ⟨HΦ, Ho, ⟨%d0, H0⟩, ⟨%d1, H1⟩, ⟨%d2, H2⟩⟩
  iapply (body0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every point. -/
theorem obligation0 (c : Dev nD) : BodyObligation (dat0 (F := F) V c) (defs₀ (F := F)) Variants.none () Set.univ := fun t => by
  rw [bigSep_W0, bigSep_W0]
  exact point0 V c t

end Cert.KernelIdeal.Hand

end
-- ==== Proof.Ideal.AttnRegion.lean ====
/-
  Region 1 of @main: attention on a 2x8x8 grid. A point takes two heads' 256-row query tile (window 0) and the
  same two heads' full 2048-row key and value panels (windows 1 and 2), forms the scaled scores, normalises each
  row by the exponentials' sum after subtracting the row maximum, multiplies by the values, and writes the two
  heads' 256x64 results side by side into one 1x256x128 output block (window 3): head 0 into columns 0..63,
  head 1 into columns 64..127. Everything is stated at a parameter `V`, the buffer contents at the region's entry.
-/
import proofs.«123667_j5557687681798_2_alg».proof.Proof.Gen.KernelIdeal.Launch
import proofs.«123667_j5557687681798_2_alg».proof.Proof.Gen.KernelIdeal.Skeleton
import proofs.«123667_j5557687681798_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Definitions -/

/-- Block `t` of window `w`, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole query tile, -/
abbrev qTile : Rect S1x2x256x64 := Rect.unit (s := S1x2x256x64) ![0, 0, 0, 0] S1x2x256x64.size inb_S1x2x256x64_S1x2x256x64_0_0_0_0
/-- the whole key (or value) panel, -/
abbrev kvPanel : Rect S1x2x2048x64 := Rect.unit (s := S1x2x2048x64) ![0, 0, 0, 0] S1x2x2048x64.size inb_S1x2x2048x64_S1x2x2048x64_0_0_0_0
/-- and the two halves of the output block: columns 0..63 and columns 64..127. -/
abbrev colsLo : Rect S1x256x128 := Rect.unit (s := S1x256x128) ![0, 0, 0] S1x256x64.size inb_S1x256x128_S1x256x64_0_0_0
abbrev colsHi : Rect S1x256x128 := Rect.unit (s := S1x256x128) ![0, 0, 64] S1x256x64.size inb_S1x256x128_S1x256x64_0_0_64

/-- What the body leaves in the output block from the query tile `x0`, the key panel `x1` and the value panel
    `x2`: its two stores, the later one first — head 1's result over the high columns, head 0's over the low. -/
def left1 (x0 : Vec F S1x2x256x64 .bf16) (x1 : Vec F S1x2x2048x64 .bf16) (x2 : Vec F S1x2x2048x64 .bf16) : Vec F S1x256x128 .bf16 :=
  View.canon [⟨colsHi, k1_pay3 (View.ld x0 qTile) (View.ld x1 kvPanel) (View.ld x2 kvPanel)⟩,
              ⟨colsLo, k1_pay2 (View.ld x0 qTile) (View.ld x1 kvPanel) (View.ld x2 kvPanel)⟩]

/-- The proof data of the region on core `c`: the arrays as found; after the body each input block in place and
    the output block at `left1` of the three; the invariant leaves the scoped rest and the generator register alone;
    full shares, nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => left1 (blk1 V c 0 t) (blk1 V c 1 t) (blk1 V c 2 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) :
    (dat1 V c).after 3 t = left1 (blk1 V c 0 t) (blk1 V c 1 t) (blk1 V c 2 t) := by dsimp only [dat1]

/-! ## The input blocks are in place at every point

An input window's staging buffer holds the window's block at the point whether the pipeline fetched it there or
not: unfetched, the block index has not moved since the previous point (the key and value panels are fetched once
per eight points). The windows are uncut and never idle. -/

theorem before1_0 (c : Dev nD) (t : Fin cfg1.N) (d) : (dat1 V c).before 0 t d = blk1 V c 0 t :=
  ((dat1 V c).before_in_eq_fetched 0 rfl (fun _ => rfl) (fun _ _ _ => rfl)
    (fun t => by rw [dat1_after_0]; unfold Dat.blockOf blk1; rw [dat1_A]; try rfl) t d).trans
    (by unfold Dat.fetched Dat.blockOf blk1; rw [dat1_A]; try rfl)

theorem before1_1 (c : Dev nD) (t : Fin cfg1.N) (d) : (dat1 V c).before 1 t d = blk1 V c 1 t :=
  ((dat1 V c).before_in_eq_fetched 1 rfl (fun _ => rfl) (fun _ _ _ => rfl)
    (fun t => by rw [dat1_after_1]; unfold Dat.blockOf blk1; rw [dat1_A]; try rfl) t d).trans
    (by unfold Dat.fetched Dat.blockOf blk1; rw [dat1_A]; try rfl)

theorem before1_2 (c : Dev nD) (t : Fin cfg1.N) (d) : (dat1 V c).before 2 t d = blk1 V c 2 t :=
  ((dat1 V c).before_in_eq_fetched 2 rfl (fun _ => rfl) (fun _ _ _ => rfl)
    (fun t => by rw [dat1_after_2]; unfold Dat.blockOf blk1; rw [dat1_A]; try rfl) t d).trans
    (by unfold Dat.fetched Dat.blockOf blk1; rw [dat1_A]; try rfl)

/-! ## The two stores cover the output block

The low-column and high-column halves tile the 1x256x128 block in 1x256x64 pieces. -/

theorem cover1 (p q : Vec F S1x256x64 .bf16) (y : S1x256x128.Idx) :
    ∃ pc ∈ ([⟨colsHi, p⟩, ⟨colsLo, q⟩] : List (View.Piece (Elt F) S1x256x128 .bf16)), y ∈ pc.1.set :=
  View.cover_of_tiled [⟨colsHi, p⟩, ⟨colsLo, q⟩] S1x256x64.size (by rfl) y

/-! ## The body -/

set_option maxHeartbeats 4000000 in
/-- On whole staging buffers, the inputs' reading `x0`, `x1`, `x2` and the output's holding anything, the body
    runs to its return with the inputs' as they were and the output's reading `left1 x0 x1 x2`. -/
theorem body1 (c : Dev nD) (E : Set ℕ) (i : grid1.Coords)
    (a0 : Memref sig .tc .vmem S1x2x256x64 .bf16) (h0 : a0.IsWhole)
    (a1 : Memref sig .tc .vmem S1x2x2048x64 .bf16) (h1 : a1.IsWhole)
    (a2 : Memref sig .tc .vmem S1x2x2048x64 .bf16) (h2 : a2.IsWhole)
    (a3 : Memref sig .tc .vmem S1x256x128 .bf16) (h3 : a3.IsWhole)
    (x0 : Vec F S1x2x256x64 .bf16) (x1 : Vec F S1x2x2048x64 .bf16) (x2 : Vec F S1x2x2048x64 .bf16) (K : PUnit → sProp 𝕄) :
    iprop(owns (c : Thread nD τ) a0 fullShare x0 ∗ owns (c : Thread nD τ) a1 fullShare x1
        ∗ owns (c : Thread nD τ) a2 fullShare x2
        ∗ (∃ d, owns (c : Thread nD τ) a3 fullShare d)
        ∗ (iprop(owns (c : Thread nD τ) a0 fullShare x0 ∗ owns (c : Thread nD τ) a1 fullShare x1
            ∗ owns (c : Thread nD τ) a2 fullShare x2
            ∗ owns (c : Thread nD τ) a3 fullShare (left1 x0 x1 x2)) -∗ K ⟨⟩))
      ⊢ wp frame (wpE (defs₀ (F := F)) Variants.none c none) E (cc1__attn_kernel i a0 h0 a1 h1 a2 h2 a3 h3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _ _)

/-! ## The body at a grid point -/

/-- What the body is called with at point `t`, window by window, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem point1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2]
  rw [show (dat1 V c).Φ t.succ = (dat1 V c).Φ t.castSucc from rfl,
    show (dat1 V c).owesAt () t.succ = (dat1 V c).owesAt () t.castSucc from rfl,
    dat1_after_0, dat1_after_1, dat1_after_2, dat1_after_3]
  iintro ⟨HΦ, Ho, ⟨%d0, H0⟩, ⟨%d1, H1⟩, ⟨%d2, H2⟩, ⟨%d3, H3⟩⟩
  iapply (body1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem obligation1 (c : Dev nD) : BodyObligation (dat1 (F := F) V c) (defs₀ (F := F)) Variants.none () Set.univ := fun t => by
  rw [bigSep_W1, bigSep_W1]
  exact point1 V c t

end Cert.KernelIdeal.Hand

end
-- ==== Proof.Ideal.OutRegion.lean ====
/-
  Region 2 of @main: the output projection with bias on a 4x1 grid. Row-block `i` of the attention result
  (window 0) times the whole projection matrix (window 1), plus the bias row (window 2) added to every row, fills
  row-block `i` of the 4096x1024 result (window 3). Everything is stated at a parameter `V`, the buffer contents
  at the region's entry.
-/
import proofs.«123667_j5557687681798_2_alg».proof.Proof.Gen.KernelIdeal.Launch
import proofs.«123667_j5557687681798_2_alg».proof.Proof.Gen.KernelIdeal.Skeleton
import proofs.«123667_j5557687681798_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Definitions -/

/-- Block `t` of window `w`, read off the window's array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole 1024x1024 staging block, -/
abbrev whole2 : Rect S1024x1024 := Rect.unit (s := S1024x1024) ![0, 0] S1024x1024.size inb_S1024x1024_S1024x1024_0_0
/-- and the whole bias row. -/
abbrev row2 : Rect S1024 := Rect.unit (s := S1024) ![0] S1024.size inb_S1024_S1024_0

/-- What the body leaves in the output block from the activations block `x0`, the matrix `x1` and the bias
    `x2`: its single store, the product plus the bias broadcast over the rows. -/
def left2 (x0 : Vec F S1024x1024 .bf16) (x1 : Vec F S1024x1024 .bf16) (x2 : Vec F S1024 .f32) : Vec F S1024x1024 .f32 :=
  View.canon [⟨whole2, k2_pay1 (View.ld x0 whole2) (View.ld x1 whole2) (View.ld x2 row2)⟩]

/-- The proof data of the region on core `c`: the arrays as found; after the body each input block in place and
    the output block at `left2` of the three; the invariant leaves the scoped rest and the generator register alone;
    full shares, nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => left2 (blk2 V c 0 t) (blk2 V c 1 t) (blk2 V c 2 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after_0 (c : Dev nD) (t : Fin cfg2.N) : (dat2 V c).after 0 t = blk2 V c 0 t := by dsimp only [dat2]
theorem dat2_after_1 (c : Dev nD) (t : Fin cfg2.N) : (dat2 V c).after 1 t = blk2 V c 1 t := by dsimp only [dat2]
theorem dat2_after_2 (c : Dev nD) (t : Fin cfg2.N) : (dat2 V c).after 2 t = blk2 V c 2 t := by dsimp only [dat2]
theorem dat2_after_3 (c : Dev nD) (t : Fin cfg2.N) :
    (dat2 V c).after 3 t = left2 (blk2 V c 0 t) (blk2 V c 1 t) (blk2 V c 2 t) := by dsimp only [dat2]

/-! ## The input blocks are in place at every point

An input window's staging buffer holds the window's block at the point whether the pipeline fetched it there or
not: unfetched, the block index has not moved since the previous point (the matrix and the bias are fetched at
the first point only). The windows are uncut and never idle. -/

theorem before2_0 (c : Dev nD) (t : Fin cfg2.N) (d) : (dat2 V c).before 0 t d = blk2 V c 0 t :=
  ((dat2 V c).before_in_eq_fetched 0 rfl (fun _ => rfl) (fun _ _ _ => rfl)
    (fun t => by rw [dat2_after_0]; unfold Dat.blockOf blk2; rw [dat2_A]; try rfl) t d).trans
    (by unfold Dat.fetched Dat.blockOf blk2; rw [dat2_A]; try rfl)

theorem before2_1 (c : Dev nD) (t : Fin cfg2.N) (d) : (dat2 V c).before 1 t d = blk2 V c 1 t :=
  ((dat2 V c).before_in_eq_fetched 1 rfl (fun _ => rfl) (fun _ _ _ => rfl)
    (fun t => by rw [dat2_after_1]; unfold Dat.blockOf blk2; rw [dat2_A]; try rfl) t d).trans
    (by unfold Dat.fetched Dat.blockOf blk2; rw [dat2_A]; try rfl)

theorem before2_2 (c : Dev nD) (t : Fin cfg2.N) (d) : (dat2 V c).before 2 t d = blk2 V c 2 t :=
  ((dat2 V c).before_in_eq_fetched 2 rfl (fun _ => rfl) (fun _ _ _ => rfl)
    (fun t => by rw [dat2_after_2]; unfold Dat.blockOf blk2; rw [dat2_A]; try rfl) t d).trans
    (by unfold Dat.fetched Dat.blockOf blk2; rw [dat2_A]; try rfl)

/-! ## The store covers the output block -/

theorem cover2 (p : Vec F S1024x1024 .f32) (y : S1024x1024.Idx) :
    ∃ pc ∈ ([⟨whole2, p⟩] : List (View.Piece (Elt F) S1024x1024 .f32)), y ∈ pc.1.set :=
  View.cover_of_tiled [⟨whole2, p⟩] S1024x1024.size (by rfl) y

/-! ## The body -/

set_option maxHeartbeats 1000000 in
/-- On whole staging buffers, the inputs' reading `x0`, `x1`, `x2` and the output's holding anything, the body
    runs to its return with the inputs' as they were and the output's reading `left2 x0 x1 x2`. -/
theorem body2 (c : Dev nD) (E : Set ℕ) (i : grid2.Coords)
    (a0 : Memref sig .tc .vmem S1024x1024 .bf16) (h0 : a0.IsWhole)
    (a1 : Memref sig .tc .vmem S1024x1024 .bf16) (h1 : a1.IsWhole)
    (a2 : Memref sig .tc .vmem S1024 .f32) (h2 : a2.IsWhole)
    (a3 : Memref sig .tc .vmem S1024x1024 .f32) (h3 : a3.IsWhole)
    (x0 : Vec F S1024x1024 .bf16) (x1 : Vec F S1024x1024 .bf16) (x2 : Vec F S1024 .f32) (K : PUnit → sProp 𝕄) :
    iprop(owns (c : Thread nD τ) a0 fullShare x0 ∗ owns (c : Thread nD τ) a1 fullShare x1
        ∗ owns (c : Thread nD τ) a2 fullShare x2
        ∗ (∃ d, owns (c : Thread nD τ) a3 fullShare d)
        ∗ (iprop(owns (c : Thread nD τ) a0 fullShare x0 ∗ owns (c : Thread nD τ) a1 fullShare x1
            ∗ owns (c : Thread nD τ) a2 fullShare x2
            ∗ owns (c : Thread nD τ) a3 fullShare (left2 x0 x1 x2)) -∗ K ⟨⟩))
      ⊢ wp frame (wpE (defs₀ (F := F)) Variants.none c none) E (cc2__mm_bias_kernel i a0 h0 a1 h1 a2 h2 a3 h3) K := by
  simp only [cc2__mm_bias_kernel_eq_skeleton]; unfold cc2__mm_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-! ## The body at a grid point -/

/-- What the body is called with at point `t`, window by window, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem point2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2]
  rw [show (dat2 V c).Φ t.succ = (dat2 V c).Φ t.castSucc from rfl,
    show (dat2 V c).owesAt () t.succ = (dat2 V c).owesAt () t.castSucc from rfl,
    dat2_after_0, dat2_after_1, dat2_after_2, dat2_after_3]
  iintro ⟨HΦ, Ho, ⟨%d0, H0⟩, ⟨%d1, H1⟩, ⟨%d2, H2⟩, ⟨%d3, H3⟩⟩
  iapply (body2 c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem obligation2 (c : Dev nD) : BodyObligation (dat2 (F := F) V c) (defs₀ (F := F)) Variants.none () Set.univ := fun t => by
  rw [bigSep_W2, bigSep_W2]
  exact point2 V c t

end Cert.KernelIdeal.Hand

end
-- ==== Proof.Ideal.MainRun.lean ====
/-
  @main from the launch to the return: four stretches of host operations with the three kernel regions between
  them, seven segments in all. The contents of every unscoped buffer at each of the eight boundaries are named as
  a fold from the launch memory — a host stretch folds its operations over the contents before it, a region
  replaces its windows' arrays by what its pipeline's write-backs leave — and the run is assembled from a host
  segment per stretch and a region record per kernel. `run_all` reads every unscoped buffer at the end off the
  last fold; `frame` walks the fold back at the six arguments, which nothing writes.
-/
import proofs.«123667_j5557687681798_2_alg».proof.Proof.Ideal.QkvRegion
import proofs.«123667_j5557687681798_2_alg».proof.Proof.Ideal.AttnRegion
import proofs.«123667_j5557687681798_2_alg».proof.Proof.Ideal.OutRegion
import proofs.«123667_j5557687681798_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the eight boundaries -/

/-- Core `c`'s buffers at the launch. -/
abbrev W0 : Dev nD → Valuation τ sig (Elt F) := fun c b => (s₀ m ρ).mem ((c : Dev nD), b)

/-- After host stretch 0 (region 0's entry). -/
abbrev W1 : Dev nD → Valuation τ sig (Elt F) := fun c => StableHlo.after hostOps0 (W0 m ρ c)
/-- The same, read at the TensorCore's references: what region 0's proof data are stated at. -/
abbrev V1 : (c : Dev nD) → (b : Ref sig .tc) → Buf (Elt F) ((c : Thread nD τ).loc b) := fun c b => W1 m ρ c b
/-- A buffer the stretch does not write keeps its contents. -/
theorem W1_keep (c : Dev nD) (b : Ref sig .tc) (h : b ∉ (hostOps0_W : List (Ref sig .tc))) :
    W1 m ρ c (Proc.devRef .tc b) = W0 m ρ c (Proc.devRef .tc b) :=
  StableHlo.after_of_writes_sub hostOps0 _ hostOps0_writes h

/-- When region 0 is left: its windows' arrays at what the pipeline's write-backs leave, every other buffer as at
    the entry. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
/-- The two facts the regrouping of the region's arrays with the other buffers takes at the exit. -/
theorem exit0_arr (c : Dev nD) (w : Fin cfg0.W) :
    (dat0 (V1 m ρ) c).arrAt w cfg0.N = V2 m ρ c (Pipeline.arrRef spec0 w) :=
  (W2_arr m ρ c w).symm
theorem exit0_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1 (region 1's entry). -/
abbrev W3 : Dev nD → Valuation τ sig (Elt F) := fun c => StableHlo.after hostOps1 (W2 m ρ c)
/-- The same, read at the TensorCore's references: what region 1's proof data are stated at. -/
abbrev V3 : (c : Dev nD) → (b : Ref sig .tc) → Buf (Elt F) ((c : Thread nD τ).loc b) := fun c b => W3 m ρ c b
/-- A buffer the stretch does not write keeps its contents. -/
theorem W3_keep (c : Dev nD) (b : Ref sig .tc) (h : b ∉ (hostOps1_W : List (Ref sig .tc))) :
    W3 m ρ c (Proc.devRef .tc b) = W2 m ρ c (Proc.devRef .tc b) :=
  StableHlo.after_of_writes_sub hostOps1 _ hostOps1_writes h

/-- When region 1 is left: its windows' arrays at what the pipeline's write-backs leave, every other buffer as at
    the entry. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
/-- The two facts the regrouping of the region's arrays with the other buffers takes at the exit. -/
theorem exit1_arr (c : Dev nD) (w : Fin cfg1.W) :
    (dat1 (V3 m ρ) c).arrAt w cfg1.N = V4 m ρ c (Pipeline.arrRef spec1 w) :=
  (W4_arr m ρ c w).symm
theorem exit1_rest (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2 (region 2's entry). -/
abbrev W5 : Dev nD → Valuation τ sig (Elt F) := fun c => StableHlo.after hostOps2 (W4 m ρ c)
/-- The same, read at the TensorCore's references: what region 2's proof data are stated at. -/
abbrev V5 : (c : Dev nD) → (b : Ref sig .tc) → Buf (Elt F) ((c : Thread nD τ).loc b) := fun c b => W5 m ρ c b
/-- A buffer the stretch does not write keeps its contents. -/
theorem W5_keep (c : Dev nD) (b : Ref sig .tc) (h : b ∉ (hostOps2_W : List (Ref sig .tc))) :
    W5 m ρ c (Proc.devRef .tc b) = W4 m ρ c (Proc.devRef .tc b) :=
  StableHlo.after_of_writes_sub hostOps2 _ hostOps2_writes h

/-- When region 2 is left: its windows' arrays at what the pipeline's write-backs leave, every other buffer as at
    the entry. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references. -/
abbrev V6 : (c : Dev nD) → (b : Ref sig .tc) → Buf (Elt F) ((c : Thread nD τ).loc b) := fun c b => W6 m ρ c b
/-- The two facts the regrouping of the region's arrays with the other buffers takes at the exit. -/
theorem exit2_arr (c : Dev nD) (w : Fin cfg2.W) :
    (dat2 (V5 m ρ) c).arrAt w cfg2.N = V6 m ρ c (Pipeline.arrRef spec2 w) :=
  (W6_arr m ρ c w).symm
theorem exit2_rest (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3 (the end of @main). -/
abbrev W7 : Dev nD → Valuation τ sig (Elt F) := fun c => StableHlo.after hostOps3 (W6 m ρ c)
/-- A buffer the stretch does not write keeps its contents. -/
theorem W7_keep (c : Dev nD) (b : Ref sig .tc) (h : b ∉ (hostOps3_W : List (Ref sig .tc))) :
    W7 m ρ c (Proc.devRef .tc b) = W6 m ρ c (Proc.devRef .tc b) :=
  StableHlo.after_of_writes_sub hostOps3 _ hostOps3_writes h

/-! ## The arguments end as launched

No host operation writes an argument, and no region has one as an output window: five of them are no window at
all, and the bias is an input window of region 2, whose array the pipeline leaves as it found it. -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_keep m ρ c main_arg0 (by decide)
    _ = W5 m ρ c (Proc.devRef .tc main_arg0) := W6_of_ne m ρ c main_arg0 (by decide)
    _ = W4 m ρ c (Proc.devRef .tc main_arg0) := W5_keep m ρ c main_arg0 (by decide)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := W2_of_ne m ρ c main_arg0 (by decide)
    _ = W0 m ρ c (Proc.devRef .tc main_arg0) := W1_keep m ρ c main_arg0 (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_keep m ρ c main_arg1 (by decide)
    _ = W5 m ρ c (Proc.devRef .tc main_arg1) := W6_of_ne m ρ c main_arg1 (by decide)
    _ = W4 m ρ c (Proc.devRef .tc main_arg1) := W5_keep m ρ c main_arg1 (by decide)
    _ = W3 m ρ c (Proc.devRef .tc main_arg1) := W4_of_ne m ρ c main_arg1 (by decide)
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_keep m ρ c main_arg2 (by decide)
    _ = W5 m ρ c (Proc.devRef .tc main_arg2) := W6_of_ne m ρ c main_arg2 (by decide)
    _ = W4 m ρ c (Proc.devRef .tc main_arg2) := W5_keep m ρ c main_arg2 (by decide)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_of_ne m ρ c main_arg2 (by decide)
    _ = W0 m ρ c (Proc.devRef .tc main_arg2) := W1_keep m ρ c main_arg2 (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_keep m ρ c main_arg3 (by decide)
    _ = W5 m ρ c (Proc.devRef .tc main_arg3) := W6_of_ne m ρ c main_arg3 (by decide)
    _ = W4 m ρ c (Proc.devRef .tc main_arg3) := W5_keep m ρ c main_arg3 (by decide)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_of_ne m ρ c main_arg3 (by decide)
    _ = W0 m ρ c (Proc.devRef .tc main_arg3) := W1_keep m ρ c main_arg3 (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_keep m ρ c main_arg4 (by decide)
    _ = W5 m ρ c (Proc.devRef .tc main_arg4) := W6_of_ne m ρ c main_arg4 (by decide)
    _ = W4 m ρ c (Proc.devRef .tc main_arg4) := W5_keep m ρ c main_arg4 (by decide)
    _ = W3 m ρ c (Proc.devRef .tc main_arg4) := W4_of_ne m ρ c main_arg4 (by decide)
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_keep m ρ c main_arg5 (by decide)
    _ = W5 m ρ c (Proc.devRef .tc main_arg5) := (W6_arr m ρ c 2).trans (((dat2 (V5 m ρ) c).arrAt_in 2 rfl _).trans (dat2_A (V5 m ρ) c 2))
    _ = W4 m ρ c (Proc.devRef .tc main_arg5) := W5_keep m ρ c main_arg5 (by decide)
    _ = W3 m ρ c (Proc.devRef .tc main_arg5) := W4_of_ne m ρ c main_arg5 (by decide)
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl

/-! ## The proof data of the three pipelines, and what rides beside the buffers -/

/-- No pipeline has a prefetched table. -/
abbrev adm : (p : Fin 3) → (pcfgs (F := F) p).Adm := fun p => (cfgs p).toPCfg_adm
/-- Each pipeline's proof data at the contents its region is entered with: a literal case split on the index. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core waits on another: no level is assigned. -/
abbrev L : GSem nD τ sig → Finset Unit := fun _ => ∅
abbrev lv : GSem nD τ sig → Unit → ℕ := fun _ _ => 0
/-- Beside the buffers every segment carries the core's generator register at some state and its debt, which is
    nothing. -/
abbrev R (c : Dev nD) : sProp 𝕄 := iprop((∃ r, prngReg c r) ∗ ∃ W, owes (c : Thread nD τ) (0 : CellTallies nD τ sig Unit) W)
/-- A host stretch as a segment over the unscoped buffers at contents `W`; it leaves them at the stretch's fold. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is one of those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at `W7`, the generator register at some state. -/
abbrev Tend (c : Dev nD) : sProp 𝕄 := iprop(StableHlo.held (c : Thread nD τ) (Pipeline.ucRefs τ sig) (W7 m ρ c) ∗ ∃ r, prngReg c r)

/-! ## The three regions as segments -/

set_option backward.isDefEq.respectTransparency.types false in
/-- Region 0 over the thread state: entered with every unscoped buffer at `W1`, left with them at `W2`. At the
    entry the region's arrays are split off the unscoped buffers, at the exit put back at what the pipeline left;
    the generator register goes into the region's invariant and comes back; nothing is owed and the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. At the
    entry the region's arrays are split off the unscoped buffers, at the exit put back at what the pipeline left;
    the generator register goes into the region's invariant and comes back; nothing is owed and the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. At the
    entry the region's arrays are split off the unscoped buffers, at the exit put back at what the pipeline left;
    the generator register goes into the region's invariant and comes back; nothing is owed and the kernel has no
    semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (exit2_arr m ρ c) (exit2_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its seven segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments. -/
theorem main_run (c : Dev nD) : main (F := F) c = Pipeline.Seg.run (segs m ρ) := (main_chain c).trans (by chain_rfl)

/-- What the last host stretch leaves, regrouped: the buffers and the generator register on one side, the debt on
    the other. -/
theorem last_link (c : Dev nD) :
    iprop(StableHlo.held (c : Thread nD τ) (Pipeline.ucRefs τ sig) (W7 m ρ c)
        ∗ (∃ r, prngReg c r) ∗ ∃ W, owes (c : Thread nD τ) (0 : CellTallies nD τ sig Unit) W)
      ⊢ iprop(Tend m ρ c ∗ ∃ W, owes (c : Thread nD τ) (0 : CellTallies nD τ sig Unit) W) := by
  iintro ⟨Hh, Hp, HO⟩
  isplitr [HO]
  · isplitl [Hh]; · iexact Hh
    iexact Hp
  iexact HO

set_option backward.isDefEq.respectTransparency.types false in
/-- From any launch memory with zero counters every weakly fair execution of @main ends, without a fault, in a
    state of which `Q` holds — for any `Q` that follows from every unscoped buffer holding the last fold `W7`. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W7 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun _ => .rfl, fun _ => .rfl, fun _ => .rfl, fun _ => .rfl,
      fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := hQ)

/-- Every unscoped buffer ends at the last fold. -/
theorem run_all : θ_run defs (onTc (τ := τ) (main (F := F))) ⟨m, fun _ => 0, ρ⟩
    (fun r => ∀ c : Dev nD, ∀ b ∈ Pipeline.ucRefs τ sig, r.2.mem ((c : Thread nD τ).1, b) = W7 m ρ c b) :=
  run_post m ρ fun _ h => h

/-- The frame: @main runs to the end and each of its six arguments holds what it was launched with. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_post m ρ fun s h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩

end Cert.KernelIdeal.Hand

end
-- ==== Proof.AttentionSpec.lean ====
/-
  Dense multi-head self-attention over the extended reals, as ONE function of the six argument arrays, index by index.

  The shapes are literal: x is [2, 2048, 1024] (batch, position, channel), each weight matrix is [1024, 1024] with the OUTPUT
  channel first (a linear layer is x · Wᵀ), the bias is [1024]. The 1024 channels are 16 heads of 64 lanes, channel
  h · 64 + d being lane d of head h. For a batch b and a head h the score of query position t against key position s is
  the inner product over the 64 lanes of the query and key projections, times a scale; a row of scores is turned into
  weights by subtracting the row's maximum, exponentiating and dividing by the row's sum; the context at (t, d) is the
  weighted sum over s of the value projection's lane d; the heads' contexts laid side by side along the channel axis go
  through the output layer, x · Wpᵀ + bp. Every sum is a finite sum on the extended reals and the maximum a fold of max
  from the bottom element, so the function is defined at every input, finite or not.
-/
import Idealize.ShloMosaic.PureOps.Ideal
import Idealize.ShloMosaic.Lib.ValueIdx

noncomputable section

open scoped BigOperators

namespace Cert.Attention

open Idealize.ShloMosaic Idealize.ShloMosaic.ValueIdx

/-- An activation array [2, 2048, 1024], a weight matrix [1024, 1024], a bias [1024], as functions of the index. -/
abbrev Act : Type := (⟨3, ![2, 2048, 1024]⟩ : Shape).Idx → EReal
abbrev Mat : Type := (⟨2, ![1024, 1024]⟩ : Shape).Idx → EReal
abbrev Bias : Type := (⟨1, ![1024]⟩ : Shape).Idx → EReal

/-- Lane d of head h is channel h · 64 + d. -/
def chan (h : Fin 16) (d : Fin 64) : Fin 1024 := ⟨h.val * 64 + d.val, by have := h.isLt; have := d.isLt; omega⟩

/-- A channel's head and lane. -/
def headOf (n : Fin 1024) : Fin 16 := ⟨n.val / 64, by have := n.isLt; omega⟩
def laneOf (n : Fin 1024) : Fin 64 := ⟨n.val % 64, Nat.mod_lt _ (by decide)⟩

theorem chan_headOf_laneOf (n : Fin 1024) : chan (headOf n) (laneOf n) = n :=
  Fin.ext (by show n.val / 64 * 64 + n.val % 64 = n.val; omega)
theorem headOf_chan (h : Fin 16) (d : Fin 64) : headOf (chan h d) = h :=
  Fin.ext (by show (h.val * 64 + d.val) / 64 = h.val; have := d.isLt; omega)
theorem laneOf_chan (h : Fin 16) (d : Fin 64) : laneOf (chan h d) = d :=
  Fin.ext (by show (h.val * 64 + d.val) % 64 = d.val; have := d.isLt; omega)

/-- A linear layer without bias, x · Wᵀ: output channel n of position t is the sum over the input channels. -/
def proj (x : Act) (W : Mat) (b : Fin 2) (t : Fin 2048) (n : Fin 1024) : EReal :=
  ∑ c : Fin 1024, x (ix3 b t c) * W (ix2 n c)

variable (scale : EReal) (x : Act) (Wk Wq Wv Wp : Mat) (bp : Bias)

/-- The scaled score of query position t against key position s, in head h of batch b. -/
def score (b : Fin 2) (h : Fin 16) (t s : Fin 2048) : EReal :=
  (∑ d : Fin 64, proj x Wq b t (chan h d) * proj x Wk b s (chan h d)) * scale

/-- The largest score of a row (a fold of max from the bottom element). -/
def rowMax (b : Fin 2) (h : Fin 16) (t : Fin 2048) : EReal :=
  (Finset.univ : Finset (Fin 2048)).fold max ⊥ (fun s => score scale x Wk Wq b h t s)

/-- A score's exponential after the row's maximum is taken off. -/
def expo (b : Fin 2) (h : Fin 16) (t s : Fin 2048) : EReal :=
  Ideal.exp (score scale x Wk Wq b h t s - rowMax scale x Wk Wq b h t)

/-- The attention weight: the exponential over the row's sum of exponentials. -/
def weight (b : Fin 2) (h : Fin 16) (t s : Fin 2048) : EReal :=
  Ideal.div (expo scale x Wk Wq b h t s) (∑ s' : Fin 2048, expo scale x Wk Wq b h t s')

/-- The context of head h at position t, lane d: the weighted sum of the value projection over the key positions. -/
def context (b : Fin 2) (h : Fin 16) (t : Fin 2048) (d : Fin 64) : EReal :=
  ∑ s : Fin 2048, weight scale x Wk Wq b h t s * proj x Wv b s (chan h d)

/-- The heads' contexts side by side along the channel axis. -/
def merged (b : Fin 2) (t : Fin 2048) (n : Fin 1024) : EReal :=
  context scale x Wk Wq Wv b (headOf n) t (laneOf n)

/-- The layer's result at (b, t, n): the output layer applied to the merged contexts, plus the bias. -/
def result (b : Fin 2) (t : Fin 2048) (n : Fin 1024) : EReal :=
  (∑ c : Fin 1024, merged scale x Wk Wq Wv b t c * Wp (ix2 n c)) + bp (ix1 n)

/-- The result as an array [2, 2048, 1024]. -/
def resultArr : Act := fun i => result scale x Wk Wq Wv Wp bp (i 0) (i 1) (i 2)

/-- The scale both programs use, one eighth: the kernel's literal, and the reference's 1 / √64. -/
def eighth : EReal := ((1 / 8 : ℝ) : EReal)

end Cert.Attention

end
-- ==== Proof.Reference.Scale.lean ====
/-
  The scale of the scores. The reference computes it from two float literals, 1.0 / sqrt(64.0); over the extended
  reals the literals are the reals 1 and 64, the square root of 64 = 8² is 8, and the quotient 1 / 8 is the
  specification's one eighth. The scalar is then spread over the whole score array, so every element of that array is
  one eighth.
-/
import proofs.«123667_j5557687681798_2_alg».proof.Proof.Gen.ReferenceIdeal.Read
import proofs.«123667_j5557687681798_2_alg».proof.Proof.AttentionSpec

noncomputable section

open scoped BigOperators

namespace Cert.ReferenceIdeal.RefValue

open Cert.ReferenceIdeal Cert.ReferenceIdeal.Gen Cert.ReferenceIdeal.Read Idealize.ShloMosaic Idealize.ShloMosaic.ValueIdx

/-- The word of the literal 64.0 is the real 64. -/
theorem ofBits_sixtyfour : Ideal.ofBits .f32 0x42800000#32 = ((64 : ℝ) : EReal) := by
  simp [Ideal.ofBits, Ideal.ieee, -EReal.coe_mul]; norm_num

/-- The word of the literal 1.0 is the real 1. -/
theorem ofBits_one : Ideal.ofBits .f32 0x3F800000#32 = ((1 : ℝ) : EReal) := by
  simp [Ideal.ofBits, Ideal.ieee, -EReal.coe_mul]; norm_num

/-- The word 0xFF800000, the start of the row maximum, is −∞: the bottom element. -/
theorem ofBits_negInf : Ideal.ofBits .f32 0xFF800000#32 = ⊥ := by
  simp [Ideal.ofBits, Ideal.ieee]

/-- 64 = 8², so its square root is 8. -/
theorem sqrt_sixtyfour : Real.sqrt 64 = 8 := by
  rw [show (64 : ℝ) = 8 ^ 2 by norm_num]
  exact Real.sqrt_sq (by norm_num)

/-- The host's scalar 1.0 / sqrt(64.0) is one eighth. -/
theorem scalar_scale (i : S_.Idx) : val_main_v10 (F := Ideal) i = Cert.Attention.eighth := by
  rw [val_main_v10_apply, val_main_v9_apply, val_main_cst_apply, val_main_cst_0_apply]
  simp only [Ideal.hostDivf_def, Ideal.hostUnary_sqrt_def, Ideal.ofBits_def]
  rw [ofBits_sixtyfour, ofBits_one, Ideal.sqrt_coe, if_neg (by norm_num), sqrt_sixtyfour,
    Ideal.div_coe (by norm_num)]
  unfold Cert.Attention.eighth
  rw [← EReal.coe_mul, one_mul]

/-- The scale spread over the score array: every element is one eighth. -/
theorem scale_apply (i : S2x16x2048x2048.Idx) : val_main_v12 (F := Ideal) i = Cert.Attention.eighth := by
  rw [val_main_v12_apply]
  exact scalar_scale _

end Cert.ReferenceIdeal.RefValue

end
-- ==== Proof.Reference.Heads.lean ====
/-
  The three projections split into heads. Each of the reference's q, k and v is a linear layer x · Wᵀ on the 1024
  channels, reshaped [2, 2048, 1024] → [2, 2048, 16, 64] (channel h · 64 + d goes to head h, lane d: the row-major
  position is unchanged) and transposed to [2, 16, 2048, 64] (the two middle axes change places). So the element at
  (b, h, t, d) is the specification's projection at batch b, position t, channel h · 64 + d.
-/
import proofs.«123667_j5557687681798_2_alg».proof.Proof.Gen.ReferenceIdeal.Read
import proofs.«123667_j5557687681798_2_alg».proof.Proof.AttentionSpec

noncomputable section

open scoped BigOperators

namespace Cert.ReferenceIdeal.RefValue

open Cert.ReferenceIdeal Cert.ReferenceIdeal.Gen Cert.ReferenceIdeal.Read Idealize.ShloMosaic Idealize.ShloMosaic.ValueIdx

open Cert.Attention

/-- Undoing the transpose and the reshape: (b, h, t, d) of the head-major array is (b, t, h · 64 + d) of the layer's
    output. The three projections share these two index maps. -/
theorem split_index (b : Fin 2) (h : Fin 16) (t : Fin 2048) (d : Fin 64) :
    idx_main_v1 (idx_main_v2 (ix4 b h t d)) = ix3 b t (chan h d) := by
  funext a; apply Fin.ext
  have hb := b.isLt; have hh := h.isLt; have ht := t.isLt; have hd := d.isLt
  match a with
  | ⟨0, _⟩ => show (((b.val * 2048 + t.val) * 16 + h.val) * 64 + d.val) / 2097152 = b.val; omega
  | ⟨1, _⟩ => show (((b.val * 2048 + t.val) * 16 + h.val) * 64 + d.val) / 1024 % 2048 = t.val; omega
  | ⟨2, _⟩ => show (((b.val * 2048 + t.val) * 16 + h.val) * 64 + d.val) % 1024 = h.val * 64 + d.val; omega

/-- The layer's contraction reads x at (b, t, k) … -/
theorem layer_lhs (b : Fin 2) (t : Fin 2048) (n k : Fin 1024) : lidx_main_v0 (ix3 b t n) k = ix3 b t k :=
  funext fun a => Fin.ext (by match a with | ⟨0, _⟩ => rfl | ⟨1, _⟩ => rfl | ⟨2, _⟩ => rfl)
/-- … and the weight matrix at (n, k): the output channel first. -/
theorem layer_rhs (b : Fin 2) (t : Fin 2048) (n k : Fin 1024) : ridx_main_v0 (ix3 b t n) k = ix2 n k :=
  funext fun a => Fin.ext (by match a with | ⟨0, _⟩ => rfl | ⟨1, _⟩ => rfl)

/-- The key projection (by @main's second argument) at head h, position t, lane d. -/
theorem keys_apply (x0 : (⟨S2x2048x1024, .f32⟩ : BufTy).Contents (Elt Ideal)) (x1 : (⟨S1024x1024, .f32⟩ : BufTy).Contents (Elt Ideal))
    (b : Fin 2) (h : Fin 16) (t : Fin 2048) (d : Fin 64) :
    val_main_v2 (F := Ideal) x0 x1 (ix4 b h t d) = proj x0 x1 b t (chan h d) := by
  rw [val_main_v2_apply, val_main_v1_apply, split_index, val_main_v0_apply]
  unfold proj
  refine Finset.sum_congr rfl fun k _ => ?_
  rw [layer_lhs, layer_rhs]

/-- The query projection (by @main's third argument) at head h, position t, lane d. -/
theorem queries_apply (x0 : (⟨S2x2048x1024, .f32⟩ : BufTy).Contents (Elt Ideal)) (x2 : (⟨S1024x1024, .f32⟩ : BufTy).Contents (Elt Ideal))
    (b : Fin 2) (h : Fin 16) (t : Fin 2048) (d : Fin 64) :
    val_main_v5 (F := Ideal) x0 x2 (ix4 b h t d) = proj x0 x2 b t (chan h d) := by
  rw [val_main_v5_apply, val_main_v4_apply]
  rw [show idx_main_v4 (idx_main_v5 (ix4 b h t d)) = ix3 b t (chan h d) from split_index b h t d, val_main_v3_apply]
  unfold proj
  refine Finset.sum_congr rfl fun k _ => ?_
  rw [show lidx_main_v3 (ix3 b t (chan h d)) k = ix3 b t k from layer_lhs b t _ k,
    show ridx_main_v3 (ix3 b t (chan h d)) k = ix2 (chan h d) k from layer_rhs b t _ k]

/-- The value projection (by @main's fourth argument) at head h, position t, lane d. -/
theorem values_apply (x0 : (⟨S2x2048x1024, .f32⟩ : BufTy).Contents (Elt Ideal)) (x3 : (⟨S1024x1024, .f32⟩ : BufTy).Contents (Elt Ideal))
    (b : Fin 2) (h : Fin 16) (t : Fin 2048) (d : Fin 64) :
    val_main_v8 (F := Ideal) x0 x3 (ix4 b h t d) = proj x0 x3 b t (chan h d) := by
  rw [val_main_v8_apply, val_main_v7_apply]
  rw [show idx_main_v7 (idx_main_v8 (ix4 b h t d)) = ix3 b t (chan h d) from split_index b h t d, val_main_v6_apply]
  unfold proj
  refine Finset.sum_congr rfl fun k _ => ?_
  rw [show lidx_main_v6 (ix3 b t (chan h d)) k = ix3 b t k from layer_lhs b t _ k,
    show ridx_main_v6 (ix3 b t (chan h d)) k = ix2 (chan h d) k from layer_rhs b t _ k]

end Cert.ReferenceIdeal.RefValue

end
-- ==== Proof.Reference.Softmax.lean ====
/-
  The softmax of the scores, row by row. For a batch b and a head h the score of query position t against key
  position s is the inner product over the 64 lanes of the query and key projections, times one eighth. The reference
  takes each row's maximum as a reduction with a maximum body from −∞ over the key positions (and then once more the
  maximum with −∞, which changes nothing), subtracts it from the row, exponentiates, sums the row from the zero word,
  and divides. These are the specification's score, rowMax, expo and weight.
-/
import proofs.«123667_j5557687681798_2_alg».proof.Proof.Gen.ReferenceIdeal.Read
import proofs.«123667_j5557687681798_2_alg».proof.Proof.AttentionSpec
import proofs.«123667_j5557687681798_2_alg».proof.Proof.Reference.Scale
import proofs.«123667_j5557687681798_2_alg».proof.Proof.Reference.Heads

noncomputable section

open scoped BigOperators

namespace Cert.ReferenceIdeal.RefValue

open Cert.ReferenceIdeal Cert.ReferenceIdeal.Gen Cert.ReferenceIdeal.Read Idealize.ShloMosaic Idealize.ShloMosaic.ValueIdx

open Cert.Attention

/-! ## The scores -/

/-- The score contraction reads the queries at (b, h, t, k) … -/
theorem score_lhs (b : Fin 2) (h : Fin 16) (t s : Fin 2048) (k : Fin 64) : lidx_main_v11 (ix4 b h t s) k = ix4 b h t k :=
  funext fun a => Fin.ext (by match a with | ⟨0, _⟩ => rfl | ⟨1, _⟩ => rfl | ⟨2, _⟩ => rfl | ⟨3, _⟩ => rfl)
/-- … and the keys at (b, h, s, k). -/
theorem score_rhs (b : Fin 2) (h : Fin 16) (t s : Fin 2048) (k : Fin 64) : ridx_main_v11 (ix4 b h t s) k = ix4 b h s k :=
  funext fun a => Fin.ext (by match a with | ⟨0, _⟩ => rfl | ⟨1, _⟩ => rfl | ⟨2, _⟩ => rfl | ⟨3, _⟩ => rfl)

/-- The scaled score of query position t against key position s. -/
theorem score_apply (x0 : (⟨S2x2048x1024, .f32⟩ : BufTy).Contents (Elt Ideal)) (x1 x2 : (⟨S1024x1024, .f32⟩ : BufTy).Contents (Elt Ideal))
    (b : Fin 2) (h : Fin 16) (t s : Fin 2048) :
    val_main_v13 (F := Ideal) x0 x1 x2 (ix4 b h t s) = score eighth x0 x1 x2 b h t s := by
  rw [val_main_v13_apply, val_main_v11_apply, scale_apply]
  simp only [Ideal.mulf_def]
  unfold score
  refine congrArg (· * eighth) (Finset.sum_congr rfl fun k _ => ?_)
  rw [score_lhs, score_rhs, queries_apply, keys_apply]

/-! ## The row maximum -/

/-- The score array [2, 16, 2048, 2048] loses its last axis. -/
theorem reduces_keys : S2x16x2048x2048.Reduces [3] S2x16x2048 := by decide

/-- The row (b, h, t) with key position k put back is (b, h, t, k). -/
theorem lift_keys (b : Fin 2) (h : Fin 16) (t : Fin 2048) (k : Fin (S2x16x2048x2048.size 3)) :
    reduces_keys.lift (ix3 b h t) k = ix4 b h t (⟨k.val, k.isLt⟩ : Fin 2048) := by
  funext c; apply Fin.ext
  fin_cases c <;> rfl

/-- The row's maximum: the fold of max from the bottom element over the key positions. -/
theorem rowMax_apply (x0 : (⟨S2x2048x1024, .f32⟩ : BufTy).Contents (Elt Ideal)) (x1 x2 : (⟨S1024x1024, .f32⟩ : BufTy).Contents (Elt Ideal))
    (b : Fin 2) (h : Fin 16) (t : Fin 2048) :
    val_main_v16 (F := Ideal) x0 x1 x2 (ix3 b h t) = rowMax eighth x0 x1 x2 b h t := by
  rw [val_main_v16_apply, val_main_v15_apply, val_main_cst_2_apply]
  simp only [Ideal.maximumf_def, Ideal.ofBits_def]
  rw [ofBits_negInf, max_eq_right bot_le]
  unfold val_main_v14
  rw [Host.reduce_eq_fold_single FloatOps.maximumf _ _ reducesTo_S2x16x2048x2048_S2x16x2048_d3 reduces_keys h_S_]
  rw [val_main_cst_1_apply]
  simp only [Ideal.ofBits_def]
  rw [ofBits_negInf]
  unfold rowMax
  have hf : (val_main_v13 (F := Ideal) x0 x1 x2 ∘ reduces_keys.lift (ix3 b h t))
      = fun s : Fin 2048 => score eighth x0 x1 x2 b h t s := funext fun k => by
    show val_main_v13 (F := Ideal) x0 x1 x2 (reduces_keys.lift (ix3 b h t) k) = _
    rw [lift_keys, score_apply]
    rfl
  exact congrArg (fun f => Finset.fold max (⊥ : EReal) f (Finset.univ : Finset (Fin 2048))) hf

/-! ## The exponentials and the weights -/

/-- The row's maximum (and later its sum) spread back over the key positions: (b, h, t, s) reads row (b, h, t). -/
theorem row_of (b : Fin 2) (h : Fin 16) (t s : Fin 2048) : idx_main_v17 (idx_main_v18 (ix4 b h t s)) = ix3 b h t :=
  funext fun a => Fin.ext (by match a with | ⟨0, _⟩ => rfl | ⟨1, _⟩ => rfl | ⟨2, _⟩ => rfl)

/-- A score's exponential after the row's maximum is taken off. -/
theorem expo_apply (x0 : (⟨S2x2048x1024, .f32⟩ : BufTy).Contents (Elt Ideal)) (x1 x2 : (⟨S1024x1024, .f32⟩ : BufTy).Contents (Elt Ideal))
    (b : Fin 2) (h : Fin 16) (t s : Fin 2048) :
    val_main_v20 (F := Ideal) x0 x1 x2 (ix4 b h t s) = expo eighth x0 x1 x2 b h t s := by
  rw [val_main_v20_apply, val_main_v19_apply, val_main_v18_apply, val_main_v17_apply, row_of, score_apply, rowMax_apply]
  simp only [Ideal.hostUnary_exp_def, Ideal.subf_def]
  rfl

/-- The sum's k-th term of row (b, h, t) is the array at (b, h, t, k). -/
theorem sum_index (b : Fin 2) (h : Fin 16) (t k : Fin 2048) : idx_main_v21 (ix3 b h t) k = ix4 b h t k :=
  funext fun a => Fin.ext (by match a with | ⟨0, _⟩ => rfl | ⟨1, _⟩ => rfl | ⟨2, _⟩ => rfl | ⟨3, _⟩ => rfl)

/-- The row's sum of exponentials: the sum starts from the zero word, which is 0. -/
theorem rowSum_apply (x0 : (⟨S2x2048x1024, .f32⟩ : BufTy).Contents (Elt Ideal)) (x1 x2 : (⟨S1024x1024, .f32⟩ : BufTy).Contents (Elt Ideal))
    (b : Fin 2) (h : Fin 16) (t : Fin 2048) :
    val_main_v21 (F := Ideal) x0 x1 x2 (ix3 b h t) = ∑ s : Fin 2048, expo eighth x0 x1 x2 b h t s := by
  rw [val_main_v21_apply, val_main_cst_3_apply]
  simp only [Ideal.ofBits_def]
  rw [Ideal.ofBits_zero_f32, zero_add]
  refine Finset.sum_congr rfl fun k _ => ?_
  rw [sum_index, expo_apply]

/-- The attention weight: the exponential over the row's sum. -/
theorem weight_apply (x0 : (⟨S2x2048x1024, .f32⟩ : BufTy).Contents (Elt Ideal)) (x1 x2 : (⟨S1024x1024, .f32⟩ : BufTy).Contents (Elt Ideal))
    (b : Fin 2) (h : Fin 16) (t s : Fin 2048) :
    val_main_v24 (F := Ideal) x0 x1 x2 (ix4 b h t s) = weight eighth x0 x1 x2 b h t s := by
  rw [val_main_v24_apply, val_main_v23_apply, val_main_v22_apply,
    show idx_main_v22 (idx_main_v23 (ix4 b h t s)) = ix3 b h t from row_of b h t s, expo_apply, rowSum_apply]
  simp only [Ideal.hostDivf_def]
  rfl

end Cert.ReferenceIdeal.RefValue

end
-- ==== Proof.Reference.Result.lean ====
/-
  From the weights to the layer's result. The context of head h at position t, lane d, is the weighted sum over the
  key positions of the value projection's lane d. The reference transposes the contexts [2, 16, 2048, 64] back to
  [2, 2048, 16, 64] and reshapes them to [2, 2048, 1024], which lays the heads side by side along the channel axis:
  channel n holds lane n mod 64 of head n div 64. The output layer x · Wpᵀ and the bias, spread over batch and
  position, finish it. So the reference's result is the specification's array, index by index.
-/
import proofs.«123667_j5557687681798_2_alg».proof.Proof.Gen.ReferenceIdeal.Read
import proofs.«123667_j5557687681798_2_alg».proof.Proof.AttentionSpec
import proofs.«123667_j5557687681798_2_alg».proof.Proof.Reference.Softmax

noncomputable section

open scoped BigOperators

namespace Cert.ReferenceIdeal.RefValue

open Cert.ReferenceIdeal Cert.ReferenceIdeal.Gen Cert.ReferenceIdeal.Read Idealize.ShloMosaic Idealize.ShloMosaic.ValueIdx

open Cert.Attention

/-! ## The contexts -/

/-- The context contraction reads the weights at (b, h, t, k) … -/
theorem context_lhs (b : Fin 2) (h : Fin 16) (t : Fin 2048) (d : Fin 64) (k : Fin 2048) :
    lidx_main_v25 (ix4 b h t d) k = ix4 b h t k :=
  funext fun a => Fin.ext (by match a with | ⟨0, _⟩ => rfl | ⟨1, _⟩ => rfl | ⟨2, _⟩ => rfl | ⟨3, _⟩ => rfl)
/-- … and the values at (b, h, k, d). -/
theorem context_rhs (b : Fin 2) (h : Fin 16) (t : Fin 2048) (d : Fin 64) (k : Fin 2048) :
    ridx_main_v25 (ix4 b h t d) k = ix4 b h k d :=
  funext fun a => Fin.ext (by match a with | ⟨0, _⟩ => rfl | ⟨1, _⟩ => rfl | ⟨2, _⟩ => rfl | ⟨3, _⟩ => rfl)

/-- The context of head h at position t, lane d. -/
theorem context_apply (x0 : (⟨S2x2048x1024, .f32⟩ : BufTy).Contents (Elt Ideal)) (x1 x2 x3 : (⟨S1024x1024, .f32⟩ : BufTy).Contents (Elt Ideal))
    (b : Fin 2) (h : Fin 16) (t : Fin 2048) (d : Fin 64) :
    val_main_v25 (F := Ideal) x0 x1 x2 x3 (ix4 b h t d) = context eighth x0 x1 x2 x3 b h t d := by
  rw [val_main_v25_apply]
  unfold context
  refine Finset.sum_congr rfl fun k _ => ?_
  rw [context_lhs, context_rhs, weight_apply, values_apply]

/-! ## The heads side by side -/

/-- Undoing the reshape and the transpose: channel n of position t is lane n mod 64 of head n div 64 at position t. -/
theorem merge_index (b : Fin 2) (t : Fin 2048) (n : Fin 1024) :
    idx_main_v26 (idx_main_v27 (ix3 b t n)) = ix4 b (headOf n) t (laneOf n) := by
  funext a; apply Fin.ext
  have hb := b.isLt; have ht := t.isLt; have hn := n.isLt
  match a with
  | ⟨0, _⟩ => show ((b.val * 2048 + t.val) * 1024 + n.val) / 2097152 = b.val; omega
  | ⟨1, _⟩ => show ((b.val * 2048 + t.val) * 1024 + n.val) / 64 % 16 = n.val / 64; omega
  | ⟨2, _⟩ => show ((b.val * 2048 + t.val) * 1024 + n.val) / 1024 % 2048 = t.val; omega
  | ⟨3, _⟩ => show ((b.val * 2048 + t.val) * 1024 + n.val) % 64 = n.val % 64; omega

/-- The merged contexts at batch b, position t, channel n. -/
theorem merged_apply (x0 : (⟨S2x2048x1024, .f32⟩ : BufTy).Contents (Elt Ideal)) (x1 x2 x3 : (⟨S1024x1024, .f32⟩ : BufTy).Contents (Elt Ideal))
    (b : Fin 2) (t : Fin 2048) (n : Fin 1024) :
    val_main_v27 (F := Ideal) x0 x1 x2 x3 (ix3 b t n) = merged eighth x0 x1 x2 x3 b t n := by
  rw [val_main_v27_apply, val_main_v26_apply, merge_index, context_apply]
  rfl

/-! ## The output layer and the bias -/

/-- The output layer's contraction reads the merged contexts at (b, t, k) … -/
theorem out_lhs (b : Fin 2) (t : Fin 2048) (n k : Fin 1024) : lidx_main_v28 (ix3 b t n) k = ix3 b t k :=
  funext fun a => Fin.ext (by match a with | ⟨0, _⟩ => rfl | ⟨1, _⟩ => rfl | ⟨2, _⟩ => rfl)
/-- … and the weight matrix at (n, k). -/
theorem out_rhs (b : Fin 2) (t : Fin 2048) (n k : Fin 1024) : ridx_main_v28 (ix3 b t n) k = ix2 n k :=
  funext fun a => Fin.ext (by match a with | ⟨0, _⟩ => rfl | ⟨1, _⟩ => rfl)
/-- The bias spread over batch and position: (b, t, n) reads entry n. -/
theorem bias_index (b : Fin 2) (t : Fin 2048) (n : Fin 1024) : idx_main_v29 (idx_main_v30 (ix3 b t n)) = ix1 n :=
  funext fun a => Fin.ext (by match a with | ⟨0, _⟩ => rfl)

/-- The reference's result at (b, t, n). -/
theorem result_apply (x0 : (⟨S2x2048x1024, .f32⟩ : BufTy).Contents (Elt Ideal)) (x1 x2 x3 x4 : (⟨S1024x1024, .f32⟩ : BufTy).Contents (Elt Ideal))
    (x5 : (⟨S1024, .f32⟩ : BufTy).Contents (Elt Ideal)) (b : Fin 2) (t : Fin 2048) (n : Fin 1024) :
    val_main_v31 (F := Ideal) x0 x1 x2 x3 x4 x5 (ix3 b t n) = result eighth x0 x1 x2 x3 x4 x5 b t n := by
  rw [val_main_v31_apply, val_main_v28_apply, val_main_v30_apply, val_main_v29_apply, bias_index]
  simp only [Ideal.addf_def]
  unfold result
  refine congrArg (· + x5 (ix1 n)) (Finset.sum_congr rfl fun k _ => ?_)
  rw [out_lhs, out_rhs, merged_apply]

/-- THE REFERENCE IS THE SPECIFICATION: the value the reference's last operation writes, as a function of @main's six
    arguments, is the specification's array at the scale one eighth. -/
theorem reference_eq (x0 : (⟨S2x2048x1024, .f32⟩ : BufTy).Contents (Elt Ideal)) (x1 x2 x3 x4 : (⟨S1024x1024, .f32⟩ : BufTy).Contents (Elt Ideal))
    (x5 : (⟨S1024, .f32⟩ : BufTy).Contents (Elt Ideal)) :
    val_main_v31 (F := Ideal) x0 x1 x2 x3 x4 x5 = resultArr eighth x0 x1 x2 x3 x4 x5 := by
  funext i
  obtain ⟨b, t, n, rfl⟩ : ∃ (b : Fin 2) (t : Fin 2048) (n : Fin 1024), i = ix3 b t n := ⟨i 0, i 1, i 2, eq_ix3 i⟩
  exact result_apply x0 x1 x2 x3 x4 x5 b t n

end Cert.ReferenceIdeal.RefValue

end
-- ==== Proof.Value.HostStretches.lean ====
/-
  The four stretches of host operations of @main, each read at an index, over ANY contents `W` of the buffers before
  the stretch. They only move data: the activations [2, 2048, 1024] are read as [4096, 1024] rows (row b · 2048 + t);
  the three square weight matrices are transposed and laid side by side along the columns, query, key, value in that
  order; the [4096, 3072] projection is cut into its three column bands, each read as [2, 2048, 16, 64] (channel
  h · 64 + d is lane d of head h) with the head axis moved before the position axis; the attention result is read as
  rows again, the output matrix is transposed, and the final [4096, 1024] result is read as [2, 2048, 1024]. A change
  of float format is the identity on the extended reals.
-/
import proofs.«123667_j5557687681798_2_alg».proof.Proof.Ideal.MainRun
import Idealize.ShloMosaic.Lib.Pipeline.Value
import Idealize.ShloMosaic.Lib.ValueIdx
import Idealize.ShloMosaic.Lib.ValueLayout

set_option maxRecDepth 16384

noncomputable section

open scoped BigOperators

namespace Cert.KernelIdeal.KVal

open Cert.KernelIdeal Cert.KernelIdeal.Gen Cert.KernelIdeal.Hand
open Idealize.ShloMosaic Idealize.ShloMosaic.TcCoe Idealize.ShloMosaic.ValueIdx Idealize.ShloMosaic.StableHlo Idealize.SL.Sem

/-! ## The layout operations at an index, over any array -/

section Layout

/-- [2, 2048, 1024] read as [4096, 1024]: row p is (p / 2048, p % 2048). -/
theorem rows_of_batches (x : S2x2048x1024.Idx → EReal) (p : Fin 4096) (k : Fin 1024) :
    shapeCast S4096x1024 x shapeCasts_S2x2048x1024_S4096x1024 (ix2 p k)
      = x (ix3 ⟨p.val / 2048, by have := p.isLt; omega⟩ ⟨p.val % 2048, Nat.mod_lt _ (by decide)⟩ k) :=
  shapeCast_apply (s := S2x2048x1024) (t := S4096x1024) x _ _ _ (by
    rewrite [Shape.rowMajor_val_three, Shape.rowMajor_val_two]
    show (p.val / 2048 * 2048 + p.val % 2048) * 1024 + k.val = p.val * 1024 + k.val
    omega)

/-- The same at a row given by its batch and position. -/
theorem rows_of_batches_at (x : S2x2048x1024.Idx → EReal) (b : Fin 2) (t : Fin 2048) (k : Fin 1024) :
    shapeCast S4096x1024 x shapeCasts_S2x2048x1024_S4096x1024
        (ix2 ⟨b.val * 2048 + t.val, by have := b.isLt; have := t.isLt; omega⟩ k) = x (ix3 b t k) :=
  shapeCast_apply (s := S2x2048x1024) (t := S4096x1024) x _ _ _ (by
    rewrite [Shape.rowMajor_val_three, Shape.rowMajor_val_two]
    rfl)

/-- [4096, 1024] read as [2, 2048, 1024]: (b, t) is row b · 2048 + t. -/
theorem batches_of_rows (x : S4096x1024.Idx → EReal) (b : Fin 2) (t : Fin 2048) (n : Fin 1024) :
    shapeCast S2x2048x1024 x shapeCasts_S4096x1024_S2x2048x1024 (ix3 b t n)
      = x (ix2 ⟨b.val * 2048 + t.val, by have := b.isLt; have := t.isLt; omega⟩ n) :=
  shapeCast_apply (s := S4096x1024) (t := S2x2048x1024) x _ _ _ (by
    rewrite [Shape.rowMajor_val_two, Shape.rowMajor_val_three]
    rfl)

/-- [4096, 1024] read as [2, 2048, 16, 64]: (b, t, h, d) is row b · 2048 + t, column h · 64 + d. -/
theorem heads_of_rows (x : S4096x1024.Idx → EReal) (b : Fin 2) (t : Fin 2048) (h : Fin 16) (d : Fin 64) :
    shapeCast S2x2048x16x64 x shapeCasts_S4096x1024_S2x2048x16x64 (ix4 b t h d)
      = x (ix2 ⟨b.val * 2048 + t.val, by have := b.isLt; have := t.isLt; omega⟩
            ⟨h.val * 64 + d.val, by have := h.isLt; have := d.isLt; omega⟩) :=
  shapeCast_apply (s := S4096x1024) (t := S2x2048x16x64) x _ _ _ (by
    rewrite [Shape.rowMajor_val_two, Shape.rowMajor_val_four]
    show (b.val * 2048 + t.val) * 1024 + (h.val * 64 + d.val) = ((b.val * 2048 + t.val) * 16 + h.val) * 64 + d.val
    omega)

/-- The head axis moved before the position axis. -/
theorem heads_first (x : S2x2048x16x64.Idx → EReal) (b : Fin 2) (h : Fin 16) (t : Fin 2048) (d : Fin 64) :
    transpose S2x16x2048x64 [0, 2, 1, 3] x transposes_S2x2048x16x64_S2x16x2048x64_0_2_1_3 (ix4 b h t d) = x (ix4 b t h d) :=
  transpose_apply (s := S2x2048x16x64) (t := S2x16x2048x64) [0, 2, 1, 3] x _ _ _ fun a => match a with
    | ⟨0, _⟩ => rfl
    | ⟨1, _⟩ => rfl
    | ⟨2, _⟩ => rfl
    | ⟨3, _⟩ => rfl

/-- A square matrix transposed. -/
theorem square_transposed (x : S1024x1024.Idx → EReal) (i j : Fin 1024) :
    transpose S1024x1024 [1, 0] x transposes_S1024x1024_S1024x1024_1_0 (ix2 i j) = x (ix2 j i) :=
  transpose_ix2_apply x _ i j

/-- A 1024-column band of the [4096, 3072] projection, from column `o`. -/
theorem band_apply (o : Nat) (x : S4096x3072.Idx → EReal) (hs : S4096x3072.Slices ![0, o] S4096x1024)
    (p : Fin 4096) (j : Fin 1024) (k : Fin 3072) (hk : k.val = o + j.val) :
    extractStridedSlice S4096x1024 ![0, o] x hs (ix2 p j) = x (ix2 p k) :=
  slice2_axis1_apply o x hs p j k hk

/-- One band as per-head arrays: slice, split the channels into heads and lanes, heads first. -/
theorem band_heads (o : Nat) (x : S4096x3072.Idx → EReal) (hs : S4096x3072.Slices ![0, o] S4096x1024)
    (b : Fin 2) (h : Fin 16) (t : Fin 2048) (d : Fin 64) (k : Fin 3072) (hk : k.val = o + (h.val * 64 + d.val)) :
    transpose S2x16x2048x64 [0, 2, 1, 3]
        (shapeCast S2x2048x16x64 (extractStridedSlice S4096x1024 ![0, o] x hs) shapeCasts_S4096x1024_S2x2048x16x64)
        transposes_S2x2048x16x64_S2x16x2048x64_0_2_1_3 (ix4 b h t d)
      = x (ix2 ⟨b.val * 2048 + t.val, by have := b.isLt; have := t.isLt; omega⟩ k) := by
  rw [heads_first, heads_of_rows]
  exact band_apply o x hs _ _ k hk

/-- Three square matrices side by side along the columns: column n of the whole is column n of the first, -/
theorem side_first (x0 x1 x2 : S1024x1024.Idx → EReal) (r n : Fin 1024) (k : Fin 3072) (hk : 0 + n.val = k.val) :
    concatenate S1024x3072 1 [⟨S1024x1024, x0⟩, ⟨S1024x1024, x1⟩, ⟨S1024x1024, x2⟩]
        concatenates_S1024x1024_S1024x1024_S1024x1024_S1024x3072_d1 (ix2 r k) = x0 (ix2 r n) :=
  concatenate_apply_piece (t := S1024x3072) 1 [⟨S1024x1024, x0⟩, ⟨S1024x1024, x1⟩, ⟨S1024x1024, x2⟩]
    concatenates_S1024x1024_S1024x1024_S1024x1024_S1024x3072_d1 (ix2 r k) 0 (by show (0 : Nat) < 3; omega) S1024x1024 x0 rfl rfl 0
    (by rfl) (ix2 r n)
    (fun b hb => match b, hb with
      | ⟨0, _⟩, _ => rfl
      | ⟨1, _⟩, hb => absurd rfl hb)
    hk

/-- column 1024 + n is column n of the second, -/
theorem side_second (x0 x1 x2 : S1024x1024.Idx → EReal) (r n : Fin 1024) (k : Fin 3072) (hk : 1024 + n.val = k.val) :
    concatenate S1024x3072 1 [⟨S1024x1024, x0⟩, ⟨S1024x1024, x1⟩, ⟨S1024x1024, x2⟩]
        concatenates_S1024x1024_S1024x1024_S1024x1024_S1024x3072_d1 (ix2 r k) = x1 (ix2 r n) :=
  concatenate_apply_piece (t := S1024x3072) 1 [⟨S1024x1024, x0⟩, ⟨S1024x1024, x1⟩, ⟨S1024x1024, x2⟩]
    concatenates_S1024x1024_S1024x1024_S1024x1024_S1024x3072_d1 (ix2 r k) 1 (by show (1 : Nat) < 3; omega) S1024x1024 x1 rfl rfl 1024
    (by rfl) (ix2 r n)
    (fun b hb => match b, hb with
      | ⟨0, _⟩, _ => rfl
      | ⟨1, _⟩, hb => absurd rfl hb)
    hk

/-- and column 2048 + n is column n of the third. -/
theorem side_third (x0 x1 x2 : S1024x1024.Idx → EReal) (r n : Fin 1024) (k : Fin 3072) (hk : 2048 + n.val = k.val) :
    concatenate S1024x3072 1 [⟨S1024x1024, x0⟩, ⟨S1024x1024, x1⟩, ⟨S1024x1024, x2⟩]
        concatenates_S1024x1024_S1024x1024_S1024x1024_S1024x3072_d1 (ix2 r k) = x2 (ix2 r n) :=
  concatenate_apply_piece (t := S1024x3072) 1 [⟨S1024x1024, x0⟩, ⟨S1024x1024, x1⟩, ⟨S1024x1024, x2⟩]
    concatenates_S1024x1024_S1024x1024_S1024x1024_S1024x3072_d1 (ix2 r k) 2 (by show (2 : Nat) < 3; omega) S1024x1024 x2 rfl rfl 2048
    (by rfl) (ix2 r n)
    (fun b hb => match b, hb with
      | ⟨0, _⟩, _ => rfl
      | ⟨1, _⟩, hb => absurd rfl hb)
    hk

end Layout

/-! ## The four stretches, over any contents `W` before them -/

variable (W : Valuation τ sig (Elt Ideal))

/-- A three-operand operation's result, with each operand's contents at its own buffer. -/
theorem nary3_result {x a b y : Ref sig .tc}
    (f : ((k : Fin 3) → ((![x, a, b] : Fin 3 → Ref sig .tc) k).ty.Contents (Elt Ideal)) → y.ty.Contents (Elt Ideal)) (hxs hy)
    (G : Valuation τ sig (Elt Ideal)) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-! ### Stretch 0: the activations as rows, the fused weights -/

theorem stretch0_rows (p : Fin 4096) (k : Fin 1024) :
    (after hostOps0 W (main_v0 : DevRef τ sig) : S4096x1024.Idx → EReal) (ix2 p k)
      = (W (main_arg0 : DevRef τ sig) : S2x2048x1024.Idx → EReal)
          (ix3 ⟨p.val / 2048, by have := p.isLt; omega⟩ ⟨p.val % 2048, Nat.mod_lt _ (by decide)⟩ k) := by
  have e : (after hostOps0 W (main_v0 : DevRef τ sig) : S4096x1024.Idx → EReal)
      = shapeCast S4096x1024 (W (main_arg0 : DevRef τ sig) : S2x2048x1024.Idx → EReal) shapeCasts_S2x2048x1024_S4096x1024 := by
    after_results; rfl
  rw [e]
  exact rows_of_batches _ p k

theorem stretch0_rows_at (b : Fin 2) (t : Fin 2048) (k : Fin 1024) :
    (after hostOps0 W (main_v0 : DevRef τ sig) : S4096x1024.Idx → EReal)
        (ix2 ⟨b.val * 2048 + t.val, by have := b.isLt; have := t.isLt; omega⟩ k)
      = (W (main_arg0 : DevRef τ sig) : S2x2048x1024.Idx → EReal) (ix3 b t k) := by
  have e : (after hostOps0 W (main_v0 : DevRef τ sig) : S4096x1024.Idx → EReal)
      = shapeCast S4096x1024 (W (main_arg0 : DevRef τ sig) : S2x2048x1024.Idx → EReal) shapeCasts_S2x2048x1024_S4096x1024 := by
    after_results; rfl
  rw [e]
  exact rows_of_batches_at _ b t k

/-- The fused weights as one term: the three transposes side by side, the format change on top. -/
theorem stretch0_fused :
    (after hostOps0 W (main_v5 : DevRef τ sig) : S1024x3072.Idx → EReal)
      = (truncf (F := Ideal) .bf16 (concatenate S1024x3072 1
          [⟨S1024x1024, transpose S1024x1024 [1, 0] (W (main_arg2 : DevRef τ sig) : S1024x1024.Idx → EReal) transposes_S1024x1024_S1024x1024_1_0⟩,
           ⟨S1024x1024, transpose S1024x1024 [1, 0] (W (main_arg1 : DevRef τ sig) : S1024x1024.Idx → EReal) transposes_S1024x1024_S1024x1024_1_0⟩,
           ⟨S1024x1024, transpose S1024x1024 [1, 0] (W (main_arg3 : DevRef τ sig) : S1024x1024.Idx → EReal) transposes_S1024x1024_S1024x1024_1_0⟩]
          concatenates_S1024x1024_S1024x1024_S1024x1024_S1024x3072_d1 : FVec Ideal S1024x3072 .f32) bitsLt_bf16_f32 : S1024x3072.Idx → EReal) := by
  simp only [after_cons, after_nil]
  rw [unary_result, nary3_result]
  repeat (first
    | rw [unary_result] | rw [reshape_result]
    | (rw [unary_result_ne]; rotate_left; decide)
    | (rw [reshape_result_ne]; rotate_left; decide)
    | (rw [nary_result_ne]; rotate_left; decide))
  rfl

/-- Column n of the query band is row n of the query matrix, -/
theorem stretch0_query (k n : Fin 1024) :
    (after hostOps0 W (main_v5 : DevRef τ sig) : S1024x3072.Idx → EReal) (ix2 k ⟨n.val, by have := n.isLt; omega⟩)
      = (W (main_arg2 : DevRef τ sig) : S1024x1024.Idx → EReal) (ix2 n k) := by
  rw [stretch0_fused]
  refine (side_first _ _ _ k n _ (by show 0 + n.val = n.val; omega)).trans ?_
  exact square_transposed _ k n

/-- column 1024 + n of the whole is row n of the key matrix, -/
theorem stretch0_key (k n : Fin 1024) :
    (after hostOps0 W (main_v5 : DevRef τ sig) : S1024x3072.Idx → EReal) (ix2 k ⟨1024 + n.val, by have := n.isLt; omega⟩)
      = (W (main_arg1 : DevRef τ sig) : S1024x1024.Idx → EReal) (ix2 n k) := by
  rw [stretch0_fused]
  refine (side_second _ _ _ k n _ rfl).trans ?_
  exact square_transposed _ k n

/-- and column 2048 + n is row n of the value matrix. -/
theorem stretch0_value (k n : Fin 1024) :
    (after hostOps0 W (main_v5 : DevRef τ sig) : S1024x3072.Idx → EReal) (ix2 k ⟨2048 + n.val, by have := n.isLt; omega⟩)
      = (W (main_arg3 : DevRef τ sig) : S1024x1024.Idx → EReal) (ix2 n k) := by
  rw [stretch0_fused]
  refine (side_third _ _ _ k n _ rfl).trans ?_
  exact square_transposed _ k n

/-! ### Stretch 1: the projection's three bands as per-head arrays -/

theorem stretch1_query (b : Fin 2) (h : Fin 16) (t : Fin 2048) (d : Fin 64) :
    (after hostOps1 W (main_v11 : DevRef τ sig) : S2x16x2048x64.Idx → EReal) (ix4 b h t d)
      = (W (main_v6 : DevRef τ sig) : S4096x3072.Idx → EReal)
          (ix2 ⟨b.val * 2048 + t.val, by have := b.isLt; have := t.isLt; omega⟩
            ⟨h.val * 64 + d.val, by have := h.isLt; have := d.isLt; omega⟩) := by
  have e : (after hostOps1 W (main_v11 : DevRef τ sig) : S2x16x2048x64.Idx → EReal)
      = transpose S2x16x2048x64 [0, 2, 1, 3]
          (shapeCast S2x2048x16x64 (extractStridedSlice S4096x1024 ![0, 0] (W (main_v6 : DevRef τ sig) : S4096x3072.Idx → EReal)
            slices_S4096x3072_S4096x1024_0_0) shapeCasts_S4096x1024_S2x2048x16x64)
          transposes_S2x2048x16x64_S2x16x2048x64_0_2_1_3 := by
    after_results; rfl
  rw [e]
  exact band_heads 0 _ _ b h t d _ (by show h.val * 64 + d.val = 0 + (h.val * 64 + d.val); omega)

theorem stretch1_key (b : Fin 2) (h : Fin 16) (t : Fin 2048) (d : Fin 64) :
    (after hostOps1 W (main_v13 : DevRef τ sig) : S2x16x2048x64.Idx → EReal) (ix4 b h t d)
      = (W (main_v6 : DevRef τ sig) : S4096x3072.Idx → EReal)
          (ix2 ⟨b.val * 2048 + t.val, by have := b.isLt; have := t.isLt; omega⟩
            ⟨1024 + (h.val * 64 + d.val), by have := h.isLt; have := d.isLt; omega⟩) := by
  have e : (after hostOps1 W (main_v13 : DevRef τ sig) : S2x16x2048x64.Idx → EReal)
      = transpose S2x16x2048x64 [0, 2, 1, 3]
          (shapeCast S2x2048x16x64 (extractStridedSlice S4096x1024 ![0, 1024] (W (main_v6 : DevRef τ sig) : S4096x3072.Idx → EReal)
            slices_S4096x3072_S4096x1024_0_1024) shapeCasts_S4096x1024_S2x2048x16x64)
          transposes_S2x2048x16x64_S2x16x2048x64_0_2_1_3 := by
    after_results; rfl
  rw [e]
  exact band_heads 1024 _ _ b h t d _ rfl

theorem stretch1_value (b : Fin 2) (h : Fin 16) (t : Fin 2048) (d : Fin 64) :
    (after hostOps1 W (main_v15 : DevRef τ sig) : S2x16x2048x64.Idx → EReal) (ix4 b h t d)
      = (W (main_v6 : DevRef τ sig) : S4096x3072.Idx → EReal)
          (ix2 ⟨b.val * 2048 + t.val, by have := b.isLt; have := t.isLt; omega⟩
            ⟨2048 + (h.val * 64 + d.val), by have := h.isLt; have := d.isLt; omega⟩) := by
  have e : (after hostOps1 W (main_v15 : DevRef τ sig) : S2x16x2048x64.Idx → EReal)
      = transpose S2x16x2048x64 [0, 2, 1, 3]
          (shapeCast S2x2048x16x64 (extractStridedSlice S4096x1024 ![0, 2048] (W (main_v6 : DevRef τ sig) : S4096x3072.Idx → EReal)
            slices_S4096x3072_S4096x1024_0_2048) shapeCasts_S4096x1024_S2x2048x16x64)
          transposes_S2x2048x16x64_S2x16x2048x64_0_2_1_3 := by
    after_results; rfl
  rw [e]
  exact band_heads 2048 _ _ b h t d _ rfl

/-! ### Stretch 2: the attention result as rows, the output matrix transposed, the bias untouched -/

theorem stretch2_rows (p : Fin 4096) (k : Fin 1024) :
    (after hostOps2 W (main_v17 : DevRef τ sig) : S4096x1024.Idx → EReal) (ix2 p k)
      = (W (main_v16 : DevRef τ sig) : S2x2048x1024.Idx → EReal)
          (ix3 ⟨p.val / 2048, by have := p.isLt; omega⟩ ⟨p.val % 2048, Nat.mod_lt _ (by decide)⟩ k) := by
  have e : (after hostOps2 W (main_v17 : DevRef τ sig) : S4096x1024.Idx → EReal)
      = shapeCast S4096x1024 (W (main_v16 : DevRef τ sig) : S2x2048x1024.Idx → EReal) shapeCasts_S2x2048x1024_S4096x1024 := by
    after_results; rfl
  rw [e]
  exact rows_of_batches _ p k

theorem stretch2_rows_at (b : Fin 2) (t : Fin 2048) (k : Fin 1024) :
    (after hostOps2 W (main_v17 : DevRef τ sig) : S4096x1024.Idx → EReal)
        (ix2 ⟨b.val * 2048 + t.val, by have := b.isLt; have := t.isLt; omega⟩ k)
      = (W (main_v16 : DevRef τ sig) : S2x2048x1024.Idx → EReal) (ix3 b t k) := by
  have e : (after hostOps2 W (main_v17 : DevRef τ sig) : S4096x1024.Idx → EReal)
      = shapeCast S4096x1024 (W (main_v16 : DevRef τ sig) : S2x2048x1024.Idx → EReal) shapeCasts_S2x2048x1024_S4096x1024 := by
    after_results; rfl
  rw [e]
  exact rows_of_batches_at _ b t k

theorem stretch2_matrix (k n : Fin 1024) :
    (after hostOps2 W (main_v19 : DevRef τ sig) : S1024x1024.Idx → EReal) (ix2 k n)
      = (W (main_arg4 : DevRef τ sig) : S1024x1024.Idx → EReal) (ix2 n k) := by
  have e : (after hostOps2 W (main_v19 : DevRef τ sig) : S1024x1024.Idx → EReal)
      = (truncf (F := Ideal) .bf16 (transpose S1024x1024 [1, 0] (W (main_arg4 : DevRef τ sig) : S1024x1024.Idx → EReal)
          transposes_S1024x1024_S1024x1024_1_0 : FVec Ideal S1024x1024 .f32) bitsLt_bf16_f32 : S1024x1024.Idx → EReal) := by
    after_results
  rw [e]
  exact square_transposed _ k n

theorem stretch2_bias :
    after hostOps2 W (main_arg5 : DevRef τ sig) = W (main_arg5 : DevRef τ sig) := by
  after_results

/-! ### Stretch 3: the result as [2, 2048, 1024] -/

theorem stretch3_result (b : Fin 2) (t : Fin 2048) (n : Fin 1024) :
    (after hostOps3 W (main_v21 : DevRef τ sig) : S2x2048x1024.Idx → EReal) (ix3 b t n)
      = (W (main_v20 : DevRef τ sig) : S4096x1024.Idx → EReal)
          (ix2 ⟨b.val * 2048 + t.val, by have := b.isLt; have := t.isLt; omega⟩ n) := by
  have e : (after hostOps3 W (main_v21 : DevRef τ sig) : S2x2048x1024.Idx → EReal)
      = shapeCast S2x2048x1024 (W (main_v20 : DevRef τ sig) : S4096x1024.Idx → EReal) shapeCasts_S4096x1024_S2x2048x1024 := by
    after_results; rfl
  rw [e]
  exact batches_of_rows _ b t n

/-! ## Two arguments reach region 2's entry as launched

Nothing before the last region writes the output matrix or the bias: no host operation has either as its result,
and neither is a window of regions 0 or 1. -/

section Kept
variable (m : (ℓ : Loc nD τ sig) → Buf (Elt Ideal) ℓ) (ρ : Dev nD → PrngReg) (c : Dev nD)

theorem W4_output_matrix : Hand.W4 m ρ c (main_arg4 : DevRef τ sig) = m ((c : Thread nD τ).loc main_arg4) :=
  (W4_of_ne m ρ c main_arg4 (by decide)).trans <| (W3_keep m ρ c main_arg4 (by decide)).trans <|
    (W2_of_ne m ρ c main_arg4 (by decide)).trans <| (W1_keep m ρ c main_arg4 (by decide)).trans rfl

theorem W5_bias : Hand.W5 m ρ c (main_arg5 : DevRef τ sig) = m ((c : Thread nD τ).loc main_arg5) :=
  (W5_keep m ρ c main_arg5 (by decide)).trans <| (W4_of_ne m ρ c main_arg5 (by decide)).trans <|
    (W3_keep m ρ c main_arg5 (by decide)).trans <| (W2_of_ne m ρ c main_arg5 (by decide)).trans <|
    (W1_keep m ρ c main_arg5 (by decide)).trans rfl

end Kept

end Cert.KernelIdeal.KVal

end
-- ==== Proof.Value.ScaleWord.lean ====
/-
  The kernel's scale literal. The word 0x3E000000 has sign 0, exponent field 124 and a zero fraction: it is
  2^(124 - 127) = 1 / 8, the specification's one eighth.
-/
import proofs.«123667_j5557687681798_2_alg».proof.Proof.AttentionSpec

noncomputable section

namespace Cert.KernelIdeal.KVal

open Idealize.ShloMosaic

theorem ofBits_eighth : Ideal.ofBits .f32 0x3E000000#32 = Cert.Attention.eighth := by
  unfold Cert.Attention.eighth
  simp [Ideal.ofBits, Ideal.ieee, -EReal.coe_mul]; norm_num

end Cert.KernelIdeal.KVal

end
-- ==== Proof.Value.BlockProduct.lean ====
/-
  The two matrix-product bodies read at an index, over the extended reals.

  A block product of a 1024 × 1024 left block and a 1024 × 1024 right block into a zero accumulator is, at row p and
  column q, the sum over the 1024 inner positions k of left (p, k) times right (k, q): the product's dimension numbers
  contract the left block's second axis against the right block's first, and a change of float format is the identity
  on extended reals. The projection body stores exactly that; the output body adds the bias entry of column q.
-/
import proofs.«123667_j5557687681798_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KVal

open Cert.KernelIdeal Cert.KernelIdeal.Gen Idealize.ShloMosaic Idealize.ShloMosaic.ValueIdx

/-- The dimension numbers of a plain block product: left axis 1 against right axis 0. -/
abbrev mmDims : DotDims S1024x1024 S1024x1024 S1024x1024 := dot_S1024x1024_S1024x1024_S1024x1024_1_0_0_1_n_n

theorem mm_lhs0 (j : S1024x1024.Idx) (q : mmDims.contr.Idx) : (mmDims.lhsIdx j q 0).val = (j 0).val := by
  unfold DotDims.lhsIdx
  rw [dif_neg (show ¬(0 : Fin S1024x1024.rank) ∈ mmDims.lhsBatch by decide), dif_pos (show (0 : Fin S1024x1024.rank) ∈ mmDims.lhsNonContracting by decide)]
  rfl
theorem mm_lhs1 (j : S1024x1024.Idx) (q : mmDims.contr.Idx) : (mmDims.lhsIdx j q 1).val = (q ⟨0, by decide⟩).val :=
  mmDims.lhsIdx_val_of_single rfl j q
theorem mm_rhs0 (j : S1024x1024.Idx) (q : mmDims.contr.Idx) : (mmDims.rhsIdx j q 0).val = (q ⟨0, by decide⟩).val :=
  mmDims.rhsIdx_val_of_single rfl j q
theorem mm_rhs1 (j : S1024x1024.Idx) (q : mmDims.contr.Idx) : (mmDims.rhsIdx j q 1).val = (j 1).val := by
  unfold DotDims.rhsIdx
  rw [dif_neg (show ¬(1 : Fin S1024x1024.rank) ∈ mmDims.rhsBatch by decide), dif_pos (show (1 : Fin S1024x1024.rank) ∈ mmDims.rhsNonContracting by decide)]
  rfl

/-- A block product into the zero accumulator at (p, q): the sum over the inner position. -/
theorem mm_apply {φ₁ φ₂ : FTy} (a : FVec Ideal S1024x1024 φ₁) (b : FVec Ideal S1024x1024 φ₂) (p q : Fin 1024) :
    matmul mmDims none a b (constant S1024x1024 .f32 0x00000000#32) (ix2 p q) = ∑ k : Fin 1024, a (ix2 p k) * b (ix2 k q) := by
  simp only [matmul]
  rw [Ideal.matmul_constant_zero_apply, ← Equiv.sum_comp (contrEquiv1 mmDims 1024 rfl rfl).symm]
  refine Finset.sum_congr rfl fun k _ => ?_
  have hk := contrEquiv1_symm_val mmDims 1024 rfl rfl k
  have el : mmDims.lhsIdx (ix2 p q) ((contrEquiv1 mmDims 1024 rfl rfl).symm k) = ix2 p k := funext fun a => Fin.ext (by
    match a with
    | ⟨0, _⟩ => exact mm_lhs0 _ _
    | ⟨1, _⟩ => exact (mm_lhs1 _ _).trans hk)
  have er : mmDims.rhsIdx (ix2 p q) ((contrEquiv1 mmDims 1024 rfl rfl).symm k) = ix2 k q := funext fun a => Fin.ext (by
    match a with
    | ⟨0, _⟩ => exact (mm_rhs0 _ _).trans hk
    | ⟨1, _⟩ => exact mm_rhs1 _ _)
  rw [el, er]

/-- The projection body's stored block at (p, q). -/
theorem proj_payload (x0 : Vec Ideal S1024x1024 .f32) (x1 : Vec Ideal S1024x1024 .bf16) (p q : Fin 1024) :
    k0_pay1 (F := Ideal) x0 x1 (ix2 p q) = ∑ k : Fin 1024, x0 (ix2 p k) * x1 (ix2 k q) := by
  unfold k0_pay1
  rw [truncf_apply, shapeCast_self, shapeCast_self]
  exact mm_apply _ _ p q

/-- The output body's stored block at (p, q): the block product plus the bias entry of column q (the bias block, cast to one
    row and broadcast over the 1024 rows, reads its entry q at every row). -/
theorem out_payload (y w : Vec Ideal S1024x1024 .bf16) (bv : Vec Ideal S1024 .f32) (p q : Fin 1024) :
    k2_pay1 (F := Ideal) y w bv (ix2 p q) = (∑ k : Fin 1024, y (ix2 p k) * w (ix2 k q)) + bv (ix1 q) := by
  unfold k2_pay1
  rw [addf_apply, shapeCast_self, shapeCast_self, mm_apply, broadcastTo_1b_ab_apply, shapeCast_a_1a_apply]

end Cert.KernelIdeal.KVal

end
-- ==== Proof.Value.ProjArray.lean ====
/-
  The fused projection as ONE array. The region runs a 4 × 3 grid; at the point with block indices (i, j) it
  multiplies row-block i of the activations [4096, 1024] by column-block j of the concatenated weights [1024, 3072]
  and writes block (i, j) of the projection [4096, 3072], every block 1024 × 1024. Element (r, s) of the block at
  (i, j) is element (i · 1024 + r, j · 1024 + s) of the array, and the left block's element (r, k) and the right
  block's (k, s) are the activations' (i · 1024 + r, k) and the weights' (k, j · 1024 + s). So every point writes its
  block of the one function (p, n) ↦ ∑ k, activations (p, k) · weights (k, n); the twelve blocks tile the array, and the
  array ends holding that function.
-/
import proofs.«123667_j5557687681798_2_alg».proof.Proof.Ideal.QkvRegion
import proofs.«123667_j5557687681798_2_alg».proof.Proof.Ideal.OutRegion
import proofs.«123667_j5557687681798_2_alg».proof.Proof.Value.BlockProduct
import Idealize.ShloMosaic.Lib.Pipeline.Value
import Idealize.ShloMosaic.Lib.ValueIdx

noncomputable section

open scoped BigOperators

namespace Cert.KernelIdeal.KVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Row p of an array [4096, 1024] against column n of an array [1024, 3072]: the sum over the 1024 inner positions. -/
def rowByCol (A0 : S4096x1024.Idx → EReal) (A1 : S1024x3072.Idx → EReal) (p : Fin 4096) (n : Fin 3072) : EReal :=
  ∑ k : Fin 1024, A0 (ix2 p k) * A1 (ix2 k n)

/-- Row p, column n of the projection: the activations' row p against the weights' column n, both as the region
    finds them. -/
def projAt (c : Dev nD) (p : Fin 4096) (n : Fin 3072) : EReal := rowByCol (V c main_v0) (V c main_v5) p n

/-- The projection as an array [4096, 3072]. -/
def projArr (c : Dev nD) : S4096x3072.Idx → EReal := fun i => projAt V c (i 0) (i 1)

/-- A block sits at offset zero of its staging buffer. -/
theorem proj_origin : (![0, 0] : Fin 2 → Nat) = fun _ => 0 := funext fun a => by fin_cases a <;> rfl

/-- The stored block at any index of the block: the sum over the inner position. -/
theorem proj_block (x0 : Vec Ideal S1024x1024 .f32) (x1 : Vec Ideal S1024x1024 .bf16) (j : S1024x1024.Idx) :
    k0_pay1 (F := Ideal) x0 x1 j = ∑ k : Fin 1024, x0 (ix2 (j 0) k) * x1 (ix2 k (j 1)) := by
  obtain ⟨p, q, rfl⟩ : ∃ p q : Fin 1024, j = ix2 p q := ⟨j 0, j 1, eq_ix2 j⟩
  exact proj_payload x0 x1 p q

/-- ONE POINT, over plain blocks and arrays. The left block reads the array `A0` through `e0` and the right block
    `A1` through `e1`; at block indices (bi, bj) these are (r, k) ↦ (bi · 1024 + r, k) and (k, s) ↦ (k, bj · 1024 + s), and
    the block's index `j` = (r, s) sits in the output array at (p, n) = (bi · 1024 + r, bj · 1024 + s). Then the stored
    block at `j` is row p against column n of the two arrays. -/
theorem proj_point (A0 : S4096x1024.Idx → EReal) (A1 : S1024x3072.Idx → EReal)
    (x0 : Vec Ideal S1024x1024 .f32) (x1 : Vec Ideal S1024x1024 .bf16)
    (e0 : S1024x1024.Idx → S4096x1024.Idx) (e1 : S1024x1024.Idx → S1024x3072.Idx) (bi bj : Nat)
    (h0 : ∀ y, x0 y = A0 (e0 y)) (h1 : ∀ y, x1 y = A1 (e1 y))
    (r0 : ∀ y, (e0 y 0).val = bi * 1024 + 1 * (y 0).val) (c0 : ∀ y, (e0 y 1).val = 0 * 1024 + 1 * (y 1).val)
    (r1 : ∀ y, (e1 y 0).val = 0 * 1024 + 1 * (y 0).val) (c1 : ∀ y, (e1 y 1).val = bj * 1024 + 1 * (y 1).val)
    (j : S1024x1024.Idx) (p : Fin 4096) (n : Fin 3072)
    (hp : p.val = bi * 1024 + 1 * (j 0).val) (hn : n.val = bj * 1024 + 1 * (j 1).val) :
    k0_pay1 (F := Ideal) x0 x1 j = rowByCol A0 A1 p n := by
  rw [proj_block]
  unfold rowByCol
  refine Finset.sum_congr rfl fun k _ => ?_
  rw [h0, h1]
  have a0 : e0 (ix2 (j 0) k) = ix2 p k := by
    funext a; apply Fin.ext
    match a with
    | ⟨0, _⟩ => show (e0 (ix2 (j 0) k) 0).val = p.val; rw [r0, hp]
    | ⟨1, _⟩ => show (e0 (ix2 (j 0) k) 1).val = k.val; rw [c0]; show 0 * 1024 + 1 * k.val = k.val; omega
  have a1 : e1 (ix2 k (j 1)) = ix2 k n := by
    funext a; apply Fin.ext
    match a with
    | ⟨0, _⟩ => show (e1 (ix2 k (j 1)) 0).val = k.val; rw [r1]; show 0 * 1024 + 1 * k.val = k.val; omega
    | ⟨1, _⟩ => show (e1 (ix2 k (j 1)) 1).val = n.val; rw [c1, hn]
  rw [a0, a1]

/-- The printed index maps, decided over the twelve points: the activations' block is on the output's row of blocks
    at block column 0, the weights' block on the output's column of blocks at block row 0. -/
theorem proj_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2) :=
  (by decide +kernel : ∀ t : Fin grid0.N, _)

/-- Every block of the 4 × 3 tiling is some point's. -/
theorem proj_onto : ∀ (q0 : Fin 4) (q1 : Fin 3), ∃ t : Fin cfg0.N, win0_2.index t = ![q0.val, q1.val] :=
  (by decide +kernel : ∀ (q0 : Fin 4) (q1 : Fin 3), ∃ t : Fin grid0.N, win0_2.index t = ![q0.val, q1.val])

/-- WHAT POINT `t` WRITES BACK is its block of the projection array. -/
theorem proj_flushed (c : Dev nD) (t : Fin cfg0.N) :
    (dat0 V c).flushed 2 t = ((cfg0.win 2).blk t).view.read (Elt Ideal) (projArr V c) := by
  show (cfg0.win 2).cut (grid0.coords t) ((dat0 V c).after 2 t) = _
  rw [dat0_after_2]
  unfold left0
  rw [View.canon_unit_zero proj_origin]
  simp only [View.ld_unit_zero (S := S1024x1024) proj_origin]
  obtain ⟨e0, e1, e2, e3⟩ := proj_maps t
  funext j
  show k0_pay1 (F := Ideal) (blk0 V c 0 t) (blk0 V c 1 t) j = projArr V c (((cfg0.win 2).blk t).view.emb j)
  exact proj_point (V c main_v0) (V c main_v5) (blk0 V c 0 t) (blk0 V c 1 t)
    ((cfg0.win 0).blk t).view.emb ((cfg0.win 1).blk t).view.emb
    (win0_2.index t (0 : Fin 2)) (win0_2.index t (1 : Fin 2))
    (fun y => rfl) (fun y => rfl)
    (fun y => by show win0_0.index t (0 : Fin 2) * 1024 + 1 * (y 0).val = _; rw [e0])
    (fun y => by show win0_0.index t (1 : Fin 2) * 1024 + 1 * (y 1).val = _; rw [e1])
    (fun y => by show win0_1.index t (0 : Fin 2) * 1024 + 1 * (y 0).val = _; rw [e2])
    (fun y => by show win0_1.index t (1 : Fin 2) * 1024 + 1 * (y 1).val = _; rw [e3])
    j (((cfg0.win 2).blk t).view.emb j 0) (((cfg0.win 2).blk t).view.emb j 1) rfl rfl

/-- An index of the array is in point `t`'s block iff each coordinate is in the block's range on its axis. -/
theorem proj_mem_blk (t : Fin cfg0.N) (i : S4096x3072.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v6).slice (win0_2.rect t)).set ↔ _
  rw [View.set_slice_whole, Rect.mem_set_unit]
  exact Iff.rfl

/-- The blocks tile the array: row p, column n is in the block with block indices p / 1024 and n / 1024. -/
theorem proj_cover (i : S4096x3072.Idx) :
    ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, ht⟩ := proj_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [proj_mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE ARRAY after the region's run is the projection. -/
theorem proj_final (c : Dev nD) : (dat0 V c).arrAt 2 cfg0.N = projArr V c :=
  (dat0 V c).arrAt_eq_of_cover 2 (projArr V c) (fun t _ => proj_flushed V c t) proj_cover

end Cert.KernelIdeal.KVal

end
-- ==== Proof.Value.OutArray.lean ====
/-
  The output layer as ONE array. The region runs a 4 × 1 grid; at the point with block row i it multiplies row-block i
  of the attention result [4096, 1024] by the whole matrix [1024, 1024], adds the bias [1024] to every row, and writes
  row-block i of the result [4096, 1024], every block 1024 × 1024. Element (r, s) of that block is element
  (i · 1024 + r, s) of the array, the left block's element (r, k) is the attention result's (i · 1024 + r, k), and the
  matrix and the bias are read whole. So every point writes its block of the one function
  (p, n) ↦ (∑ k, attention (p, k) · matrix (k, n)) + bias n; the four blocks tile the array, and the array ends holding
  that function.
-/
import proofs.«123667_j5557687681798_2_alg».proof.Proof.Ideal.QkvRegion
import proofs.«123667_j5557687681798_2_alg».proof.Proof.Ideal.OutRegion
import proofs.«123667_j5557687681798_2_alg».proof.Proof.Value.BlockProduct
import Idealize.ShloMosaic.Lib.Pipeline.Value
import Idealize.ShloMosaic.Lib.ValueIdx

noncomputable section

open scoped BigOperators

namespace Cert.KernelIdeal.KVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Row p of an array [4096, 1024] against column n of a matrix [1024, 1024], plus entry n of a vector [1024]. -/
def rowByColPlus (A0 : S4096x1024.Idx → EReal) (A1 : S1024x1024.Idx → EReal) (A2 : S1024.Idx → EReal)
    (p : Fin 4096) (n : Fin 1024) : EReal :=
  (∑ k : Fin 1024, A0 (ix2 p k) * A1 (ix2 k n)) + A2 (ix1 n)

/-- Row p, column n of the layer's result: the attention result's row p against the matrix's column n, plus the
    bias entry n, all three as the region finds them. -/
def outAt (c : Dev nD) (p : Fin 4096) (n : Fin 1024) : EReal :=
  rowByColPlus (V c main_v17) (V c main_v19) (V c main_arg5) p n

/-- The result as an array [4096, 1024]. -/
def outArr (c : Dev nD) : S4096x1024.Idx → EReal := fun i => outAt V c (i 0) (i 1)

/-- A block sits at offset zero of its staging buffer, -/
theorem out_origin : (![0, 0] : Fin 2 → Nat) = fun _ => 0 := funext fun a => by fin_cases a <;> rfl
/-- and so does the bias row. -/
theorem out_origin_row : (![0] : Fin 1 → Nat) = fun _ => 0 := funext fun a => by fin_cases a; rfl

/-- The stored block at any index of the block: the sum over the inner position plus the bias entry of the column. -/
theorem out_block (x0 x1 : Vec Ideal S1024x1024 .bf16) (x2 : Vec Ideal S1024 .f32) (j : S1024x1024.Idx) :
    k2_pay1 (F := Ideal) x0 x1 x2 j = (∑ k : Fin 1024, x0 (ix2 (j 0) k) * x1 (ix2 k (j 1))) + x2 (ix1 (j 1)) := by
  obtain ⟨p, q, rfl⟩ : ∃ p q : Fin 1024, j = ix2 p q := ⟨j 0, j 1, eq_ix2 j⟩
  exact out_payload x0 x1 x2 p q

/-- ONE POINT, over plain blocks and arrays. The left block reads the array `A0` through `e0`, at block row bi the map
    (r, k) ↦ (bi · 1024 + r, k); the matrix block reads `A1` through `e1` and the bias block `A2` through `e2`, both at
    block index zero, so in place; the block's index `j` = (r, s) sits in the output array at (p, n) = (bi · 1024 + r, s).
    Then the stored block at `j` is row p against column n plus the bias entry n. -/
theorem out_point (A0 : S4096x1024.Idx → EReal) (A1 : S1024x1024.Idx → EReal) (A2 : S1024.Idx → EReal)
    (x0 x1 : Vec Ideal S1024x1024 .bf16) (x2 : Vec Ideal S1024 .f32)
    (e0 : S1024x1024.Idx → S4096x1024.Idx) (e1 : S1024x1024.Idx → S1024x1024.Idx) (e2 : S1024.Idx → S1024.Idx) (bi : Nat)
    (h0 : ∀ y, x0 y = A0 (e0 y)) (h1 : ∀ y, x1 y = A1 (e1 y)) (h2 : ∀ y, x2 y = A2 (e2 y))
    (r0 : ∀ y, (e0 y 0).val = bi * 1024 + 1 * (y 0).val) (c0 : ∀ y, (e0 y 1).val = 0 * 1024 + 1 * (y 1).val)
    (r1 : ∀ y, (e1 y 0).val = 0 * 1024 + 1 * (y 0).val) (c1 : ∀ y, (e1 y 1).val = 0 * 1024 + 1 * (y 1).val)
    (b2 : ∀ y, (e2 y 0).val = 0 * 1024 + 1 * (y 0).val)
    (j : S1024x1024.Idx) (p : Fin 4096) (n : Fin 1024)
    (hp : p.val = bi * 1024 + 1 * (j 0).val) (hn : n.val = 0 * 1024 + 1 * (j 1).val) :
    k2_pay1 (F := Ideal) x0 x1 x2 j = rowByColPlus A0 A1 A2 p n := by
  have hn' : n.val = (j 1).val := by rw [hn]; omega
  rw [out_block]
  unfold rowByColPlus
  have a2 : e2 (ix1 (j 1)) = ix1 n := by
    funext a; apply Fin.ext
    match a with
    | ⟨0, _⟩ => show (e2 (ix1 (j 1)) 0).val = n.val; rw [b2, hn']; show 0 * 1024 + 1 * (j 1).val = (j 1).val; omega
  rw [h2, a2]
  refine congrArg (· + A2 (ix1 n)) (Finset.sum_congr rfl fun k _ => ?_)
  rw [h0, h1]
  have a0 : e0 (ix2 (j 0) k) = ix2 p k := by
    funext a; apply Fin.ext
    match a with
    | ⟨0, _⟩ => show (e0 (ix2 (j 0) k) 0).val = p.val; rw [r0, hp]
    | ⟨1, _⟩ => show (e0 (ix2 (j 0) k) 1).val = k.val; rw [c0]; show 0 * 1024 + 1 * k.val = k.val; omega
  have a1 : e1 (ix2 k (j 1)) = ix2 k n := by
    funext a; apply Fin.ext
    match a with
    | ⟨0, _⟩ => show (e1 (ix2 k (j 1)) 0).val = k.val; rw [r1]; show 0 * 1024 + 1 * k.val = k.val; omega
    | ⟨1, _⟩ => show (e1 (ix2 k (j 1)) 1).val = n.val; rw [c1, hn']; show 0 * 1024 + 1 * (j 1).val = (j 1).val; omega
  rw [a0, a1]

/-- The printed index maps, decided over the four points: the attention result's block is on the output's row of
    blocks, and every other block index is zero. -/
theorem out_maps : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 1) = 0
    ∧ win2_3.index t (1 : Fin 2) = 0 :=
  (by decide +kernel : ∀ t : Fin grid2.N, _)

/-- Every block of the 4 × 1 tiling is some point's. -/
theorem out_onto : ∀ (q0 : Fin 4), ∃ t : Fin cfg2.N, win2_3.index t = ![q0.val, 0] :=
  (by decide +kernel : ∀ (q0 : Fin 4), ∃ t : Fin grid2.N, win2_3.index t = ![q0.val, 0])

/-- WHAT POINT `t` WRITES BACK is its block of the result array. -/
theorem out_flushed (c : Dev nD) (t : Fin cfg2.N) :
    (dat2 V c).flushed 3 t = ((cfg2.win 3).blk t).view.read (Elt Ideal) (outArr V c) := by
  show (cfg2.win 3).cut (grid2.coords t) ((dat2 V c).after 3 t) = _
  rw [dat2_after_3]
  unfold left2
  rw [View.canon_unit_zero out_origin]
  simp only [View.ld_unit_zero (S := S1024x1024) out_origin, View.ld_unit_zero (S := S1024) out_origin_row]
  obtain ⟨e0, e1, e2, e3, e4, e5⟩ := out_maps t
  funext j
  show k2_pay1 (F := Ideal) (blk2 V c 0 t) (blk2 V c 1 t) (blk2 V c 2 t) j = outArr V c (((cfg2.win 3).blk t).view.emb j)
  exact out_point (V c main_v17) (V c main_v19) (V c main_arg5) (blk2 V c 0 t) (blk2 V c 1 t) (blk2 V c 2 t)
    ((cfg2.win 0).blk t).view.emb ((cfg2.win 1).blk t).view.emb ((cfg2.win 2).blk t).view.emb
    (win2_3.index t (0 : Fin 2))
    (fun y => rfl) (fun y => rfl) (fun y => rfl)
    (fun y => by show win2_0.index t (0 : Fin 2) * 1024 + 1 * (y 0).val = _; rw [e0])
    (fun y => by show win2_0.index t (1 : Fin 2) * 1024 + 1 * (y 1).val = _; rw [e1])
    (fun y => by show win2_1.index t (0 : Fin 2) * 1024 + 1 * (y 0).val = _; rw [e2])
    (fun y => by show win2_1.index t (1 : Fin 2) * 1024 + 1 * (y 1).val = _; rw [e3])
    (fun y => by show win2_2.index t (0 : Fin 1) * 1024 + 1 * (y 0).val = _; rw [e4])
    j (((cfg2.win 3).blk t).view.emb j 0) (((cfg2.win 3).blk t).view.emb j 1) rfl
    (by show win2_3.index t (1 : Fin 2) * 1024 + 1 * (j 1).val = _; rw [e5])

/-- An index of the array is in point `t`'s block iff each coordinate is in the block's range on its axis. -/
theorem out_mem_blk (t : Fin cfg2.N) (i : S4096x1024.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v20).slice (win2_3.rect t)).set ↔ _
  rw [View.set_slice_whole, Rect.mem_set_unit]
  exact Iff.rfl

/-- The blocks tile the array: row p is in the block with block row p / 1024. -/
theorem out_cover (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := out_onto ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [out_mem_blk]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- THE ARRAY after the region's run is the layer's result. -/
theorem out_final (c : Dev nD) : (dat2 V c).arrAt 3 cfg2.N = outArr V c :=
  (dat2 V c).arrAt_eq_of_cover 3 (outArr V c) (fun t _ => out_flushed V c t) out_cover

end Cert.KernelIdeal.KVal

end
-- ==== Proof.Value.HeadAttention.lean ====
/-
  The attention of one head, stated over abstract per-head arrays.

  With Q, K, W functions of (batch, head, position, lane), the context at (b, h, t, d) is: scores of row t against every key
  position s (inner product over the 64 lanes, times a scale), the row's maximum taken off, exponentials, each divided by
  the row's sum, and the weighted sum over s of W (b, h, s, d). The specification's context is this function at the three
  projections of x, head h's lanes being channels h · 64 + d.
-/
import proofs.«123667_j5557687681798_2_alg».proof.Proof.AttentionSpec

noncomputable section

open scoped BigOperators

namespace Cert.Attention

open Idealize.ShloMosaic Idealize.ShloMosaic.ValueIdx

/-- A per-head array: batch, head, position, lane. -/
abbrev Heads : Type := Fin 2 → Fin 16 → Fin 2048 → Fin 64 → EReal

section
variable (scale : EReal) (Q K W : Heads)

def hScore (b : Fin 2) (h : Fin 16) (t s : Fin 2048) : EReal := (∑ d : Fin 64, Q b h t d * K b h s d) * scale
def hMax (b : Fin 2) (h : Fin 16) (t : Fin 2048) : EReal :=
  (Finset.univ : Finset (Fin 2048)).fold max ⊥ (fun s => hScore scale Q K b h t s)
def hExp (b : Fin 2) (h : Fin 16) (t s : Fin 2048) : EReal := Ideal.exp (hScore scale Q K b h t s - hMax scale Q K b h t)
def hWeight (b : Fin 2) (h : Fin 16) (t s : Fin 2048) : EReal :=
  Ideal.div (hExp scale Q K b h t s) (∑ s' : Fin 2048, hExp scale Q K b h t s')
def hOut (b : Fin 2) (h : Fin 16) (t : Fin 2048) (d : Fin 64) : EReal := ∑ s : Fin 2048, hWeight scale Q K b h t s * W b h s d
end

/-- The three projections of x as per-head arrays. -/
def headsOf (x : Act) (M : Mat) : Heads := fun b h t d => proj x M b t (chan h d)

/-- The specification's context is the per-head attention of the three projections. -/
theorem context_eq_hOut (scale : EReal) (x : Act) (Wk Wq Wv : Mat) (b : Fin 2) (h : Fin 16) (t : Fin 2048) (d : Fin 64) :
    context scale x Wk Wq Wv b h t d = hOut scale (headsOf x Wq) (headsOf x Wk) (headsOf x Wv) b h t d := rfl

end Cert.Attention

end
-- ==== Proof.Value.AttentionOps.lean ====
/-
  The attention body read at an index, over the extended reals.

  The body holds, for the two heads g of its group, a 256-row tile of queries q (g, r, ·) and the full 2048 rows of keys
  k (g, s, ·) and values v (g, s, ·), 64 lanes each. The score of row r against key s is the inner product over the lanes
  times one eighth; the row's largest score is taken off, the differences are exponentiated, each is divided by the row's
  sum of exponentials, and the stored entry (g, r, d) is the sum over s of that weight times v (g, s, d). A change of float
  format is the identity here. Both stores take one head's 256 × 64 slab of that result.
-/
import proofs.«123667_j5557687681798_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KVal

open Cert.KernelIdeal Cert.KernelIdeal.Gen Idealize.ShloMosaic Idealize.ShloMosaic.ValueIdx

/-! ## The two batched products -/

/-- Queries against keys: the head axis is a batch axis, the lanes are contracted. -/
abbrev qkDims : DotDims S2x256x64 S2x2048x64 S2x256x2048 := dot_S2x256x64_S2x2048x64_S2x256x2048_2_2_1_1_0_0
/-- Weights against values: the head axis is a batch axis, the key positions are contracted. -/
abbrev pvDims : DotDims S2x256x2048 S2x2048x64 S2x256x64 := dot_S2x256x2048_S2x2048x64_S2x256x64_2_1_1_2_0_0

theorem qk_lhs0 (j : S2x256x2048.Idx) (q : qkDims.contr.Idx) : (qkDims.lhsIdx j q 0).val = (j 0).val := by
  unfold DotDims.lhsIdx
  rw [dif_pos (show (0 : Fin S2x256x64.rank) ∈ qkDims.lhsBatch by decide)]
  rfl
theorem qk_lhs1 (j : S2x256x2048.Idx) (q : qkDims.contr.Idx) : (qkDims.lhsIdx j q 1).val = (j 1).val := by
  unfold DotDims.lhsIdx
  rw [dif_neg (show ¬(1 : Fin S2x256x64.rank) ∈ qkDims.lhsBatch by decide), dif_pos (show (1 : Fin S2x256x64.rank) ∈ qkDims.lhsNonContracting by decide)]
  rfl
theorem qk_lhs2 (j : S2x256x2048.Idx) (q : qkDims.contr.Idx) : (qkDims.lhsIdx j q 2).val = (q ⟨0, by decide⟩).val :=
  qkDims.lhsIdx_val_of_single rfl j q
theorem qk_rhs0 (j : S2x256x2048.Idx) (q : qkDims.contr.Idx) : (qkDims.rhsIdx j q 0).val = (j 0).val := by
  unfold DotDims.rhsIdx
  rw [dif_pos (show (0 : Fin S2x2048x64.rank) ∈ qkDims.rhsBatch by decide)]
  rfl
theorem qk_rhs1 (j : S2x256x2048.Idx) (q : qkDims.contr.Idx) : (qkDims.rhsIdx j q 1).val = (j 2).val := by
  unfold DotDims.rhsIdx
  rw [dif_neg (show ¬(1 : Fin S2x2048x64.rank) ∈ qkDims.rhsBatch by decide), dif_pos (show (1 : Fin S2x2048x64.rank) ∈ qkDims.rhsNonContracting by decide)]
  rfl
theorem qk_rhs2 (j : S2x256x2048.Idx) (q : qkDims.contr.Idx) : (qkDims.rhsIdx j q 2).val = (q ⟨0, by decide⟩).val :=
  qkDims.rhsIdx_val_of_single rfl j q

/-- The score product into the zero accumulator at (g, r, s): the inner product over the 64 lanes. -/
theorem qk_apply {φ₁ φ₂ : FTy} (a : FVec Ideal S2x256x64 φ₁) (b : FVec Ideal S2x2048x64 φ₂) (g : Fin 2) (r : Fin 256) (s : Fin 2048) :
    matmul qkDims none a b (constant S2x256x2048 .f32 0x00000000#32) (ix3 g r s) = ∑ d : Fin 64, a (ix3 g r d) * b (ix3 g s d) := by
  simp only [matmul]
  rw [Ideal.matmul_constant_zero_apply, ← Equiv.sum_comp (contrEquiv1 qkDims 64 rfl rfl).symm]
  refine Finset.sum_congr rfl fun k _ => ?_
  have hk := contrEquiv1_symm_val qkDims 64 rfl rfl k
  have el : qkDims.lhsIdx (ix3 g r s) ((contrEquiv1 qkDims 64 rfl rfl).symm k) = ix3 g r k := funext fun a => Fin.ext (by
    match a with
    | ⟨0, _⟩ => exact qk_lhs0 _ _
    | ⟨1, _⟩ => exact qk_lhs1 _ _
    | ⟨2, _⟩ => exact (qk_lhs2 _ _).trans hk)
  have er : qkDims.rhsIdx (ix3 g r s) ((contrEquiv1 qkDims 64 rfl rfl).symm k) = ix3 g s k := funext fun a => Fin.ext (by
    match a with
    | ⟨0, _⟩ => exact qk_rhs0 _ _
    | ⟨1, _⟩ => exact qk_rhs1 _ _
    | ⟨2, _⟩ => exact (qk_rhs2 _ _).trans hk)
  rw [el, er]

theorem pv_lhs0 (j : S2x256x64.Idx) (q : pvDims.contr.Idx) : (pvDims.lhsIdx j q 0).val = (j 0).val := by
  unfold DotDims.lhsIdx
  rw [dif_pos (show (0 : Fin S2x256x2048.rank) ∈ pvDims.lhsBatch by decide)]
  rfl
theorem pv_lhs1 (j : S2x256x64.Idx) (q : pvDims.contr.Idx) : (pvDims.lhsIdx j q 1).val = (j 1).val := by
  unfold DotDims.lhsIdx
  rw [dif_neg (show ¬(1 : Fin S2x256x2048.rank) ∈ pvDims.lhsBatch by decide), dif_pos (show (1 : Fin S2x256x2048.rank) ∈ pvDims.lhsNonContracting by decide)]
  rfl
theorem pv_lhs2 (j : S2x256x64.Idx) (q : pvDims.contr.Idx) : (pvDims.lhsIdx j q 2).val = (q ⟨0, by decide⟩).val :=
  pvDims.lhsIdx_val_of_single rfl j q
theorem pv_rhs0 (j : S2x256x64.Idx) (q : pvDims.contr.Idx) : (pvDims.rhsIdx j q 0).val = (j 0).val := by
  unfold DotDims.rhsIdx
  rw [dif_pos (show (0 : Fin S2x2048x64.rank) ∈ pvDims.rhsBatch by decide)]
  rfl
theorem pv_rhs1 (j : S2x256x64.Idx) (q : pvDims.contr.Idx) : (pvDims.rhsIdx j q 1).val = (q ⟨0, by decide⟩).val :=
  pvDims.rhsIdx_val_of_single rfl j q
theorem pv_rhs2 (j : S2x256x64.Idx) (q : pvDims.contr.Idx) : (pvDims.rhsIdx j q 2).val = (j 2).val := by
  unfold DotDims.rhsIdx
  rw [dif_neg (show ¬(2 : Fin S2x2048x64.rank) ∈ pvDims.rhsBatch by decide), dif_pos (show (2 : Fin S2x2048x64.rank) ∈ pvDims.rhsNonContracting by decide)]
  rfl

/-- The weighted sum into the zero accumulator at (g, r, d): the sum over the 2048 key positions. -/
theorem pv_apply {φ₁ φ₂ : FTy} (a : FVec Ideal S2x256x2048 φ₁) (b : FVec Ideal S2x2048x64 φ₂) (g : Fin 2) (r : Fin 256) (d : Fin 64) :
    matmul pvDims none a b (constant S2x256x64 .f32 0x00000000#32) (ix3 g r d) = ∑ s : Fin 2048, a (ix3 g r s) * b (ix3 g s d) := by
  simp only [matmul]
  rw [Ideal.matmul_constant_zero_apply, ← Equiv.sum_comp (contrEquiv1 pvDims 2048 rfl rfl).symm]
  refine Finset.sum_congr rfl fun k _ => ?_
  have hk := contrEquiv1_symm_val pvDims 2048 rfl rfl k
  have el : pvDims.lhsIdx (ix3 g r d) ((contrEquiv1 pvDims 2048 rfl rfl).symm k) = ix3 g r k := funext fun a => Fin.ext (by
    match a with
    | ⟨0, _⟩ => exact pv_lhs0 _ _
    | ⟨1, _⟩ => exact pv_lhs1 _ _
    | ⟨2, _⟩ => exact (pv_lhs2 _ _).trans hk)
  have er : pvDims.rhsIdx (ix3 g r d) ((contrEquiv1 pvDims 2048 rfl rfl).symm k) = ix3 g k d := funext fun a => Fin.ext (by
    match a with
    | ⟨0, _⟩ => exact pv_rhs0 _ _
    | ⟨1, _⟩ => exact (pv_rhs1 _ _).trans hk
    | ⟨2, _⟩ => exact pv_rhs2 _ _)
  rw [el, er]

/-! ## A row's maximum and sum, and a per-row value spread back along the row -/

/-- The reduced index (g, r) with key position s put back on the last axis is (g, r, s). -/
theorem lift_row (h : S2x256x2048.Reduces [2] S2x256) (g : Fin 2) (r : Fin 256) (s : Fin 2048) :
    h.lift (ix2 g r) s = ix3 g r s :=
  funext fun a => Fin.ext (by
    match a with
    | ⟨0, _⟩ => rfl
    | ⟨1, _⟩ => rfl
    | ⟨2, _⟩ => rfl)

/-- The word of minus infinity is the bottom element. -/
theorem ofBits_negInf : Ideal.ofBits .f32 0xFF800000#32 = ⊥ := by simp [Ideal.ofBits, Ideal.ieee]

/-- The maximum over the last axis at (g, r): the fold of max over the 2048 key positions from the accumulator word's value. -/
theorem row_max (x : FVec Ideal S2x256x2048 .f32) (acc : BitVec FTy.f32.bits) (h : S2x256x2048.Reduces [2] S2x256)
    (hφ : FKind.Formats .f32) (hacc : acc = FKind.maximumf.neutral .f32 hφ) (g : Fin 2) (r : Fin 256) :
    multiReduction .maximumf [2] S2x256 x acc h hφ hacc (ix2 g r)
      = (Finset.univ : Finset (Fin 2048)).fold max (Ideal.ofBits .f32 acc) (fun s => x (ix3 g r s)) := by
  refine (Ideal.multiReduction_maximumf_single x acc h hφ hacc (ix2 g r)).trans ?_
  show (Finset.univ : Finset (Fin 2048)).fold max (Ideal.ofBits .f32 acc) (x ∘ h.lift (ix2 g r)) = _
  have e : x ∘ h.lift (ix2 g r) = fun s => x (ix3 g r s) := funext fun s => congrArg x (lift_row h g r s)
  rw [e]
  rfl

/-- The sum over the last axis at (g, r): the sum over the 2048 key positions. -/
theorem row_sum (x : FVec Ideal S2x256x2048 .f32) (acc : BitVec FTy.f32.bits) (h : S2x256x2048.Reduces [2] S2x256)
    (hφ : FKind.Formats .f32) (hacc : acc = FKind.add.neutral .f32 hφ) (g : Fin 2) (r : Fin 256) :
    multiReduction .add [2] S2x256 x acc h hφ hacc (ix2 g r) = ∑ s : Fin 2048, x (ix3 g r s) := by
  refine (Ideal.multiReduction_add_single x acc h hφ hacc (ix2 g r)).trans ?_
  show ∑ s : Fin 2048, x (h.lift (ix2 g r) s) = _
  exact Finset.sum_congr rfl fun s _ => congrArg x (lift_row h g r s)

/-- The same two facts with the accumulator words written out and the side condition stated as an equation of a word
    with itself, which is how a program that names the words states it. -/
theorem row_max_word (x : FVec Ideal S2x256x2048 .f32) (h : S2x256x2048.Reduces [2] S2x256) (hφ : FKind.Formats .f32)
    (hacc : (0xFF800000#32 : BitVec FTy.f32.bits) = 0xFF800000#32) (g : Fin 2) (r : Fin 256) :
    multiReduction .maximumf [2] S2x256 x 0xFF800000#32 h hφ hacc (ix2 g r)
      = (Finset.univ : Finset (Fin 2048)).fold max ⊥ (fun s => x (ix3 g r s)) :=
  (row_max x 0xFF800000#32 h hφ hacc g r).trans (by rw [ofBits_negInf])

theorem row_sum_word (x : FVec Ideal S2x256x2048 .f32) (h : S2x256x2048.Reduces [2] S2x256) (hφ : FKind.Formats .f32)
    (hacc : (0x00000000#32 : BitVec FTy.f32.bits) = 0x00000000#32) (g : Fin 2) (r : Fin 256) :
    multiReduction .add [2] S2x256 x 0x00000000#32 h hφ hacc (ix2 g r) = ∑ s : Fin 2048, x (ix3 g r s) :=
  row_sum x 0x00000000#32 h hφ hacc g r

/-- A per-row value, cast to a column [2, 256, 1] and broadcast along the row, reads at (g, r, s) the row's value. -/
theorem column_spread {α : Type} (v : S2x256.Idx → α) (h1 : S2x256.ShapeCasts S2x256x1) (h2 : S2x256x1.Broadcasts S2x256x2048)
    (g : Fin 2) (r : Fin 256) (s : Fin 2048) :
    broadcastTo S2x256x2048 (shapeCast S2x256x1 v h1) h2 (ix3 g r s) = v (ix2 g r) := by
  refine (broadcastTo_apply (shapeCast S2x256x1 v h1) h2 (ix3 g r s) (ix3 g r (0 : Fin 1)) fun a => ?_).trans ?_
  · match a with
    | ⟨0, _⟩ => rfl
    | ⟨1, _⟩ => rfl
    | ⟨2, _⟩ => rfl
  · refine shapeCast_apply v h1 (ix3 g r (0 : Fin 1)) (ix2 g r) ?_
    rw [Shape.rowMajor_val_two, Shape.rowMajor_val_three]
    show g.val * 256 + r.val = (g.val * 256 + r.val) * 1 + 0
    omega

end Cert.KernelIdeal.KVal

end
-- ==== Proof.Value.AttentionBlock.lean ====
/-
  What the attention body stores, as one function of its three loaded blocks.

  With q the 1 × 2 × 256 × 64 query tile and k, v the 1 × 2 × 2048 × 64 key and value panels of a grid point, the entry (g, r, d)
  of the body's result is tileOut q k v g r d below: scores over the 64 lanes times the scale word (one eighth), the row's
  maximum taken off, exponentials, each over the row's sum, and the weighted sum of the values over the 2048 key positions.
  The first store takes head 0's slab of it, the second head 1's.
-/
import proofs.«123667_j5557687681798_2_alg».proof.Proof.Value.AttentionOps

noncomputable section

open scoped BigOperators

namespace Cert.KernelIdeal.KVal

open Cert.KernelIdeal Cert.KernelIdeal.Gen Idealize.ShloMosaic Idealize.ShloMosaic.ValueIdx

section Tile
variable (q : Vec Ideal S1x2x256x64 .bf16) (k v : Vec Ideal S1x2x2048x64 .bf16)

/-- The scaled score of the tile's row r against key position s, in head g of the group. -/
def tileScore (g : Fin 2) (r : Fin 256) (s : Fin 2048) : EReal :=
  (∑ d : Fin 64, q (ix4 (0 : Fin 1) g r d) * k (ix4 (0 : Fin 1) g s d)) * Ideal.ofBits .f32 0x3E000000#32
/-- The row's largest score. -/
def tileMax (g : Fin 2) (r : Fin 256) : EReal :=
  (Finset.univ : Finset (Fin 2048)).fold max ⊥ (fun s => tileScore q k g r s)
/-- A score's exponential after the row's maximum is taken off. -/
def tileExp (g : Fin 2) (r : Fin 256) (s : Fin 2048) : EReal := Ideal.exp (tileScore q k g r s - tileMax q k g r)
/-- The weight: the exponential over the row's sum of exponentials. -/
def tileWeight (g : Fin 2) (r : Fin 256) (s : Fin 2048) : EReal :=
  Ideal.div (tileExp q k g r s) (∑ s' : Fin 2048, tileExp q k g r s')
/-- The weighted sum of the values. -/
def tileOut (g : Fin 2) (r : Fin 256) (d : Fin 64) : EReal :=
  ∑ s : Fin 2048, tileWeight q k g r s * v (ix4 (0 : Fin 1) g s d)

/-- A vector exponential at an index is the exponential of the entry. -/
theorem vexp_apply {s : Shape} {φ : FTy} (x : FVec Ideal s φ) (i : s.Idx) : exp x i = Ideal.exp (x i) := rfl

/-- The body's result at (g, r, d). -/
theorem attn_payload (g : Fin 2) (r : Fin 256) (d : Fin 64) :
    k1_pay1 (F := Ideal) q k v (ix3 g r d) = tileOut q k v g r d := by
  unfold k1_pay1 tileOut tileWeight tileExp tileMax tileScore
  simp only [truncf_apply, pv_apply, shapeCast_1abc_abc_apply, divf_apply, column_spread, subf_apply, mulf_apply, vexp_apply, qk_apply, broadcast_apply, Ideal.ofBits_def]
  rw [row_sum_word]
  simp only [truncf_apply, pv_apply, shapeCast_1abc_abc_apply, divf_apply, column_spread, subf_apply, mulf_apply, vexp_apply, qk_apply, broadcast_apply, Ideal.ofBits_def]
  rw [row_max_word]
  simp only [truncf_apply, pv_apply, shapeCast_1abc_abc_apply, divf_apply, column_spread, subf_apply, mulf_apply, vexp_apply, qk_apply, broadcast_apply, Ideal.ofBits_def]

/-- The first store's value at (0, r, d): head 0's slab of the result. -/
theorem attn_payload_lo (u : Fin 1) (r : Fin 256) (d : Fin 64) :
    k1_pay2 (F := Ideal) q k v (ix3 u r d) = tileOut q k v (0 : Fin 2) r d := by
  unfold k1_pay2
  rw [shapeCast_ab_1ab_apply, shapeCast_1ab_ab_apply]
  refine (extractStridedSlice_apply _ _ _ (ix3 (0 : Fin 1) r d) (ix3 (0 : Fin 2) r d) fun a => ?_).trans (attn_payload q k v 0 r d)
  match a with
  | ⟨0, _⟩ => rfl
  | ⟨1, _⟩ =>
    show r.val = 0 + r.val
    omega
  | ⟨2, _⟩ =>
    show d.val = 0 + d.val
    omega

/-- The second store's value at (0, r, d): head 1's slab of the result. -/
theorem attn_payload_hi (u : Fin 1) (r : Fin 256) (d : Fin 64) :
    k1_pay3 (F := Ideal) q k v (ix3 u r d) = tileOut q k v (1 : Fin 2) r d := by
  unfold k1_pay3
  rw [shapeCast_ab_1ab_apply, shapeCast_1ab_ab_apply]
  refine (extractStridedSlice_apply _ _ _ (ix3 (0 : Fin 1) r d) (ix3 (1 : Fin 2) r d) fun a => ?_).trans (attn_payload q k v 1 r d)
  match a with
  | ⟨0, _⟩ => rfl
  | ⟨1, _⟩ =>
    show r.val = 0 + r.val
    omega
  | ⟨2, _⟩ =>
    show d.val = 0 + d.val
    omega

end Tile

end Cert.KernelIdeal.KVal

end
-- ==== Proof.Value.AttnArray.lean ====
/-
  The attention region's result as ONE array. The region runs a 2 × 8 × 8 grid; the point with coordinates (i0, i1, i2)
  takes the query tile of batch i0, heads 2·i1 and 2·i1 + 1, rows 256·i2 … 256·i2 + 255, and the same two heads' whole
  key and value panels, and writes block (i0, i2, i1) of the result [2, 2048, 1024], a block being 1 × 256 × 128: its
  columns 0 … 63 are the first head's 64 lanes, its columns 64 … 127 the second head's. So element (b, t, n) of the
  array is written by the point i0 = b, i2 = t / 256, i1 = n / 128, at the block's (0, t mod 256, n mod 128), by the store
  of head (n mod 128) / 64 of the pair at lane n mod 64 — head n / 64 of the sixteen, lane n mod 64. Every point writes
  its block of the one function (b, t, n) ↦ the attention of head n / 64 at position t, lane n mod 64; the 128 blocks
  tile the array, and the array ends holding that function.
-/
import proofs.«123667_j5557687681798_2_alg».proof.Proof.Ideal.AttnRegion
import proofs.«123667_j5557687681798_2_alg».proof.Proof.Value.AttentionBlock
import proofs.«123667_j5557687681798_2_alg».proof.Proof.Value.HeadAttention
import Idealize.ShloMosaic.Lib.Pipeline.Value
import Idealize.ShloMosaic.Lib.ValueIdx

noncomputable section

open scoped BigOperators

namespace Cert.KernelIdeal.KVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Attention (Heads hScore hMax hExp hWeight hOut headOf laneOf)

variable (V : (c : Dev nD) → (b : Ref sig .tc) → Buf (Elt Ideal) ((c : Thread nD τ).loc b))

/-! ## The array -/

/-- An array [2, 16, 2048, 64] as a per-head array. -/
def headsArr (A : S2x16x2048x64.Idx → EReal) : Heads := fun b h t d => A (ix4 b h t d)

/-- The attention of three per-head arrays, the heads laid side by side along the channel axis: channel n is lane
    n mod 64 of head n / 64. The scale is the body's literal word (one eighth). -/
def attnOf (A0 A1 A2 : S2x16x2048x64.Idx → EReal) : S2x2048x1024.Idx → EReal := fun i =>
  hOut (Ideal.ofBits .f32 0x3E000000#32) (headsArr A0) (headsArr A1) (headsArr A2) (i 0) (headOf (i 2)) (i 1) (laneOf (i 2))

/-- The region's result: the attention of the query, key and value arrays as the region finds them. -/
def attnArr (c : Dev nD) : S2x2048x1024.Idx → EReal := attnOf (V c main_v11) (V c main_v13) (V c main_v15)

/-! ## What the body leaves in the output block, as one function of the block index -/

/-- Column m of the output block is lane m mod 64 of head m / 64 of the pair. -/
def tileFun (x0 : Vec Ideal S1x2x256x64 .bf16) (x1 x2 : Vec Ideal S1x2x2048x64 .bf16) : S1x256x128.Idx → EReal := fun y =>
  tileOut x0 x1 x2 ⟨(y 2).val / 64, by have h : (y 2).val < 128 := (y 2).isLt; omega⟩ (y 1)
    ⟨(y 2).val % 64, Nat.mod_lt _ (by decide)⟩

/-- A whole block sits at offset zero of its staging buffer. -/
theorem attn_origin : (![0, 0, 0, 0] : Fin 4 → Nat) = fun _ => 0 := funext fun a => by fin_cases a <;> rfl

/-- The second store: head 1 of the pair, into the columns from 64 on. -/
theorem hi_piece (x0 : Vec Ideal S1x2x256x64 .bf16) (x1 x2 : Vec Ideal S1x2x2048x64 .bf16) (x : S1x256x64.Idx) :
    k1_pay3 (F := Ideal) x0 x1 x2 x = tileFun x0 x1 x2 (colsHi.emb x) := by
  obtain ⟨u, r, d, rfl⟩ : ∃ (u : Fin 1) (r : Fin 256) (d : Fin 64), x = ix3 u r d := ⟨x 0, x 1, x 2, eq_ix3 x⟩
  rw [attn_payload_hi]
  unfold tileFun
  have hd := d.isLt
  have hg : (⟨(colsHi.emb (ix3 u r d) 2).val / 64, by have h : (colsHi.emb (ix3 u r d) 2).val < 128 := (colsHi.emb (ix3 u r d) 2).isLt; omega⟩ : Fin 2) = 1 :=
    Fin.ext (by show (64 + 1 * d.val) / 64 = 1; omega)
  have hr : (colsHi.emb (ix3 u r d) 1 : Fin 256) = r := Fin.ext (by show 0 + 1 * r.val = r.val; omega)
  have hl : (⟨(colsHi.emb (ix3 u r d) 2).val % 64, Nat.mod_lt _ (by decide)⟩ : Fin 64) = d :=
    Fin.ext (by show (64 + 1 * d.val) % 64 = d.val; omega)
  rw [hg, hr, hl]

/-- The first store: head 0 of the pair, into the columns below 64. -/
theorem lo_piece (x0 : Vec Ideal S1x2x256x64 .bf16) (x1 x2 : Vec Ideal S1x2x2048x64 .bf16) (x : S1x256x64.Idx) :
    k1_pay2 (F := Ideal) x0 x1 x2 x = tileFun x0 x1 x2 (colsLo.emb x) := by
  obtain ⟨u, r, d, rfl⟩ : ∃ (u : Fin 1) (r : Fin 256) (d : Fin 64), x = ix3 u r d := ⟨x 0, x 1, x 2, eq_ix3 x⟩
  rw [attn_payload_lo]
  unfold tileFun
  have hd := d.isLt
  have hg : (⟨(colsLo.emb (ix3 u r d) 2).val / 64, by have h : (colsLo.emb (ix3 u r d) 2).val < 128 := (colsLo.emb (ix3 u r d) 2).isLt; omega⟩ : Fin 2) = 0 :=
    Fin.ext (by show (0 + 1 * d.val) / 64 = 0; omega)
  have hr : (colsLo.emb (ix3 u r d) 1 : Fin 256) = r := Fin.ext (by show 0 + 1 * r.val = r.val; omega)
  have hl : (⟨(colsLo.emb (ix3 u r d) 2).val % 64, Nat.mod_lt _ (by decide)⟩ : Fin 64) = d :=
    Fin.ext (by show (0 + 1 * d.val) % 64 = d.val; omega)
  rw [hg, hr, hl]

/-- THE BLOCK THE BODY LEAVES is that function: both stores are tiles of it, and the two tiles cover the block. -/
theorem left1_apply (x0 : Vec Ideal S1x2x256x64 .bf16) (x1 x2 : Vec Ideal S1x2x2048x64 .bf16) (y : S1x256x128.Idx) :
    left1 (F := Ideal) x0 x1 x2 y = tileFun x0 x1 x2 y := by
  unfold left1
  simp only [View.ld_unit_zero (S := S1x2x256x64) attn_origin, View.ld_unit_zero (S := S1x2x2048x64) attn_origin]
  refine View.canon_apply_of_pieces (Val := Elt Ideal) (e := .bf16) (tileFun x0 x1 x2) _ ?_ y (cover1 _ _ y)
  intro p hp x
  rcases List.mem_cons.mp hp with rfl | hp'
  · exact hi_piece x0 x1 x2 x
  · rcases List.mem_singleton.mp hp' with rfl
    exact lo_piece x0 x1 x2 x

/-! ## One head's tile against the whole arrays

Over plain blocks and arrays: when the query tile's row (g, r) is row (b, h, t) of the array `A0` and the key and value
panels' head g is head (b, h) of `A1` and `A2`, the tile's attention at (g, r) is the arrays' attention at (b, h, t): the
two are the same tree of sums, a fold of max, exponentials and a quotient over the same entries. -/

section Tile
variable (A0 A1 A2 : S2x16x2048x64.Idx → EReal)
  (x0 : Vec Ideal S1x2x256x64 .bf16) (x1 x2 : Vec Ideal S1x2x2048x64 .bf16)
  (b : Fin 2) (h : Fin 16) (t : Fin 2048) (g : Fin 2) (r : Fin 256)

theorem tile_score (hq : ∀ d : Fin 64, x0 (ix4 (0 : Fin 1) g r d) = A0 (ix4 b h t d))
    (hk : ∀ (s : Fin 2048) (d : Fin 64), x1 (ix4 (0 : Fin 1) g s d) = A1 (ix4 b h s d)) (s : Fin 2048) :
    tileScore x0 x1 g r s = hScore (Ideal.ofBits .f32 0x3E000000#32) (headsArr A0) (headsArr A1) b h t s := by
  unfold tileScore hScore
  refine congrArg (· * Ideal.ofBits .f32 0x3E000000#32) (Finset.sum_congr rfl fun d _ => ?_)
  rw [hq d, hk s d]
  rfl

theorem tile_max (hq : ∀ d : Fin 64, x0 (ix4 (0 : Fin 1) g r d) = A0 (ix4 b h t d))
    (hk : ∀ (s : Fin 2048) (d : Fin 64), x1 (ix4 (0 : Fin 1) g s d) = A1 (ix4 b h s d)) :
    tileMax x0 x1 g r = hMax (Ideal.ofBits .f32 0x3E000000#32) (headsArr A0) (headsArr A1) b h t := by
  unfold tileMax hMax
  exact congrArg (fun f => Finset.fold max (⊥ : EReal) f (Finset.univ : Finset (Fin 2048)))
    (funext fun s => tile_score A0 A1 x0 x1 b h t g r hq hk s)

theorem tile_exp (hq : ∀ d : Fin 64, x0 (ix4 (0 : Fin 1) g r d) = A0 (ix4 b h t d))
    (hk : ∀ (s : Fin 2048) (d : Fin 64), x1 (ix4 (0 : Fin 1) g s d) = A1 (ix4 b h s d)) (s : Fin 2048) :
    tileExp x0 x1 g r s = hExp (Ideal.ofBits .f32 0x3E000000#32) (headsArr A0) (headsArr A1) b h t s := by
  unfold tileExp hExp
  rw [tile_score A0 A1 x0 x1 b h t g r hq hk s, tile_max A0 A1 x0 x1 b h t g r hq hk]

theorem tile_weight (hq : ∀ d : Fin 64, x0 (ix4 (0 : Fin 1) g r d) = A0 (ix4 b h t d))
    (hk : ∀ (s : Fin 2048) (d : Fin 64), x1 (ix4 (0 : Fin 1) g s d) = A1 (ix4 b h s d)) (s : Fin 2048) :
    tileWeight x0 x1 g r s = hWeight (Ideal.ofBits .f32 0x3E000000#32) (headsArr A0) (headsArr A1) b h t s := by
  unfold tileWeight hWeight
  exact congrArg₂ Ideal.div (tile_exp A0 A1 x0 x1 b h t g r hq hk s)
    (Finset.sum_congr rfl fun s' _ => tile_exp A0 A1 x0 x1 b h t g r hq hk s')

theorem tile_out (hq : ∀ d : Fin 64, x0 (ix4 (0 : Fin 1) g r d) = A0 (ix4 b h t d))
    (hk : ∀ (s : Fin 2048) (d : Fin 64), x1 (ix4 (0 : Fin 1) g s d) = A1 (ix4 b h s d))
    (hv : ∀ (s : Fin 2048) (d : Fin 64), x2 (ix4 (0 : Fin 1) g s d) = A2 (ix4 b h s d)) (d : Fin 64) :
    tileOut x0 x1 x2 g r d
      = hOut (Ideal.ofBits .f32 0x3E000000#32) (headsArr A0) (headsArr A1) (headsArr A2) b h t d := by
  unfold tileOut hOut
  refine Finset.sum_congr rfl fun s _ => ?_
  rw [tile_weight A0 A1 x0 x1 b h t g r hq hk s, hv s d]
  rfl

end Tile

/-! ## One point -/

/-- ONE POINT, over plain blocks and arrays. The query tile reads `A0` through `e0`, the key and value panels `A1` and `A2`
    through `e1` and `e2`; at grid coordinates (j0, j1, j2) the tile's (u, g, r, d) is the array's (j0 + u, 2·j1 + g, 256·j2 + r, d)
    and a panel's (u, g, s, d) is (j0 + u, 2·j1 + g, s, d); the output block's index `y` = (u, r, m) sits in the result array at
    `i` = (j0 + u, 256·j2 + r, 128·j1 + m). Then what the body leaves at `y` is the arrays' attention at `i`. -/
theorem attn_point (A0 A1 A2 : S2x16x2048x64.Idx → EReal)
    (x0 : Vec Ideal S1x2x256x64 .bf16) (x1 x2 : Vec Ideal S1x2x2048x64 .bf16)
    (e0 : S1x2x256x64.Idx → S2x16x2048x64.Idx) (e1 e2 : S1x2x2048x64.Idx → S2x16x2048x64.Idx)
    (h0 : ∀ z, x0 z = A0 (e0 z)) (h1 : ∀ z, x1 z = A1 (e1 z)) (h2 : ∀ z, x2 z = A2 (e2 z))
    (j0 j1 j2 : Nat)
    (q0 : ∀ z, (e0 z 0).val = j0 * 1 + 1 * (z 0).val) (q1 : ∀ z, (e0 z 1).val = j1 * 2 + 1 * (z 1).val)
    (q2 : ∀ z, (e0 z 2).val = j2 * 256 + 1 * (z 2).val) (q3 : ∀ z, (e0 z 3).val = 0 * 64 + 1 * (z 3).val)
    (k0 : ∀ z, (e1 z 0).val = j0 * 1 + 1 * (z 0).val) (k1 : ∀ z, (e1 z 1).val = j1 * 2 + 1 * (z 1).val)
    (k2 : ∀ z, (e1 z 2).val = 0 * 2048 + 1 * (z 2).val) (k3 : ∀ z, (e1 z 3).val = 0 * 64 + 1 * (z 3).val)
    (v0 : ∀ z, (e2 z 0).val = j0 * 1 + 1 * (z 0).val) (v1 : ∀ z, (e2 z 1).val = j1 * 2 + 1 * (z 1).val)
    (v2 : ∀ z, (e2 z 2).val = 0 * 2048 + 1 * (z 2).val) (v3 : ∀ z, (e2 z 3).val = 0 * 64 + 1 * (z 3).val)
    (y : S1x256x128.Idx) (i : S2x2048x1024.Idx)
    (hi0 : (i 0).val = j0 * 1 + 1 * (y 0).val) (hi1 : (i 1).val = j2 * 256 + 1 * (y 1).val)
    (hi2 : (i 2).val = j1 * 128 + 1 * (y 2).val) :
    left1 (F := Ideal) x0 x1 x2 y = attnOf A0 A1 A2 i := by
  have hy0 : (y 0).val < 1 := (y 0).isLt
  have hy2 : (y 2).val < 128 := (y 2).isLt
  rw [left1_apply]
  unfold tileFun attnOf
  have hl : laneOf (i 2) = (⟨(y 2).val % 64, Nat.mod_lt _ (by decide)⟩ : Fin 64) :=
    Fin.ext (by show (i 2).val % 64 = (y 2).val % 64; rw [hi2]; omega)
  rw [hl]
  refine tile_out A0 A1 A2 x0 x1 x2 (i 0) (headOf (i 2)) (i 1) _ (y 1) ?_ ?_ ?_ _
  · intro d
    rw [h0]
    refine congrArg A0 (funext fun a => Fin.ext ?_)
    match a with
    | ⟨0, _⟩ => show (e0 _ 0).val = (i 0).val; rw [q0, hi0]; show j0 * 1 + 1 * 0 = j0 * 1 + 1 * (y 0).val; omega
    | ⟨1, _⟩ => show (e0 _ 1).val = (i 2).val / 64; rw [q1, hi2]; show j1 * 2 + 1 * ((y 2).val / 64) = (j1 * 128 + 1 * (y 2).val) / 64; omega
    | ⟨2, _⟩ => show (e0 _ 2).val = (i 1).val; rw [q2, hi1]
    | ⟨3, _⟩ => show (e0 _ 3).val = d.val; rw [q3]; show 0 * 64 + 1 * d.val = d.val; omega
  · intro s d
    rw [h1]
    refine congrArg A1 (funext fun a => Fin.ext ?_)
    match a with
    | ⟨0, _⟩ => show (e1 _ 0).val = (i 0).val; rw [k0, hi0]; show j0 * 1 + 1 * 0 = j0 * 1 + 1 * (y 0).val; omega
    | ⟨1, _⟩ => show (e1 _ 1).val = (i 2).val / 64; rw [k1, hi2]; show j1 * 2 + 1 * ((y 2).val / 64) = (j1 * 128 + 1 * (y 2).val) / 64; omega
    | ⟨2, _⟩ => show (e1 _ 2).val = s.val; rw [k2]; show 0 * 2048 + 1 * s.val = s.val; omega
    | ⟨3, _⟩ => show (e1 _ 3).val = d.val; rw [k3]; show 0 * 64 + 1 * d.val = d.val; omega
  · intro s d
    rw [h2]
    refine congrArg A2 (funext fun a => Fin.ext ?_)
    match a with
    | ⟨0, _⟩ => show (e2 _ 0).val = (i 0).val; rw [v0, hi0]; show j0 * 1 + 1 * 0 = j0 * 1 + 1 * (y 0).val; omega
    | ⟨1, _⟩ => show (e2 _ 1).val = (i 2).val / 64; rw [v1, hi2]; show j1 * 2 + 1 * ((y 2).val / 64) = (j1 * 128 + 1 * (y 2).val) / 64; omega
    | ⟨2, _⟩ => show (e2 _ 2).val = s.val; rw [v2]; show 0 * 2048 + 1 * s.val = s.val; omega
    | ⟨3, _⟩ => show (e2 _ 3).val = d.val; rw [v3]; show 0 * 64 + 1 * d.val = d.val; omega

/-! ## The grid -/

/-- The printed index maps, decided over the 128 points: with the output's block at (i0, i2, i1), the query tile is at
    (i0, i1, i2, 0) and both panels at (i0, i1, 0, 0). -/
theorem attn_maps : ∀ t : Fin cfg1.N,
    win1_0.index t (0 : Fin 4) = win1_3.index t (0 : Fin 3) ∧ win1_0.index t (1 : Fin 4) = win1_3.index t (2 : Fin 3)
    ∧ win1_0.index t (2 : Fin 4) = win1_3.index t (1 : Fin 3) ∧ win1_0.index t (3 : Fin 4) = 0
    ∧ win1_1.index t (0 : Fin 4) = win1_3.index t (0 : Fin 3) ∧ win1_1.index t (1 : Fin 4) = win1_3.index t (2 : Fin 3)
    ∧ win1_1.index t (2 : Fin 4) = 0 ∧ win1_1.index t (3 : Fin 4) = 0
    ∧ win1_2.index t (0 : Fin 4) = win1_3.index t (0 : Fin 3) ∧ win1_2.index t (1 : Fin 4) = win1_3.index t (2 : Fin 3)
    ∧ win1_2.index t (2 : Fin 4) = 0 ∧ win1_2.index t (3 : Fin 4) = 0 :=
  (by decide +kernel : ∀ t : Fin grid1.N, _)

/-- The output's block indices at point number t, the grid being run with its last coordinate fastest: the point with
    coordinates (i0, i1, i2) is number (i0 · 8 + i1) · 8 + i2, and its output block is (i0, i2, i1). -/
theorem attn_blocks : ∀ t : Fin cfg1.N, win1_3.index t (0 : Fin 3) = t.val / 64
    ∧ win1_3.index t (1 : Fin 3) = t.val % 8 ∧ win1_3.index t (2 : Fin 3) = t.val / 8 % 8 :=
  (by decide +kernel : ∀ t : Fin grid1.N, _)

/-- WHAT POINT `t` WRITES BACK is its block of the attention array. -/
theorem attn_flushed (c : Dev nD) (t : Fin cfg1.N) :
    (dat1 V c).flushed 3 t = ((cfg1.win 3).blk t).view.read (Elt Ideal) (attnArr V c) := by
  show (cfg1.win 3).cut (grid1.coords t) ((dat1 V c).after 3 t) = _
  rw [dat1_after_3]
  obtain ⟨a0, a1, a2, a3, b0, b1, b2, b3, c0, c1, c2, c3⟩ := attn_maps t
  funext y
  show left1 (F := Ideal) (blk1 V c 0 t) (blk1 V c 1 t) (blk1 V c 2 t) y = attnArr V c (((cfg1.win 3).blk t).view.emb y)
  exact attn_point (V c main_v11) (V c main_v13) (V c main_v15) (blk1 V c 0 t) (blk1 V c 1 t) (blk1 V c 2 t)
    ((cfg1.win 0).blk t).view.emb ((cfg1.win 1).blk t).view.emb ((cfg1.win 2).blk t).view.emb
    (fun _ => rfl) (fun _ => rfl) (fun _ => rfl)
    (win1_3.index t (0 : Fin 3)) (win1_3.index t (2 : Fin 3)) (win1_3.index t (1 : Fin 3))
    (fun z => by show win1_0.index t (0 : Fin 4) * 1 + 1 * (z 0).val = _; rw [a0])
    (fun z => by show win1_0.index t (1 : Fin 4) * 2 + 1 * (z 1).val = _; rw [a1])
    (fun z => by show win1_0.index t (2 : Fin 4) * 256 + 1 * (z 2).val = _; rw [a2])
    (fun z => by show win1_0.index t (3 : Fin 4) * 64 + 1 * (z 3).val = _; rw [a3])
    (fun z => by show win1_1.index t (0 : Fin 4) * 1 + 1 * (z 0).val = _; rw [b0])
    (fun z => by show win1_1.index t (1 : Fin 4) * 2 + 1 * (z 1).val = _; rw [b1])
    (fun z => by show win1_1.index t (2 : Fin 4) * 2048 + 1 * (z 2).val = _; rw [b2])
    (fun z => by show win1_1.index t (3 : Fin 4) * 64 + 1 * (z 3).val = _; rw [b3])
    (fun z => by show win1_2.index t (0 : Fin 4) * 1 + 1 * (z 0).val = _; rw [c0])
    (fun z => by show win1_2.index t (1 : Fin 4) * 2 + 1 * (z 1).val = _; rw [c1])
    (fun z => by show win1_2.index t (2 : Fin 4) * 2048 + 1 * (z 2).val = _; rw [c2])
    (fun z => by show win1_2.index t (3 : Fin 4) * 64 + 1 * (z 3).val = _; rw [c3])
    y (((cfg1.win 3).blk t).view.emb y) rfl rfl rfl

/-- An index of the array is in point `t`'s block iff each coordinate is in the block's range on its axis. -/
theorem attn_mem_blk (t : Fin cfg1.N) (i : S2x2048x1024.Idx) :
    i ∈ ((cfg1.win 3).blk t).view.set ↔ ∀ a : Fin 3, win1_3.index t a * S1x256x128.size a ≤ (i a).val
      ∧ (i a).val < win1_3.index t a * S1x256x128.size a + S1x256x128.size a := by
  show i ∈ ((View.whole main_v16).slice (win1_3.rect t)).set ↔ _
  rw [View.set_slice_whole, Rect.mem_set_unit]
  exact Iff.rfl

/-- The blocks tile the array: (b, t, n) is in the block with block indices b, t / 256 and n / 128, the block of the
    point with coordinates (b, n / 128, t / 256). -/
theorem attn_cover (i : S2x2048x1024.Idx) :
    ∃ t : Fin cfg1.N, (cfg1.win 3).flush t = true ∧ i ∈ ((cfg1.win 3).blk t).view.set := by
  have hi0 : (i 0).val < 2 := (i 0).isLt
  have hi1 : (i 1).val < 2048 := (i 1).isLt
  have hi2 : (i 2).val < 1024 := (i 2).isLt
  have hN : grid1.N = 128 := N_1
  obtain ⟨t, ht⟩ : ∃ t : Fin cfg1.N, t.val = ((i 0).val * 8 + (i 2).val / 128) * 8 + (i 1).val / 256 :=
    ⟨⟨((i 0).val * 8 + (i 2).val / 128) * 8 + (i 1).val / 256, by show _ < grid1.N; omega⟩, rfl⟩
  obtain ⟨p0, p1, p2⟩ := attn_blocks t
  refine ⟨t, flush1_3 t, ?_⟩
  rw [attn_mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 128 ≤ (i 2).val ∧ (i 2).val < win1_3.index t (2 : Fin 3) * 128 + 128; omega

/-- THE ARRAY after the region's run is the attention of the three arrays. -/
theorem attn_final (c : Dev nD) : (dat1 V c).arrAt 3 cfg1.N = attnArr V c :=
  (dat1 V c).arrAt_eq_of_cover 3 (attnArr V c) (fun t _ => attn_flushed V c t) attn_cover

end Cert.KernelIdeal.KVal

end
-- ==== Proof.Value.KernelResult.lean ====
/-
  The kernel's result as the specification's function of its arguments. Region by region along @main: the first
  region's three column bands are the query, key and value layers of the activations; read as per-head arrays they
  enter the second region, which leaves the heads' contexts side by side; the third region applies the output layer
  and adds the bias; the last reshape reads the rows as (batch, position). Each region's exit array is taken from
  its own module, each host stretch from the layout lemmas, and the arguments reach every place they are read as
  launched.
-/
import proofs.«123667_j5557687681798_2_alg».proof.Proof.Value.HostStretches
import proofs.«123667_j5557687681798_2_alg».proof.Proof.Value.ScaleWord
import proofs.«123667_j5557687681798_2_alg».proof.Proof.Value.ProjArray
import proofs.«123667_j5557687681798_2_alg».proof.Proof.Value.OutArray
import proofs.«123667_j5557687681798_2_alg».proof.Proof.Value.HeadAttention
import proofs.«123667_j5557687681798_2_alg».proof.Proof.Value.AttnArray

set_option maxRecDepth 16384

noncomputable section

open scoped BigOperators

namespace Cert.KernelIdeal.KVal

open Cert.KernelIdeal Cert.KernelIdeal.Gen Cert.KernelIdeal.Hand
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

/-! ## The six arguments as launched -/

abbrev inX : Cert.Attention.Act := m ((c : Thread nD τ).loc main_arg0)
abbrev inWk : Cert.Attention.Mat := m ((c : Thread nD τ).loc main_arg1)
abbrev inWq : Cert.Attention.Mat := m ((c : Thread nD τ).loc main_arg2)
abbrev inWv : Cert.Attention.Mat := m ((c : Thread nD τ).loc main_arg3)
abbrev inWp : Cert.Attention.Mat := m ((c : Thread nD τ).loc main_arg4)
abbrev inB : Cert.Attention.Bias := m ((c : Thread nD τ).loc main_arg5)

/-! ## Region 0's entry: the activations as rows, the three weight bands -/

theorem entry0_rows (b : Fin 2) (t : Fin 2048) (k : Fin 1024) :
    (Hand.V1 m ρ c main_v0 : S4096x1024.Idx → EReal)
        (ix2 ⟨b.val * 2048 + t.val, by have := b.isLt; have := t.isLt; omega⟩ k) = inX m c (ix3 b t k) :=
  stretch0_rows_at (Hand.W0 m ρ c) b t k

theorem entry0_query (k n : Fin 1024) :
    (Hand.V1 m ρ c main_v5 : S1024x3072.Idx → EReal) (ix2 k ⟨n.val, by have := n.isLt; omega⟩) = inWq m c (ix2 n k) :=
  stretch0_query (Hand.W0 m ρ c) k n
theorem entry0_key (k n : Fin 1024) :
    (Hand.V1 m ρ c main_v5 : S1024x3072.Idx → EReal) (ix2 k ⟨1024 + n.val, by have := n.isLt; omega⟩) = inWk m c (ix2 n k) :=
  stretch0_key (Hand.W0 m ρ c) k n
theorem entry0_value (k n : Fin 1024) :
    (Hand.V1 m ρ c main_v5 : S1024x3072.Idx → EReal) (ix2 k ⟨2048 + n.val, by have := n.isLt; omega⟩) = inWv m c (ix2 n k) :=
  stretch0_value (Hand.W0 m ρ c) k n

/-! ## Region 0's exit: the three bands of the projection are the three linear layers -/

/-- What region 0 leaves in the projection's array. -/
theorem exit0_array : (Hand.W2 m ρ c (main_v6 : DevRef τ sig) : S4096x3072.Idx → EReal) = projArr (Hand.V1 m ρ) c :=
  (W2_arr m ρ c 2).trans (proj_final (Hand.V1 m ρ) c)

theorem exit0_query (b : Fin 2) (h : Fin 16) (t : Fin 2048) (d : Fin 64) :
    (Hand.W2 m ρ c (main_v6 : DevRef τ sig) : S4096x3072.Idx → EReal)
        (ix2 ⟨b.val * 2048 + t.val, by have := b.isLt; have := t.isLt; omega⟩
          ⟨h.val * 64 + d.val, by have := h.isLt; have := d.isLt; omega⟩)
      = Cert.Attention.proj (inX m c) (inWq m c) b t (Cert.Attention.chan h d) := by
  rw [exit0_array]
  show rowByCol (Hand.V1 m ρ c main_v0) (Hand.V1 m ρ c main_v5) _ _ = _
  unfold rowByCol Cert.Attention.proj
  exact Finset.sum_congr rfl fun k _ => congrArg₂ (fun (u v : EReal) => u * v)
    (entry0_rows m ρ c b t k) (entry0_query m ρ c k (Cert.Attention.chan h d))

theorem exit0_key (b : Fin 2) (h : Fin 16) (t : Fin 2048) (d : Fin 64) :
    (Hand.W2 m ρ c (main_v6 : DevRef τ sig) : S4096x3072.Idx → EReal)
        (ix2 ⟨b.val * 2048 + t.val, by have := b.isLt; have := t.isLt; omega⟩
          ⟨1024 + (h.val * 64 + d.val), by have := h.isLt; have := d.isLt; omega⟩)
      = Cert.Attention.proj (inX m c) (inWk m c) b t (Cert.Attention.chan h d) := by
  rw [exit0_array]
  show rowByCol (Hand.V1 m ρ c main_v0) (Hand.V1 m ρ c main_v5) _ _ = _
  unfold rowByCol Cert.Attention.proj
  exact Finset.sum_congr rfl fun k _ => congrArg₂ (fun (u v : EReal) => u * v)
    (entry0_rows m ρ c b t k) (entry0_key m ρ c k (Cert.Attention.chan h d))

theorem exit0_value (b : Fin 2) (h : Fin 16) (t : Fin 2048) (d : Fin 64) :
    (Hand.W2 m ρ c (main_v6 : DevRef τ sig) : S4096x3072.Idx → EReal)
        (ix2 ⟨b.val * 2048 + t.val, by have := b.isLt; have := t.isLt; omega⟩
          ⟨2048 + (h.val * 64 + d.val), by have := h.isLt; have := d.isLt; omega⟩)
      = Cert.Attention.proj (inX m c) (inWv m c) b t (Cert.Attention.chan h d) := by
  rw [exit0_array]
  show rowByCol (Hand.V1 m ρ c main_v0) (Hand.V1 m ρ c main_v5) _ _ = _
  unfold rowByCol Cert.Attention.proj
  exact Finset.sum_congr rfl fun k _ => congrArg₂ (fun (u v : EReal) => u * v)
    (entry0_rows m ρ c b t k) (entry0_value m ρ c k (Cert.Attention.chan h d))

/-! ## Region 1's entry: the per-head query, key and value arrays are the three projections -/

theorem entry1_query :
    (fun b h t d => (Hand.V3 m ρ c main_v11 : S2x16x2048x64.Idx → EReal) (ix4 b h t d))
      = Cert.Attention.headsOf (inX m c) (inWq m c) :=
  funext fun b => funext fun h => funext fun t => funext fun d =>
    (stretch1_query (Hand.W2 m ρ c) b h t d).trans (exit0_query m ρ c b h t d)
theorem entry1_key :
    (fun b h t d => (Hand.V3 m ρ c main_v13 : S2x16x2048x64.Idx → EReal) (ix4 b h t d))
      = Cert.Attention.headsOf (inX m c) (inWk m c) :=
  funext fun b => funext fun h => funext fun t => funext fun d =>
    (stretch1_key (Hand.W2 m ρ c) b h t d).trans (exit0_key m ρ c b h t d)
theorem entry1_value :
    (fun b h t d => (Hand.V3 m ρ c main_v15 : S2x16x2048x64.Idx → EReal) (ix4 b h t d))
      = Cert.Attention.headsOf (inX m c) (inWv m c) :=
  funext fun b => funext fun h => funext fun t => funext fun d =>
    (stretch1_value (Hand.W2 m ρ c) b h t d).trans (exit0_value m ρ c b h t d)

/-! ## Region 1's exit: the heads' contexts side by side -/

theorem exit1_merged (b : Fin 2) (t : Fin 2048) (n : Fin 1024) :
    (Hand.W4 m ρ c (main_v16 : DevRef τ sig) : S2x2048x1024.Idx → EReal) (ix3 b t n)
      = Cert.Attention.merged Cert.Attention.eighth (inX m c) (inWk m c) (inWq m c) (inWv m c) b t n := by
  have e : (Hand.W4 m ρ c (main_v16 : DevRef τ sig) : S2x2048x1024.Idx → EReal) = attnArr (Hand.V3 m ρ) c :=
    (W4_arr m ρ c 3).trans (attn_final (Hand.V3 m ρ) c)
  rw [e]
  show Cert.Attention.hOut (Ideal.ofBits .f32 0x3E000000#32)
      (fun b h t d => (Hand.V3 m ρ c main_v11 : S2x16x2048x64.Idx → EReal) (ix4 b h t d))
      (fun b h s d => (Hand.V3 m ρ c main_v13 : S2x16x2048x64.Idx → EReal) (ix4 b h s d))
      (fun b h s d => (Hand.V3 m ρ c main_v15 : S2x16x2048x64.Idx → EReal) (ix4 b h s d))
      b (Cert.Attention.headOf n) t (Cert.Attention.laneOf n) = _
  rw [entry1_query m ρ c, entry1_key m ρ c, entry1_value m ρ c, ofBits_eighth]
  rfl

/-! ## Region 2's entry and exit: the output layer -/

theorem entry2_rows (b : Fin 2) (t : Fin 2048) (k : Fin 1024) :
    (Hand.V5 m ρ c main_v17 : S4096x1024.Idx → EReal)
        (ix2 ⟨b.val * 2048 + t.val, by have := b.isLt; have := t.isLt; omega⟩ k)
      = Cert.Attention.merged Cert.Attention.eighth (inX m c) (inWk m c) (inWq m c) (inWv m c) b t k :=
  (stretch2_rows_at (Hand.W4 m ρ c) b t k).trans (exit1_merged m ρ c b t k)

theorem entry2_matrix (k n : Fin 1024) :
    (Hand.V5 m ρ c main_v19 : S1024x1024.Idx → EReal) (ix2 k n) = inWp m c (ix2 n k) :=
  (stretch2_matrix (Hand.W4 m ρ c) k n).trans (congrFun (W4_output_matrix m ρ c) (ix2 n k))

theorem entry2_bias : (Hand.V5 m ρ c main_arg5 : S1024.Idx → EReal) = inB m c :=
  W5_bias m ρ c

theorem exit2_result (b : Fin 2) (t : Fin 2048) (n : Fin 1024) :
    (Hand.W6 m ρ c (main_v20 : DevRef τ sig) : S4096x1024.Idx → EReal)
        (ix2 ⟨b.val * 2048 + t.val, by have := b.isLt; have := t.isLt; omega⟩ n)
      = Cert.Attention.result Cert.Attention.eighth (inX m c) (inWk m c) (inWq m c) (inWv m c) (inWp m c) (inB m c) b t n := by
  have e : (Hand.W6 m ρ c (main_v20 : DevRef τ sig) : S4096x1024.Idx → EReal) = outArr (Hand.V5 m ρ) c :=
    (W6_arr m ρ c 3).trans (out_final (Hand.V5 m ρ) c)
  rw [e]
  show rowByColPlus (Hand.V5 m ρ c main_v17) (Hand.V5 m ρ c main_v19) (Hand.V5 m ρ c main_arg5) _ _ = _
  unfold rowByColPlus Cert.Attention.result
  exact congrArg₂ (fun (u v : EReal) => u + v)
    (Finset.sum_congr rfl fun k _ => congrArg₂ (fun (u v : EReal) => u * v)
      (entry2_rows m ρ c b t k) (entry2_matrix m ρ c k n))
    (congrFun (entry2_bias m ρ c) (ix1 n))

/-! ## The result -/

/-- On every core, @main's result buffer ends holding the specification's function of the six arguments as
    launched. -/
theorem kernel_result : (Hand.W7 m ρ c (main_v21 : DevRef τ sig) : S2x2048x1024.Idx → EReal)
    = Cert.Attention.resultArr Cert.Attention.eighth (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  funext i
  obtain ⟨b, t, n, rfl⟩ : ∃ (b : Fin 2) (t : Fin 2048) (n : Fin 1024), i = ix3 b t n := ⟨i 0, i 1, i 2, eq_ix3 i⟩
  exact (stretch3_result (Hand.W6 m ρ c) b t n).trans (exit2_result m ρ c b t n)

end Cert.KernelIdeal.KVal

end
-- ==== Proof.lean ====
/-
  Dense multi-head self-attention: the kernel, its idealization and the reference.

  The kernel computes the layer in three grid regions of @main — the fused query / key / value projection as one block
  product per grid point, the attention of two heads' 256-row query tile against the full key and value panels, and the
  output projection with its bias — among four stretches of host operations that only re-lay arrays (a reshape, transposes,
  a concatenation of the three transposed weight matrices, slices, a change of float format). The reference computes the
  same layer with whole-array products on the host.

  Frames. Each program's @main runs to its end from any memory, faulting nowhere, and leaves its six argument arrays as
  launched: for the two kernel programs this is the run of @main's seven segments with every unscoped buffer named at each
  boundary (the regions' bodies run once per grid point on their staged blocks); for the reference it is its run of host
  operations. None of this uses the precondition.

  Preservation. The idealization rewrote no operation, so there is nothing to state.

  The algebraic claim. At the extended reals both programs end with the result array equal to ONE function of the six
  arguments, index by index (Cert.Attention.resultArr): the projections are the same finite sums over the 1024 input
  channels (the kernel's columns of the concatenated matrix are the rows of the three weight matrices), a head's lanes are
  the channels h · 64 + d on both sides, the scores, the row maximum, the exponentials, the row sum, the quotient and the
  weighted sum are the same operations in the same order, the kernel's scale word one eighth is the reference's 1 / √64,
  the reference's extra maximum against minus infinity is the identity, and a change of float format is the identity.
  No law used needs finiteness, so the precondition is never opened.
-/
import proofs.«123667_j5557687681798_2_alg».proof.Defs
import proofs.«123667_j5557687681798_2_alg».proof.Proof.Gen.Kernel
import proofs.«123667_j5557687681798_2_alg».proof.Proof.Gen.KernelIdeal
import proofs.«123667_j5557687681798_2_alg».proof.Proof.Gen.ReferenceIdeal
import proofs.«123667_j5557687681798_2_alg».proof.Proof.Gen.Pre_finite_inputs
import proofs.«123667_j5557687681798_2_alg».proof.Proof.Gen.ReferenceIdeal.Read
import proofs.«123667_j5557687681798_2_alg».proof.Proof.Bits.MainRun
import proofs.«123667_j5557687681798_2_alg».proof.Proof.Ideal.MainRun
import proofs.«123667_j5557687681798_2_alg».proof.Proof.Reference.Result
import proofs.«123667_j5557687681798_2_alg».proof.Proof.Value.KernelResult
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel (hKernel := Cert.Kernel.Gen.facts) (hPre_finite_inputs := Cert.Pre_finite_inputs.Gen.facts) :=
  fun m ρ _ => Cert.Kernel.Hand.frame m ρ

/-- The idealized kernel runs and keeps its arguments. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference runs and keeps its arguments: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the attention layer's result of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Attention.resultArr Cert.Attention.eighth (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact Cert.KernelIdeal.Hand.run_post m ρ fun s h c =>
      ⟨(h c _ (Cert.KernelIdeal.Hand.mem_uc Cert.KernelIdeal.main_v21 (by decide))).trans (Cert.KernelIdeal.KVal.kernel_result m ρ c),
        (h c _ (Cert.KernelIdeal.Hand.mem_uc Cert.KernelIdeal.main_arg0 (by decide))).trans (Cert.KernelIdeal.Hand.W7_main_arg0 m ρ c),
        (h c _ (Cert.KernelIdeal.Hand.mem_uc Cert.KernelIdeal.main_arg1 (by decide))).trans (Cert.KernelIdeal.Hand.W7_main_arg1 m ρ c),
        (h c _ (Cert.KernelIdeal.Hand.mem_uc Cert.KernelIdeal.main_arg2 (by decide))).trans (Cert.KernelIdeal.Hand.W7_main_arg2 m ρ c),
        (h c _ (Cert.KernelIdeal.Hand.mem_uc Cert.KernelIdeal.main_arg3 (by decide))).trans (Cert.KernelIdeal.Hand.W7_main_arg3 m ρ c),
        (h c _ (Cert.KernelIdeal.Hand.mem_uc Cert.KernelIdeal.main_arg4 (by decide))).trans (Cert.KernelIdeal.Hand.W7_main_arg4 m ρ c),
        (h c _ (Cert.KernelIdeal.Hand.mem_uc Cert.KernelIdeal.main_arg5 (by decide))).trans (Cert.KernelIdeal.Hand.W7_main_arg5 m ρ c)⟩
  · refine (θ_run Cert.ReferenceIdeal.defs _ _).mono (fun _ h c => ⟨?_, (h c).2⟩) (Cert.ReferenceIdeal.Value.run (F := Ideal) m' ρ')
    rw [(h c).1, Cert.ReferenceIdeal.Read.val_main_v31_eq, Cert.ReferenceIdeal.RefValue.reference_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
